-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x6 : Shape := ⟨2, ![2000000, 6]⟩
abbrev S3x10 : Shape := ⟨2, ![3, 10]⟩
abbrev S10 : Shape := ⟨1, ![10]⟩
abbrev S10x10 : Shape := ⟨2, ![10, 10]⟩
abbrev S10x100 : Shape := ⟨2, ![10, 100]⟩
abbrev S100 : Shape := ⟨1, ![100]⟩
abbrev S100x3 : Shape := ⟨2, ![100, 3]⟩
abbrev S3 : Shape := ⟨1, ![3]⟩
abbrev S2000000x3 : Shape := ⟨2, ![2000000, 3]⟩
abbrev S2000000x10 : Shape := ⟨2, ![2000000, 10]⟩
abbrev S1x10 : Shape := ⟨2, ![1, 10]⟩
abbrev S_ : Shape := ⟨0, ![]⟩

class Facts : Prop where
  slices_S2000000x6_S2000000x3_0_0 : S2000000x6.Slices ![0, 0] S2000000x3
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)
  bcast_S_S2000000x10 : S_.BroadcastsInDim S2000000x10 (![] : Fin 0 → Fin S2000000x10.rank)
  slices_S2000000x6_S2000000x3_0_3 : S2000000x6.Slices ![0, 3] S2000000x3
  reducesTo_S2000000x10_S_d0_1 : S2000000x10.ReducesTo [0, 1] S_
  h_S_ : 0 < S_.numel
  bcast_S_S2000000x6 : S_.BroadcastsInDim S2000000x6 (![] : Fin 0 → Fin S2000000x6.rank)
  reducesTo_S2000000x6_S_d0_1 : S2000000x6.ReducesTo [0, 1] S_
  bcast_S_S3x10 : S_.BroadcastsInDim S3x10 (![] : Fin 0 → Fin S3x10.rank)
  reducesTo_S3x10_S_d0_1 : S3x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x100 : S_.BroadcastsInDim S10x100 (![] : Fin 0 → Fin S10x100.rank)
  reducesTo_S10x100_S_d0_1 : S10x100.ReducesTo [0, 1] S_
  bcast_S_S100 : S_.BroadcastsInDim S100 (![] : Fin 0 → Fin S100.rank)
  reducesTo_S100_S_d0 : S100.ReducesTo [0] S_
  bcast_S_S100x3 : S_.BroadcastsInDim S100x3 (![] : Fin 0 → Fin S100x3.rank)
  reducesTo_S100x3_S_d0_1 : S100x3.ReducesTo [0, 1] S_
  bcast_S_S3 : S_.BroadcastsInDim S3 (![] : Fin 0 → Fin S3.rank)
  reducesTo_S3_S_d0 : S3.ReducesTo [0] S_
  dot_S2000000x3_S3x10_S2000000x10_1_0_0_1_n_n_wf : DotDims.WF S2000000x3 S3x10 S2000000x10 [1] [0] [0] [1] [] []
  dot_S2000000x10_S10x10_S2000000x10_1_0_0_1_n_n_wf : DotDims.WF S2000000x10 S10x10 S2000000x10 [1] [0] [0] [1] [] []

variable [Facts]

def dot_S2000000x3_S3x10_S2000000x10_1_0_0_1_n_n : DotDims S2000000x3 S3x10 S2000000x10 where
  lhsContracting := [1]
  rhsContracting := [0]
  lhsNonContracting := [0]
  rhsNonContracting := [1]
  lhsBatch := []
  rhsBatch := []
  wf := dot_S2000000x3_S3x10_S2000000x10_1_0_0_1_n_n_wf
def dot_S2000000x10_S10x10_S2000000x10_1_0_0_1_n_n : DotDims S2000000x10 S10x10 S2000000x10 where
  lhsContracting := [1]
  rhsContracting := [0]
  lhsNonContracting := [0]
  rhsNonContracting := [1]
  lhsBatch := []
  rhsBatch := []
  wf := dot_S2000000x10_S10x10_S2000000x10_1_0_0_1_n_n_wf
def fn_part5 {F : FTy → Type} [FloatOps F] (main_v24 : FVec F S_ .f32) (main_v27 : FVec F S_ .f32) (main_v86 : IVec S_ 1) (main_v89 : IVec S3 1) (main_c_27 : IVec S_ 1) : IVec S_ 1 :=
  let main_v90 : IVec S_ 1 := (fun x v => Host.reduce IntOp.andi x v reducesTo_S3_S_d0 h_S_) main_v89 main_c_27
  let main_v91 : IVec S_ 1 := andi main_v86 main_v90
  let main_cst_28 : FVec F S_ .f32 := constant S_ .f32 0x00000000#32
  let main_v92 : IVec S_ 1 := cmpf .ogt main_v24 main_cst_28
  let main_v93 : IVec S_ 1 := andi main_v91 main_v92
  let main_cst_29 : FVec F S_ .f32 := constant S_ .f32 0x00000000#32
  let main_v94 : IVec S_ 1 := cmpf .ogt main_v27 main_cst_29
  let main_v95 : IVec S_ 1 := andi main_v93 main_v94
  main_v95

def fn_part4 {F : FTy → Type} [FloatOps F] (main_arg10 : FVec F S100 .f32) (main_arg11 : FVec F S100x3 .f32) (main_arg12 : FVec F S3 .f32) (main_v24 : FVec F S_ .f32) (main_v27 : FVec F S_ .f32) (main_v71 : IVec S_ 1) (main_v72 : FVec F S10x100 .f32) (main_cst_20 : FVec F S_ .f32) : IVec S_ 1 :=
  let main_v73 : FVec F S10x100 .f32 := broadcastInDim S10x100 ![] bcast_S_S10x100 main_cst_20
  let main_v74 : IVec S10x100 1 := cmpf .olt main_v72 main_v73
  let main_c_21 : IVec S_ 1 := constantI S_ 1 1#1
  let main_v75 : IVec S_ 1 := (fun x v => Host.reduce IntOp.andi x v reducesTo_S10x100_S_d0_1 h_S_) main_v74 main_c_21
  let main_v76 : IVec S_ 1 := andi main_v71 main_v75
  let main_v77 : FVec F S100 .f32 := Host.absf main_arg10
  let main_cst_22 : FVec F S_ .f32 := constant S_ .f32 0x7F800000#32
  let main_v78 : FVec F S100 .f32 := broadcastInDim S100 ![] bcast_S_S100 main_cst_22
  let main_v79 : IVec S100 1 := cmpf .olt main_v77 main_v78
  let main_c_23 : IVec S_ 1 := constantI S_ 1 1#1
  let main_v80 : IVec S_ 1 := (fun x v => Host.reduce IntOp.andi x v reducesTo_S100_S_d0 h_S_) main_v79 main_c_23
  let main_v81 : IVec S_ 1 := andi main_v76 main_v80
  let main_v82 : FVec F S100x3 .f32 := Host.absf main_arg11
  let main_cst_24 : FVec F S_ .f32 := constant S_ .f32 0x7F800000#32
  let main_v83 : FVec F S100x3 .f32 := broadcastInDim S100x3 ![] bcast_S_S100x3 main_cst_24
  let main_v84 : IVec S100x3 1 := cmpf .olt main_v82 main_v83
  let main_c_25 : IVec S_ 1 := constantI S_ 1 1#1
  let main_v85 : IVec S_ 1 := (fun x v => Host.reduce IntOp.andi x v reducesTo_S100x3_S_d0_1 h_S_) main_v84 main_c_25
  let main_v86 : IVec S_ 1 := andi main_v81 main_v85
  let main_v87 : FVec F S3 .f32 := Host.absf main_arg12
  let main_cst_26 : FVec F S_ .f32 := constant S_ .f32 0x7F800000#32
  let main_v88 : FVec F S3 .f32 := broadcastInDim S3 ![] bcast_S_S3 main_cst_26
  let main_v89 : IVec S3 1 := cmpf .olt main_v87 main_v88
  let main_c_27 : IVec S_ 1 := constantI S_ 1 1#1
  fn_part5 (F := F) main_v24 main_v27 main_v86 main_v89 main_c_27

def fn_part3 {F : FTy → Type} [FloatOps F] (main_arg6 : FVec F S10 .f32) (main_arg7 : FVec F S10x10 .f32) (main_arg8 : FVec F S10 .f32) (main_arg9 : FVec F S10x100 .f32) (main_arg10 : FVec F S100 .f32) (main_arg11 : FVec F S100x3 .f32) (main_arg12 : FVec F S3 .f32) (main_v24 : FVec F S_ .f32) (main_v27 : FVec F S_ .f32) (main_v51 : IVec S_ 1) (main_v55 : IVec S_ 1) : IVec S_ 1 :=
  let main_v56 : IVec S_ 1 := andi main_v51 main_v55
  let main_v57 : FVec F S10 .f32 := Host.absf main_arg6
  let main_cst_14 : FVec F S_ .f32 := constant S_ .f32 0x7F800000#32
  let main_v58 : FVec F S10 .f32 := broadcastInDim S10 ![] bcast_S_S10 main_cst_14
  let main_v59 : IVec S10 1 := cmpf .olt main_v57 main_v58
  let main_c_15 : IVec S_ 1 := constantI S_ 1 1#1
  let main_v60 : IVec S_ 1 := (fun x v => Host.reduce IntOp.andi x v reducesTo_S10_S_d0 h_S_) main_v59 main_c_15
  let main_v61 : IVec S_ 1 := andi main_v56 main_v60
  let main_v62 : FVec F S10x10 .f32 := Host.absf main_arg7
  let main_cst_16 : FVec F S_ .f32 := constant S_ .f32 0x7F800000#32
  let main_v63 : FVec F S10x10 .f32 := broadcastInDim S10x10 ![] bcast_S_S10x10 main_cst_16
  let main_v64 : IVec S10x10 1 := cmpf .olt main_v62 main_v63
  let main_c_17 : IVec S_ 1 := constantI S_ 1 1#1
  let main_v65 : IVec S_ 1 := (fun x v => Host.reduce IntOp.andi x v reducesTo_S10x10_S_d0_1 h_S_) main_v64 main_c_17
  let main_v66 : IVec S_ 1 := andi main_v61 main_v65
  let main_v67 : FVec F S10 .f32 := Host.absf main_arg8
  let main_cst_18 : FVec F S_ .f32 := constant S_ .f32 0x7F800000#32
  let main_v68 : FVec F S10 .f32 := broadcastInDim S10 ![] bcast_S_S10 main_cst_18
  let main_v69 : IVec S10 1 := cmpf .olt main_v67 main_v68
  let main_c_19 : IVec S_ 1 := constantI S_ 1 1#1
  let main_v70 : IVec S_ 1 := (fun x v => Host.reduce IntOp.andi x v reducesTo_S10_S_d0 h_S_) main_v69 main_c_19
  let main_v71 : IVec S_ 1 := andi main_v66 main_v70
  let main_v72 : FVec F S10x100 .f32 := Host.absf main_arg9
  let main_cst_20 : FVec F S_ .f32 := constant S_ .f32 0x7F800000#32
  fn_part4 (F := F) main_arg10 main_arg11 main_arg12 main_v24 main_v27 main_v71 main_v72 main_cst_20

def fn_part2 {F : FTy → Type} [FloatOps F] (main_arg3 : FVec F S10x10 .f32) (main_arg4 : FVec F S10 .f32) (main_arg5 : FVec F S3x10 .f32) (main_arg6 : FVec F S10 .f32) (main_arg7 : FVec F S10x10 .f32) (main_arg8 : FVec F S10 .f32) (main_arg9 : FVec F S10x100 .f32) (main_arg10 : FVec F S100 .f32) (main_arg11 : FVec F S100x3 .f32) (main_arg12 : FVec F S3 .f32) (main_v24 : FVec F S_ .f32) (main_v27 : FVec F S_ .f32) (main_v36 : IVec S_ 1) (main_v37 : FVec F S10 .f32) (main_v38 : FVec F S10 .f32) : IVec S_ 1 :=
  let main_v39 : IVec S10 1 := cmpf .olt main_v37 main_v38
  let main_c_7 : IVec S_ 1 := constantI S_ 1 1#1
  let main_v40 : IVec S_ 1 := (fun x v => Host.reduce IntOp.andi x v reducesTo_S10_S_d0 h_S_) main_v39 main_c_7
  let main_v41 : IVec S_ 1 := andi main_v36 main_v40
  let main_v42 : FVec F S10x10 .f32 := Host.absf main_arg3
  let main_cst_8 : FVec F S_ .f32 := constant S_ .f32 0x7F800000#32
  let main_v43 : FVec F S10x10 .f32 := broadcastInDim S10x10 ![] bcast_S_S10x10 main_cst_8
  let main_v44 : IVec S10x10 1 := cmpf .olt main_v42 main_v43
  let main_c_9 : IVec S_ 1 := constantI S_ 1 1#1
  let main_v45 : IVec S_ 1 := (fun x v => Host.reduce IntOp.andi x v reducesTo_S10x10_S_d0_1 h_S_) main_v44 main_c_9
  let main_v46 : IVec S_ 1 := andi main_v41 main_v45
  let main_v47 : FVec F S10 .f32 := Host.absf main_arg4
  let main_cst_10 : FVec F S_ .f32 := constant S_ .f32 0x7F800000#32
  let main_v48 : FVec F S10 .f32 := broadcastInDim S10 ![] bcast_S_S10 main_cst_10
  let main_v49 : IVec S10 1 := cmpf .olt main_v47 main_v48
  let main_c_11 : IVec S_ 1 := constantI S_ 1 1#1
  let main_v50 : IVec S_ 1 := (fun x v => Host.reduce IntOp.andi x v reducesTo_S10_S_d0 h_S_) main_v49 main_c_11
  let main_v51 : IVec S_ 1 := andi main_v46 main_v50
  let main_v52 : FVec F S3x10 .f32 := Host.absf main_arg5
  let main_cst_12 : FVec F S_ .f32 := constant S_ .f32 0x7F800000#32
  let main_v53 : FVec F S3x10 .f32 := broadcastInDim S3x10 ![] bcast_S_S3x10 main_cst_12
  let main_v54 : IVec S3x10 1 := cmpf .olt main_v52 main_v53
  let main_c_13 : IVec S_ 1 := constantI S_ 1 1#1
  let main_v55 : IVec S_ 1 := (fun x v => Host.reduce IntOp.andi x v reducesTo_S3x10_S_d0_1 h_S_) main_v54 main_c_13
  fn_part3 (F := F) main_arg6 main_arg7 main_arg8 main_arg9 main_arg10 main_arg11 main_arg12 main_v24 main_v27 main_v51 main_v55

def fn_part1 {F : FTy → Type} [FloatOps F] (main_arg0 : FVec F S2000000x6 .f32) (main_arg1 : FVec F S3x10 .f32) (main_arg2 : FVec F S10 .f32) (main_arg3 : FVec F S10x10 .f32) (main_arg4 : FVec F S10 .f32) (main_arg5 : FVec F S3x10 .f32) (main_arg6 : FVec F S10 .f32) (main_arg7 : FVec F S10x10 .f32) (main_arg8 : FVec F S10 .f32) (main_arg9 : FVec F S10x100 .f32) (main_arg10 : FVec F S100 .f32) (main_arg11 : FVec F S100x3 .f32) (main_arg12 : FVec F S3 .f32) (main_v10 : FVec F S2000000x10 .f32) (main_v21 : FVec F S2000000x10 .f32) : IVec S_ 1 :=
  let main_v22 : FVec F S2000000x10 .f32 := mulf main_v10 main_v10
  let main_cst_1 : FVec F S_ .f32 := constant S_ .f32 0x00000000#32
  let main_v23 : FVec F S_ .f32 := (fun x v => Host.reduceAdd x v reducesTo_S2000000x10_S_d0_1 h_S_) main_v22 main_cst_1
  let main_v24 : FVec F S_ .f32 := Host.sqrt main_v23
  let main_v25 : FVec F S2000000x10 .f32 := mulf main_v21 main_v21
  let main_cst_2 : FVec F S_ .f32 := constant S_ .f32 0x00000000#32
  let main_v26 : FVec F S_ .f32 := (fun x v => Host.reduceAdd x v reducesTo_S2000000x10_S_d0_1 h_S_) main_v25 main_cst_2
  let main_v27 : FVec F S_ .f32 := Host.sqrt main_v26
  let main_v28 : FVec F S2000000x6 .f32 := Host.absf main_arg0
  let main_cst_3 : FVec F S_ .f32 := constant S_ .f32 0x7F800000#32
  let main_v29 : FVec F S2000000x6 .f32 := broadcastInDim S2000000x6 ![] bcast_S_S2000000x6 main_cst_3
  let main_v30 : IVec S2000000x6 1 := cmpf .olt main_v28 main_v29
  let main_c : IVec S_ 1 := constantI S_ 1 1#1
  let main_v31 : IVec S_ 1 := (fun x v => Host.reduce IntOp.andi x v reducesTo_S2000000x6_S_d0_1 h_S_) main_v30 main_c
  let main_v32 : FVec F S3x10 .f32 := Host.absf main_arg1
  let main_cst_4 : FVec F S_ .f32 := constant S_ .f32 0x7F800000#32
  let main_v33 : FVec F S3x10 .f32 := broadcastInDim S3x10 ![] bcast_S_S3x10 main_cst_4
  let main_v34 : IVec S3x10 1 := cmpf .olt main_v32 main_v33
  let main_c_5 : IVec S_ 1 := constantI S_ 1 1#1
  let main_v35 : IVec S_ 1 := (fun x v => Host.reduce IntOp.andi x v reducesTo_S3x10_S_d0_1 h_S_) main_v34 main_c_5
  let main_v36 : IVec S_ 1 := andi main_v31 main_v35
  let main_v37 : FVec F S10 .f32 := Host.absf main_arg2
  let main_cst_6 : FVec F S_ .f32 := constant S_ .f32 0x7F800000#32
  let main_v38 : FVec F S10 .f32 := broadcastInDim S10 ![] bcast_S_S10 main_cst_6
  fn_part2 (F := F) main_arg3 main_arg4 main_arg5 main_arg6 main_arg7 main_arg8 main_arg9 main_arg10 main_arg11 main_arg12 main_v24 main_v27 main_v36 main_v37 main_v38

def fn {F : FTy → Type} [FloatOps F] (main_arg0 : FVec F S2000000x6 .f32) (main_arg1 : FVec F S3x10 .f32) (main_arg2 : FVec F S10 .f32) (main_arg3 : FVec F S10x10 .f32) (main_arg4 : FVec F S10 .f32) (main_arg5 : FVec F S3x10 .f32) (main_arg6 : FVec F S10 .f32) (main_arg7 : FVec F S10x10 .f32) (main_arg8 : FVec F S10 .f32) (main_arg9 : FVec F S10x100 .f32) (main_arg10 : FVec F S100 .f32) (main_arg11 : FVec F S100x3 .f32) (main_arg12 : FVec F S3 .f32) : IVec S_ 1 :=
  let main_v0 : FVec F S2000000x3 .f32 := (extractStridedSlice S2000000x3 ![0, 0] · slices_S2000000x6_S2000000x3_0_0) main_arg0
  let main_v1 : FVec F S2000000x10 .f32 := (fun l r => Host.dotGeneral dot_S2000000x3_S3x10_S2000000x10_1_0_0_1_n_n none l r) main_v0 main_arg1
  let main_v2 : FVec F S1x10 .f32 := broadcastInDim S1x10 ![1] bcast_S10_S1x10_1 main_arg2
  let main_v3 : FVec F S2000000x10 .f32 := broadcastInDim S2000000x10 ![0, 1] bcast_S1x10_S2000000x10_0_1 main_v2
  let main_v4 : FVec F S2000000x10 .f32 := addf main_v1 main_v3
  let main_cst : FVec F S_ .f32 := constant S_ .f32 0x00000000#32
  let main_v5 : FVec F S2000000x10 .f32 := broadcastInDim S2000000x10 ![] bcast_S_S2000000x10 main_cst
  let main_v6 : FVec F S2000000x10 .f32 := maximumf main_v4 main_v5
  let main_v7 : FVec F S2000000x10 .f32 := (fun l r => Host.dotGeneral dot_S2000000x10_S10x10_S2000000x10_1_0_0_1_n_n none l r) main_v6 main_arg3
  let main_v8 : FVec F S1x10 .f32 := broadcastInDim S1x10 ![1] bcast_S10_S1x10_1 main_arg4
  let main_v9 : FVec F S2000000x10 .f32 := broadcastInDim S2000000x10 ![0, 1] bcast_S1x10_S2000000x10_0_1 main_v8
  let main_v10 : FVec F S2000000x10 .f32 := addf main_v7 main_v9
  let main_v11 : FVec F S2000000x3 .f32 := (extractStridedSlice S2000000x3 ![0, 3] · slices_S2000000x6_S2000000x3_0_3) main_arg0
  let main_v12 : FVec F S2000000x10 .f32 := (fun l r => Host.dotGeneral dot_S2000000x3_S3x10_S2000000x10_1_0_0_1_n_n none l r) main_v11 main_arg5
  let main_v13 : FVec F S1x10 .f32 := broadcastInDim S1x10 ![1] bcast_S10_S1x10_1 main_arg6
  let main_v14 : FVec F S2000000x10 .f32 := broadcastInDim S2000000x10 ![0, 1] bcast_S1x10_S2000000x10_0_1 main_v13
  let main_v15 : FVec F S2000000x10 .f32 := addf main_v12 main_v14
  let main_cst_0 : FVec F S_ .f32 := constant S_ .f32 0x00000000#32
  let main_v16 : FVec F S2000000x10 .f32 := broadcastInDim S2000000x10 ![] bcast_S_S2000000x10 main_cst_0
  let main_v17 : FVec F S2000000x10 .f32 := maximumf main_v15 main_v16
  let main_v18 : FVec F S2000000x10 .f32 := (fun l r => Host.dotGeneral dot_S2000000x10_S10x10_S2000000x10_1_0_0_1_n_n none l r) main_v17 main_arg7
  let main_v19 : FVec F S1x10 .f32 := broadcastInDim S1x10 ![1] bcast_S10_S1x10_1 main_arg8
  let main_v20 : FVec F S2000000x10 .f32 := broadcastInDim S2000000x10 ![0, 1] bcast_S1x10_S2000000x10_0_1 main_v19
  let main_v21 : FVec F S2000000x10 .f32 := addf main_v18 main_v20
  fn_part1 (F := F) main_arg0 main_arg1 main_arg2 main_arg3 main_arg4 main_arg5 main_arg6 main_arg7 main_arg8 main_arg9 main_arg10 main_arg11 main_arg12 main_v10 main_v21
-- ==== Kernel.lean ====
abbrev S2000000x6 : Shape := ⟨2, ![2000000, 6]⟩
abbrev S3x10 : Shape := ⟨2, ![3, 10]⟩
abbrev S10 : Shape := ⟨1, ![10]⟩
abbrev S10x10 : Shape := ⟨2, ![10, 10]⟩
abbrev S10x100 : Shape := ⟨2, ![10, 100]⟩
abbrev S100 : Shape := ⟨1, ![100]⟩
abbrev S100x3 : Shape := ⟨2, ![100, 3]⟩
abbrev S3 : Shape := ⟨1, ![3]⟩
abbrev S1x10 : Shape := ⟨2, ![1, 10]⟩
abbrev S1x100 : Shape := ⟨2, ![1, 100]⟩
abbrev S1x3 : Shape := ⟨2, ![1, 3]⟩
abbrev S1x256 : Shape := ⟨2, ![1, 256]⟩
abbrev S10000x6 : Shape := ⟨2, ![10000, 6]⟩
abbrev S1x128 : Shape := ⟨2, ![1, 128]⟩
abbrev S10000x3 : Shape := ⟨2, ![10000, 3]⟩
abbrev S10000x10 : Shape := ⟨2, ![10000, 10]⟩
abbrev S10000 : Shape := ⟨1, ![10000]⟩
abbrev S10000x1 : Shape := ⟨2, ![10000, 1]⟩
abbrev S1 : Shape := ⟨1, ![1]⟩
abbrev S1x1 : Shape := ⟨2, ![1, 1]⟩
abbrev S_ : Shape := ⟨0, ![]⟩
abbrev S2000000x3 : Shape := ⟨2, ![2000000, 3]⟩
abbrev S10000x100 : Shape := ⟨2, ![10000, 100]⟩

abbrev nBuf : Space → Nat
  | .hbm => 38
  | .vmem => 31
  | .smem => 0
  | _ => 0

abbrev bufTy : (tb : Table) → Fin (tcTables nBuf tb) → BufTy
  | .hbm, ⟨0, _⟩ => ⟨S2000000x6, .f32⟩
  | .hbm, ⟨1, _⟩ => ⟨S3x10, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S3x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x100, .f32⟩
  | .hbm, ⟨10, _⟩ => ⟨S100, .f32⟩
  | .hbm, ⟨11, _⟩ => ⟨S100x3, .f32⟩
  | .hbm, ⟨12, _⟩ => ⟨S3, .f32⟩
  | .hbm, ⟨13, _⟩ => ⟨S1x10, .f32⟩
  | .hbm, ⟨14, _⟩ => ⟨S1x10, .f32⟩
  | .hbm, ⟨15, _⟩ => ⟨S1x10, .f32⟩
  | .hbm, ⟨16, _⟩ => ⟨S1x10, .f32⟩
  | .hbm, ⟨17, _⟩ => ⟨S1x100, .f32⟩
  | .hbm, ⟨18, _⟩ => ⟨S1x3, .f32⟩
  | .hbm, ⟨19, _⟩ => ⟨S1x256, .f32⟩
  | .hbm, ⟨20, _⟩ => ⟨S1x256, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S2000000x3, .f32⟩
  | .local _ .vmem, ⟨0, _⟩ => ⟨S10000x6, .f32⟩
  | .local _ .vmem, ⟨1, _⟩ => ⟨S10000x6, .f32⟩
  | .local _ .vmem, ⟨2, _⟩ => ⟨S3x10, .f32⟩
  | .local _ .vmem, ⟨3, _⟩ => ⟨S1x10, .f32⟩
  | .local _ .vmem, ⟨4, _⟩ => ⟨S10x10, .f32⟩
  | .local _ .vmem, ⟨5, _⟩ => ⟨S1x10, .f32⟩
  | .local _ .vmem, ⟨6, _⟩ => ⟨S3x10, .f32⟩
  | .local _ .vmem, ⟨7, _⟩ => ⟨S1x10, .f32⟩
  | .local _ .vmem, ⟨8, _⟩ => ⟨S10x10, .f32⟩
  | .local _ .vmem, ⟨9, _⟩ => ⟨S1x10, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x6, .f32⟩
  | .local _ .vmem, ⟨15, _⟩ => ⟨S10000x6, .f32⟩
  | .local _ .vmem, ⟨16, _⟩ => ⟨S3x10, .f32⟩
  | .local _ .vmem, ⟨17, _⟩ => ⟨S1x10, .f32⟩
  | .local _ .vmem, ⟨18, _⟩ => ⟨S10x10, .f32⟩
  | .local _ .vmem, ⟨19, _⟩ => ⟨S1x10, .f32⟩
  | .local _ .vmem, ⟨20, _⟩ => ⟨S3x10, .f32⟩
  | .local _ .vmem, ⟨21, _⟩ => ⟨S1x10, .f32⟩
  | .local _ .vmem, ⟨22, _⟩ => ⟨S10x10, .f32⟩
  | .local _ .vmem, ⟨23, _⟩ => ⟨S1x10, .f32⟩
  | .local _ .vmem, ⟨24, _⟩ => ⟨S10x100, .f32⟩
  | .local _ .vmem, ⟨25, _⟩ => ⟨S1x100, .f32⟩
  | .local _ .vmem, ⟨26, _⟩ => ⟨S100x3, .f32⟩
  | .local _ .vmem, ⟨27, _⟩ => ⟨S1x3, .f32⟩
  | .local _ .vmem, ⟨28, _⟩ => ⟨S1x1, .f32⟩
  | .local _ .vmem, ⟨29, _⟩ => ⟨S10000x3, .f32⟩
  | .local _ .vmem, ⟨30, _⟩ => ⟨S10000x3, .f32⟩
  | _, _ => ⟨S2000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg14_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem14_1 : DmaSem sig := 30

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S10x100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x100 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S100x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S10000x3 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  shapeCasts_S10_S1x10 : S10.ShapeCasts S1x10
  shapeCasts_S100_S1x100 : S100.ShapeCasts S1x100
  shapeCasts_S3_S1x3 : S3.ShapeCasts S1x3
  inb_S1x128_S1x128_0_0 : ∀ a, (![0, 0] : Fin 2 → Nat) a + S1x128.size a ≤ S1x128.size a
  h_S1x128 : 0 < S1x128.numel
  inb_S10000x6_S10000x6_0_0 : ∀ a, (![0, 0] : Fin 2 → Nat) a + S10000x6.size a ≤ S10000x6.size a
  h_S10000x6 : 0 < S10000x6.numel
  slices_S10000x6_o0_0_S10000x3 : S10000x6.Slices ![0, 0] S10000x3
  bitsLt_bf16_f32 : FTy.bits .bf16 < FTy.bits .f32
  slices_S10000x6_o0_3_S10000x3 : S10000x6.Slices ![0, 3] S10000x3
  inb_S3x10_S3x10_0_0 : ∀ a, (![0, 0] : Fin 2 → Nat) a + S3x10.size a ≤ S3x10.size a
  h_S3x10 : 0 < S3x10.numel
  inb_S10x10_S10x10_0_0 : ∀ a, (![0, 0] : Fin 2 → Nat) a + S10x10.size a ≤ S10x10.size a
  h_S10x10 : 0 < S10x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  reduces_S10000x1_S1 : S10000x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x256_S1x1_0_0 : S1x256.Slices ![0, 0] S1x1
  shapeCasts_S1x1_S_ : S1x1.ShapeCasts S_
  slices_S1x256_S1x1_0_128 : S1x256.Slices ![0, 128] S1x1
  shapeCasts_S_S1x1 : S_.ShapeCasts S1x1
  inb_S10x100_S10x100_0_0 : ∀ a, (![0, 0] : Fin 2 → Nat) a + S10x100.size a ≤ S10x100.size a
  h_S10x100 : 0 < S10x100.numel
  inb_S100x3_S100x3_0_0 : ∀ a, (![0, 0] : Fin 2 → Nat) a + S100x3.size a ≤ S100x3.size a
  h_S100x3 : 0 < S100x3.numel
  inb_S1x1_S1x1_0_0 : ∀ a, (![0, 0] : Fin 2 → Nat) a + S1x1.size a ≤ S1x1.size a
  h_S1x1 : 0 < S1x1.numel
  broadcasts_S1x1_S10000x10 : S1x1.Broadcasts S10000x10
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  dot_S10000x3_S3x10_S10000x10_1_0_0_1_n_n_wf : DotDims.WF S10000x3 S3x10 S10000x10 [1] [0] [0] [1] [] []
  dot_S10000x10_S10x10_S10000x10_1_0_0_1_n_n_wf : DotDims.WF S10000x10 S10x10 S10000x10 [1] [0] [0] [1] [] []
  dot_S10000x10_S10x100_S10000x100_1_0_0_1_n_n_wf : DotDims.WF S10000x10 S10x100 S10000x100 [1] [0] [0] [1] [] []
  dot_S10000x100_S100x3_S10000x3_1_0_0_1_n_n_wf : DotDims.WF S10000x100 S100x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S2000000x6.size a
  hwx0_0 : ∀ i : grid0.Coords, EltTy.bits .f32 = 32 ∨ (Rect.block (s := S2000000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x10.size a ≤ S3x10.size a
  hwx0_1 : ∀ i : grid0.Coords, EltTy.bits .f32 = 32 ∨ (Rect.block (s := S3x10) S3x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x10.size a ≤ S3x10.size a
  hwx0_5 : ∀ i : grid0.Coords, EltTy.bits .f32 = 32 ∨ (Rect.block (s := S3x10) S3x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x256.size a
  hwx0_9 : ∀ i : grid0.Coords, EltTy.bits .f32 = 32 ∨ (Rect.block (s := S1x256) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x256.size a
  hwx0_10 : ∀ i : grid0.Coords, EltTy.bits .f32 = 32 ∨ (Rect.block (s := S1x256) S1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x6.size a ≤ S2000000x6.size a
  hwx1_0 : ∀ i : grid1.Coords, EltTy.bits .f32 = 32 ∨ (Rect.block (s := S2000000x6) S10000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x10.size a ≤ S3x10.size a
  hwx1_1 : ∀ i : grid1.Coords, EltTy.bits .f32 = 32 ∨ (Rect.block (s := S3x10) S3x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x10.size a ≤ S10x10.size a
  hwx1_3 : ∀ i : grid1.Coords, EltTy.bits .f32 = 32 ∨ (Rect.block (s := S10x10) S10x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x10.size a ≤ S3x10.size a
  hwx1_5 : ∀ i : grid1.Coords, EltTy.bits .f32 = 32 ∨ (Rect.block (s := S3x10) S3x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10x10.size a ≤ S10x10.size a
  hwx1_7 : ∀ i : grid1.Coords, EltTy.bits .f32 = 32 ∨ (Rect.block (s := S10x10) S10x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S10x100.size a ≤ S10x100.size a
  hwx1_9 : ∀ i : grid1.Coords, EltTy.bits .f32 = 32 ∨ (Rect.block (s := S10x100) S10x100.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x100.size a ≤ S1x100.size a
  hwx1_10 : ∀ i : grid1.Coords, EltTy.bits .f32 = 32 ∨ (Rect.block (s := S1x100) S1x100.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S100x3.size a ≤ S100x3.size a
  hwx1_11 : ∀ i : grid1.Coords, EltTy.bits .f32 = 32 ∨ (Rect.block (s := S100x3) S100x3.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x3.size a ≤ S1x3.size a
  hwx1_12 : ∀ i : grid1.Coords, EltTy.bits .f32 = 32 ∨ (Rect.block (s := S1x3) S1x3.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S10000x3.size a ≤ S2000000x3.size a
  hwx1_14 : ∀ i : grid1.Coords, EltTy.bits .f32 = 32 ∨ (Rect.block (s := S2000000x3) S10000x3.size (cc1_transform_14 i) (hinb1_14 i)).WholeWords (EltTy.packing .f32)

variable [Facts₀]

def dot_S10000x3_S3x10_S10000x10_1_0_0_1_n_n : DotDims S10000x3 S3x10 S10000x10 where
  lhsContracting := [1]
  rhsContracting := [0]
  lhsNonContracting := [0]
  rhsNonContracting := [1]
  lhsBatch := []
  rhsBatch := []
  wf := dot_S10000x3_S3x10_S10000x10_1_0_0_1_n_n_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def dot_S10000x10_S10x100_S10000x100_1_0_0_1_n_n : DotDims S10000x10 S10x100 S10000x100 where
  lhsContracting := [1]
  rhsContracting := [0]
  lhsNonContracting := [0]
  rhsNonContracting := [1]
  lhsBatch := []
  rhsBatch := []
  wf := dot_S10000x10_S10x100_S10000x100_1_0_0_1_n_n_wf
def dot_S10000x100_S100x3_S10000x3_1_0_0_1_n_n : DotDims S10000x100 S100x3 S10000x3 where
  lhsContracting := [1]
  rhsContracting := [0]
  lhsNonContracting := [0]
  rhsNonContracting := [1]
  lhsBatch := []
  rhsBatch := []
  wf := dot_S10000x100_S100x3_S10000x3_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S10000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S3x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S10x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S3x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S10x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S10x100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x100.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S100x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S1x3.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v21) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v22) S10000x3.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S2000000x6 : Shape := ⟨2, ![2000000, 6]⟩
abbrev S3x10 : Shape := ⟨2, ![3, 10]⟩
abbrev S10 : Shape := ⟨1, ![10]⟩
abbrev S10x10 : Shape := ⟨2, ![10, 10]⟩
abbrev S10x100 : Shape := ⟨2, ![10, 100]⟩
abbrev S100 : Shape := ⟨1, ![100]⟩
abbrev S100x3 : Shape := ⟨2, ![100, 3]⟩
abbrev S3 : Shape := ⟨1, ![3]⟩
abbrev S2000000x3 : Shape := ⟨2, ![2000000, 3]⟩
abbrev S2000000x10 : Shape := ⟨2, ![2000000, 10]⟩
abbrev S1x10 : Shape := ⟨2, ![1, 10]⟩
abbrev S_ : Shape := ⟨0, ![]⟩
abbrev S2000000x100 : Shape := ⟨2, ![2000000, 100]⟩
abbrev S1x100 : Shape := ⟨2, ![1, 100]⟩
abbrev S1x3 : Shape := ⟨2, ![1, 3]⟩

abbrev nBuf : Space → Nat
  | .hbm => 61
  | .vmem => 0
  | .smem => 0
  | _ => 0

abbrev bufTy : (tb : Table) → Fin (tcTables nBuf tb) → BufTy
  | .hbm, ⟨0, _⟩ => ⟨S2000000x6, .f32⟩
  | .hbm, ⟨1, _⟩ => ⟨S3x10, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S3x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x100, .f32⟩
  | .hbm, ⟨10, _⟩ => ⟨S100, .f32⟩
  | .hbm, ⟨11, _⟩ => ⟨S100x3, .f32⟩
  | .hbm, ⟨12, _⟩ => ⟨S3, .f32⟩
  | .hbm, ⟨13, _⟩ => ⟨S2000000x3, .f32⟩
  | .hbm, ⟨14, _⟩ => ⟨S2000000x10, .f32⟩
  | .hbm, ⟨15, _⟩ => ⟨S1x10, .f32⟩
  | .hbm, ⟨16, _⟩ => ⟨S2000000x10, .f32⟩
  | .hbm, ⟨17, _⟩ => ⟨S2000000x10, .f32⟩
  | .hbm, ⟨18, _⟩ => ⟨S_, .f32⟩
  | .hbm, ⟨19, _⟩ => ⟨S2000000x10, .f32⟩
  | .hbm, ⟨20, _⟩ => ⟨S2000000x10, .f32⟩
  | .hbm, ⟨21, _⟩ => ⟨S2000000x10, .f32⟩
  | .hbm, ⟨22, _⟩ => ⟨S1x10, .f32⟩
  | .hbm, ⟨23, _⟩ => ⟨S2000000x10, .f32⟩
  | .hbm, ⟨24, _⟩ => ⟨S2000000x10, .f32⟩
  | .hbm, ⟨25, _⟩ => ⟨S2000000x3, .f32⟩
  | .hbm, ⟨26, _⟩ => ⟨S2000000x10, .f32⟩
  | .hbm, ⟨27, _⟩ => ⟨S1x10, .f32⟩
  | .hbm, ⟨28, _⟩ => ⟨S2000000x10, .f32⟩
  | .hbm, ⟨29, _⟩ => ⟨S2000000x10, .f32⟩
  | .hbm, ⟨30, _⟩ => ⟨S_, .f32⟩
  | .hbm, ⟨31, _⟩ => ⟨S2000000x10, .f32⟩
  | .hbm, ⟨32, _⟩ => ⟨S2000000x10, .f32⟩
  | .hbm, ⟨33, _⟩ => ⟨S2000000x10, .f32⟩
  | .hbm, ⟨34, _⟩ => ⟨S1x10, .f32⟩
  | .hbm, ⟨35, _⟩ => ⟨S2000000x10, .f32⟩
  | .hbm, ⟨36, _⟩ => ⟨S2000000x10, .f32⟩
  | .hbm, ⟨37, _⟩ => ⟨S2000000x10, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2000000x10, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2000000x10, .f32⟩
  | .hbm, ⟨46, _⟩ => ⟨S2000000x10, .f32⟩
  | .hbm, ⟨47, _⟩ => ⟨S2000000x10, .f32⟩
  | .hbm, ⟨48, _⟩ => ⟨S2000000x10, .f32⟩
  | .hbm, ⟨49, _⟩ => ⟨S2000000x10, .f32⟩
  | .hbm, ⟨50, _⟩ => ⟨S2000000x100, .f32⟩
  | .hbm, ⟨51, _⟩ => ⟨S1x100, .f32⟩
  | .hbm, ⟨52, _⟩ => ⟨S2000000x100, .f32⟩
  | .hbm, ⟨53, _⟩ => ⟨S2000000x100, .f32⟩
  | .hbm, ⟨54, _⟩ => ⟨S_, .f32⟩
  | .hbm, ⟨55, _⟩ => ⟨S2000000x100, .f32⟩
  | .hbm, ⟨56, _⟩ => ⟨S2000000x100, .f32⟩
  | .hbm, ⟨57, _⟩ => ⟨S2000000x3, .f32⟩
  | .hbm, ⟨58, _⟩ => ⟨S1x3, .f32⟩
  | .hbm, ⟨59, _⟩ => ⟨S2000000x3, .f32⟩
  | .hbm, ⟨60, _⟩ => ⟨S2000000x3, .f32⟩
  | _, _ => ⟨S2000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call2_cst : Ref sig .tc := ⟨.hbm, 54, rfl⟩
abbrev main_call2_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S2000000x6_S2000000x3_0_0 : S2000000x6.Slices ![0, 0] S2000000x3
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)
  bcast_S_S2000000x10 : S_.BroadcastsInDim S2000000x10 (![] : Fin 0 → Fin S2000000x10.rank)
  slices_S2000000x6_S2000000x3_0_3 : S2000000x6.Slices ![0, 3] S2000000x3
  reducesTo_S2000000x10_S_d0_1 : S2000000x10.ReducesTo [0, 1] S_
  h_S_ : 0 < S_.numel
  bcast_S100_S1x100_1 : S100.BroadcastsInDim S1x100 (![1] : Fin 1 → Fin S1x100.rank)
  bcast_S1x100_S2000000x100_0_1 : S1x100.BroadcastsInDim S2000000x100 (![0, 1] : Fin 2 → Fin S2000000x100.rank)
  bcast_S_S2000000x100 : S_.BroadcastsInDim S2000000x100 (![] : Fin 0 → Fin S2000000x100.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  dot_S2000000x3_S3x10_S2000000x10_1_0_0_1_n_n_wf : DotDims.WF S2000000x3 S3x10 S2000000x10 [1] [0] [0] [1] [] []
  dot_S2000000x10_S10x10_S2000000x10_1_0_0_1_n_n_wf : DotDims.WF S2000000x10 S10x10 S2000000x10 [1] [0] [0] [1] [] []
  dot_S2000000x10_S10x100_S2000000x100_1_0_0_1_n_n_wf : DotDims.WF S2000000x10 S10x100 S2000000x100 [1] [0] [0] [1] [] []
  dot_S2000000x100_S100x3_S2000000x3_1_0_0_1_n_n_wf : DotDims.WF S2000000x100 S100x3 S2000000x3 [1] [0] [0] [1] [] []

variable [Facts₀]

def dot_S2000000x3_S3x10_S2000000x10_1_0_0_1_n_n : DotDims S2000000x3 S3x10 S2000000x10 where
  lhsContracting := [1]
  rhsContracting := [0]
  lhsNonContracting := [0]
  rhsNonContracting := [1]
  lhsBatch := []
  rhsBatch := []
  wf := dot_S2000000x3_S3x10_S2000000x10_1_0_0_1_n_n_wf
def dot_S2000000x10_S10x10_S2000000x10_1_0_0_1_n_n : DotDims S2000000x10 S10x10 S2000000x10 where
  lhsContracting := [1]
  rhsContracting := [0]
  lhsNonContracting := [0]
  rhsNonContracting := [1]
  lhsBatch := []
  rhsBatch := []
  wf := dot_S2000000x10_S10x10_S2000000x10_1_0_0_1_n_n_wf
def dot_S2000000x10_S10x100_S2000000x100_1_0_0_1_n_n : DotDims S2000000x10 S10x100 S2000000x100 where
  lhsContracting := [1]
  rhsContracting := [0]
  lhsNonContracting := [0]
  rhsNonContracting := [1]
  lhsBatch := []
  rhsBatch := []
  wf := dot_S2000000x10_S10x100_S2000000x100_1_0_0_1_n_n_wf
def dot_S2000000x100_S100x3_S2000000x3_1_0_0_1_n_n : DotDims S2000000x100 S100x3 S2000000x3 where
  lhsContracting := [1]
  rhsContracting := [0]
  lhsNonContracting := [0]
  rhsNonContracting := [1]
  lhsBatch := []
  rhsBatch := []
  wf := dot_S2000000x100_S100x3_S2000000x3_1_0_0_1_n_n_wf

class Facts : Prop extends Facts₀ where

variable [Facts]
-- ==== Proof.KernelRun.lean ====
/-
  The idealized kernel's run with its result named.

  The program is a stretch of host operations, the sum-of-squares region, a second stretch, and the output
  region.  Every weakly fair execution ends with each buffer at the contents obtained by folding those four
  segments over the launch memory; in particular the result array ends at what the output region's write-backs
  leave, and every argument array as launched.
-/
import proofs.«174386_j12687333392689_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result array at the last boundary's contents and
    the argument arrays as launched. -/
theorem run_result : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelRun

end
-- ==== Proof.Spec.lean ====
/-
  The mathematics both programs compute, on the extended reals.

  Every row of the input carries six numbers.  The first three go through a two-layer perceptron
  (three inputs, ten hidden units clamped at zero, ten outputs) and so do the last three, with other weights:
  the row's two feature vectors `s` and `p`.  Each feature array is measured by its Frobenius norm, the square
  root of the sum of all its squared entries.  A row's mixed vector is the entrywise product of its two feature
  vectors scaled by the two norms, and a last perceptron (ten inputs, a hundred hidden units clamped at zero,
  three outputs) maps it to the row's result.

  One program divides each feature by its norm before multiplying; the other multiplies the features and then
  multiplies by the reciprocal of the product of the norms.  The two agree whenever neither norm is zero
  (`mix_eq`): multiplication of extended reals is commutative and associative, the inverse of a product is the
  product of the inverses, and a quotient by a nonzero divisor is the product with the inverse.
  One program sums the squares over the whole array at once; the other sums them block by block, a running
  total per half of the blocks, and adds the two totals (`sumsq_halves`): only commutativity and associativity
  of the sum are used, so no finiteness is needed.
-/
import Idealize.ShloMosaic.PureOps.Ideal
import Idealize.ShloMosaic.Lib.ValueIdx
import Mathlib.Algebra.BigOperators.Fin
import Mathlib.Data.EReal.Inv

noncomputable section

namespace Cert.Mlp

open Idealize.ShloMosaic Idealize.ShloMosaic.ValueIdx
open scoped BigOperators

/-- A rank-2 array of extended reals as a function of its row and column. -/
def m2 {a b : ℕ} (v : (⟨2, ![a, b]⟩ : Shape).Idx → EReal) : Fin a → Fin b → EReal := fun p q => v (ix2 p q)
/-- A rank-1 array of extended reals as a function of its position. -/
def v1 {a : ℕ} (v : (⟨1, ![a]⟩ : Shape).Idx → EReal) : Fin a → EReal := fun p => v (ix1 p)
/-- A one-row rank-2 array of extended reals as a function of its column. -/
def r1 {b : ℕ} (v : (⟨2, ![1, b]⟩ : Shape).Idx → EReal) : Fin b → EReal := fun q => v (ix2 0 q)

/-- Column `i` of the first three columns of a six-column row. -/
def lo3 (i : Fin 3) : Fin 6 := ⟨i.val, by omega⟩
/-- Column `i` of the last three columns of a six-column row. -/
def hi3 (i : Fin 3) : Fin 6 := ⟨3 + i.val, by omega⟩

/-- A hidden unit of a branch: the row's three numbers against column `k` of the first weights, plus the bias,
    clamped at zero. -/
def hid (xr : Fin 3 → EReal) (w1 : Fin 3 → Fin 10 → EReal) (b1 : Fin 10 → EReal) (k : Fin 10) : EReal :=
  max ((∑ i : Fin 3, xr i * w1 i k) + b1 k) 0

/-- Output `j` of a branch: the hidden units against column `j` of the second weights, plus the bias. -/
def feat (xr : Fin 3 → EReal) (w1 : Fin 3 → Fin 10 → EReal) (b1 : Fin 10 → EReal)
    (w2 : Fin 10 → Fin 10 → EReal) (b2 : Fin 10 → EReal) (j : Fin 10) : EReal :=
  (∑ k : Fin 10, hid xr w1 b1 k * w2 k j) + b2 j

/-- Result `q` of the last perceptron on a row's mixed vector `f`. -/
def outp (f : Fin 10 → EReal) (ow1 : Fin 10 → Fin 100 → EReal) (ob1 : Fin 100 → EReal)
    (ow2 : Fin 100 → Fin 3 → EReal) (ob2 : Fin 3 → EReal) (q : Fin 3) : EReal :=
  (∑ h : Fin 100, max ((∑ j : Fin 10, f j * ow1 j h) + ob1 h) 0 * ow2 h q) + ob2 q

/-- The sum of the squared entries of a feature array of `N` rows. -/
def sumsq {N : ℕ} (s : Fin N → Fin 10 → EReal) : EReal := ∑ n : Fin N, ∑ j : Fin 10, s n j * s n j

/-- The first branch's features of every row of `X`. -/
def sArr {N : ℕ} (X : Fin N → Fin 6 → EReal) (w1 : Fin 3 → Fin 10 → EReal) (b1 : Fin 10 → EReal)
    (w2 : Fin 10 → Fin 10 → EReal) (b2 : Fin 10 → EReal) : Fin N → Fin 10 → EReal :=
  fun n j => feat (fun i => X n (lo3 i)) w1 b1 w2 b2 j

/-- The second branch's features of every row of `X`. -/
def pArr {N : ℕ} (X : Fin N → Fin 6 → EReal) (w1 : Fin 3 → Fin 10 → EReal) (b1 : Fin 10 → EReal)
    (w2 : Fin 10 → Fin 10 → EReal) (b2 : Fin 10 → EReal) : Fin N → Fin 10 → EReal :=
  fun n j => feat (fun i => X n (hi3 i)) w1 b1 w2 b2 j

/-- The result with each feature divided by its array's norm (the square root of the sum of squares). -/
def divOut {N : ℕ} (s p : Fin N → Fin 10 → EReal) (ow1 : Fin 10 → Fin 100 → EReal) (ob1 : Fin 100 → EReal)
    (ow2 : Fin 100 → Fin 3 → EReal) (ob2 : Fin 3 → EReal) (n : Fin N) (q : Fin 3) : EReal :=
  outp (fun j => Ideal.div (s n j) (Ideal.sqrt (sumsq s)) * Ideal.div (p n j) (Ideal.sqrt (sumsq p))) ow1 ob1 ow2 ob2 q

/-- The result with the product of the features scaled by one factor `inv`. -/
def scaleOut {N : ℕ} (s p : Fin N → Fin 10 → EReal) (inv : EReal) (ow1 : Fin 10 → Fin 100 → EReal) (ob1 : Fin 100 → EReal)
    (ow2 : Fin 100 → Fin 3 → EReal) (ob2 : Fin 3 → EReal) (n : Fin N) (q : Fin 3) : EReal :=
  outp (fun j => (s n j * p n j) * inv) ow1 ob1 ow2 ob2 q

/-- Dividing each factor by its own nonzero norm is multiplying the product by the reciprocal of the product of
    the norms. -/
theorem mix_eq (s p sn pn : EReal) (hs : sn ≠ 0) (hp : pn ≠ 0) :
    Ideal.div s sn * Ideal.div p pn = (s * p) * Ideal.div 1 (sn * pn) := by
  have hsp : sn * pn ≠ 0 := mul_ne_zero hs hp
  unfold Ideal.div
  rw [if_neg hs, if_neg hp, if_neg hsp, one_mul, EReal.mul_inv]
  rw [mul_mul_mul_comm]

/-- With neither norm zero, scaling by the reciprocal of the product of the norms is dividing each feature by its
    own norm. -/
theorem scaleOut_eq_divOut {N : ℕ} (s p : Fin N → Fin 10 → EReal) (ow1 : Fin 10 → Fin 100 → EReal) (ob1 : Fin 100 → EReal)
    (ow2 : Fin 100 → Fin 3 → EReal) (ob2 : Fin 3 → EReal) (hs : Ideal.sqrt (sumsq s) ≠ 0) (hp : Ideal.sqrt (sumsq p) ≠ 0)
    (n : Fin N) (q : Fin 3) :
    scaleOut s p (Ideal.div 1 (Ideal.sqrt (sumsq s) * Ideal.sqrt (sumsq p))) ow1 ob1 ow2 ob2 n q
      = divOut s p ow1 ob1 ow2 ob2 n q := by
  unfold scaleOut divOut
  congr 1
  funext j
  exact (mix_eq _ _ _ _ hs hp).symm

/-- A sum over `B * K` rows cut into `B` consecutive blocks of `K` rows. -/
theorem sum_rows_blocks {M : Type*} [AddCommMonoid M] (B K N : ℕ) (h : B * K = N) (f : Fin N → M) :
    ∑ n : Fin N, f n = ∑ t : Fin B, ∑ r : Fin K, f ⟨t.val * K + r.val, by
      rw [← h]
      exact Nat.lt_of_lt_of_le (Nat.add_lt_add_left r.isLt _)
        (by rw [← Nat.succ_mul]; exact Nat.mul_le_mul_right _ t.isLt)⟩ := by
  subst h
  rw [← finProdFinEquiv.sum_comp f, Fintype.sum_prod_type]
  refine Finset.sum_congr rfl fun t _ => Finset.sum_congr rfl fun q _ => congrArg f (Fin.ext ?_)
  show q.val + K * t.val = t.val * K + q.val
  rw [Nat.mul_comm, Nat.add_comm]

/-- A sum over `2 * H` blocks is the sum over the first `H` plus the sum over the last `H`. -/
theorem sum_halves {M : Type*} [AddCommMonoid M] (H : ℕ) (b : ℕ → M) :
    ∑ t : Fin (2 * H), b t.val = (∑ i ∈ Finset.range H, b i) + ∑ i ∈ Finset.range H, b (H + i) := by
  rw [Fin.sum_univ_eq_sum_range (fun n => b n) (2 * H), two_mul, Finset.sum_range_add]

end Cert.Mlp

end
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.HostSide.lean ====
/-
  What the two regions find in their operand arrays.

  Before the first region the host only reshapes each bias vector into a one-row array.  Between the regions it
  takes lane 0 and lane 128 of each accumulator array (the two cores' totals), adds them, takes the two square
  roots, multiplies them and divides one by the product: the scale the output region multiplies by.  No host
  operation and no region writes an argument, a weight or a reshaped bias, so the output region finds them as the
  first region did.
-/
import proofs.«174386_j12687333392689_2_alg».proof.Proof.Gen.KernelIdeal.Frame
import proofs.«174386_j12687333392689_2_alg».proof.Proof.Spec
import proofs.«174386_j12687333392689_2_alg».proof.Proof.LibSelfLoopSum
import Idealize.ShloMosaic.Lib.StableHlo.Run
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.HostSide

open Cert.KernelIdeal Cert.KernelIdeal.Gen

variable (m : (ℓ : Loc nD τ sig) → Buf (Elt Ideal) ℓ) (ρ : Dev nD → PrngReg)

/-- `main_arg0` as the sum-of-squares region finds it. -/
theorem in_main_arg0 (c : Dev nD) : V1 m ρ c main_arg0 = m ((c : Thread nD τ).loc main_arg0) := by
        show StableHlo.after hostOps0 (W0 m ρ c) (Proc.devRef .tc main_arg0) = _
        after_results

/-- `main_arg0` as the output region finds it. -/
theorem out_main_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := in_main_arg0 m ρ c

/-- `main_arg1` as the sum-of-squares region finds it. -/
theorem in_main_arg1 (c : Dev nD) : V1 m ρ c main_arg1 = m ((c : Thread nD τ).loc main_arg1) := by
        show StableHlo.after hostOps0 (W0 m ρ c) (Proc.devRef .tc main_arg1) = _
        after_results

/-- `main_arg1` as the output region finds it. -/
theorem out_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := in_main_arg1 m ρ c

/-- `main_v0` as the sum-of-squares region finds it. -/
theorem in_main_v0 (c : Dev nD) : V1 m ρ c main_v0 = shapeCast S1x10 (m ((c : Thread nD τ).loc main_arg2)) shapeCasts_S10_S1x10 := by
        show StableHlo.after hostOps0 (W0 m ρ c) (Proc.devRef .tc main_v0) = _
        after_results
        rfl

/-- `main_v0` as the output region finds it. -/
theorem out_main_v0 (c : Dev nD) : V3 m ρ c main_v0 = shapeCast S1x10 (m ((c : Thread nD τ).loc main_arg2)) shapeCasts_S10_S1x10 :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 2).trans (((dat0 (V1 m ρ) c).arrAt_in 2 rfl _).trans (A_eq0 (V1 m ρ) c 2))
    _ = shapeCast S1x10 (m ((c : Thread nD τ).loc main_arg2)) shapeCasts_S10_S1x10 := in_main_v0 m ρ c

/-- `main_arg3` as the sum-of-squares region finds it. -/
theorem in_main_arg3 (c : Dev nD) : V1 m ρ c main_arg3 = m ((c : Thread nD τ).loc main_arg3) := by
        show StableHlo.after hostOps0 (W0 m ρ c) (Proc.devRef .tc main_arg3) = _
        after_results

/-- `main_arg3` as the output region finds it. -/
theorem out_main_arg3 (c : Dev nD) : V3 m ρ c main_arg3 = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = m ((c : Thread nD τ).loc main_arg3) := in_main_arg3 m ρ c

/-- `main_v1` as the sum-of-squares region finds it. -/
theorem in_main_v1 (c : Dev nD) : V1 m ρ c main_v1 = shapeCast S1x10 (m ((c : Thread nD τ).loc main_arg4)) shapeCasts_S10_S1x10 := by
        show StableHlo.after hostOps0 (W0 m ρ c) (Proc.devRef .tc main_v1) = _
        after_results
        rfl

/-- `main_v1` as the output region finds it. -/
theorem out_main_v1 (c : Dev nD) : V3 m ρ c main_v1 = shapeCast S1x10 (m ((c : Thread nD τ).loc main_arg4)) shapeCasts_S10_S1x10 :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := (W2_arr m ρ c 4).trans (((dat0 (V1 m ρ) c).arrAt_in 4 rfl _).trans (A_eq0 (V1 m ρ) c 4))
    _ = shapeCast S1x10 (m ((c : Thread nD τ).loc main_arg4)) shapeCasts_S10_S1x10 := in_main_v1 m ρ c

/-- `main_arg5` as the sum-of-squares region finds it. -/
theorem in_main_arg5 (c : Dev nD) : V1 m ρ c main_arg5 = m ((c : Thread nD τ).loc main_arg5) := by
        show StableHlo.after hostOps0 (W0 m ρ c) (Proc.devRef .tc main_arg5) = _
        after_results

/-- `main_arg5` as the output region finds it. -/
theorem out_main_arg5 (c : Dev nD) : V3 m ρ c main_arg5 = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = m ((c : Thread nD τ).loc main_arg5) := in_main_arg5 m ρ c

/-- `main_v2` as the sum-of-squares region finds it. -/
theorem in_main_v2 (c : Dev nD) : V1 m ρ c main_v2 = shapeCast S1x10 (m ((c : Thread nD τ).loc main_arg6)) shapeCasts_S10_S1x10 := by
        show StableHlo.after hostOps0 (W0 m ρ c) (Proc.devRef .tc main_v2) = _
        after_results
        rfl

/-- `main_v2` as the output region finds it. -/
theorem out_main_v2 (c : Dev nD) : V3 m ρ c main_v2 = shapeCast S1x10 (m ((c : Thread nD τ).loc main_arg6)) shapeCasts_S10_S1x10 :=
  calc W3 m ρ c (Proc.devRef .tc main_v2)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := (W2_arr m ρ c 6).trans (((dat0 (V1 m ρ) c).arrAt_in 6 rfl _).trans (A_eq0 (V1 m ρ) c 6))
    _ = shapeCast S1x10 (m ((c : Thread nD τ).loc main_arg6)) shapeCasts_S10_S1x10 := in_main_v2 m ρ c

/-- `main_arg7` as the sum-of-squares region finds it. -/
theorem in_main_arg7 (c : Dev nD) : V1 m ρ c main_arg7 = m ((c : Thread nD τ).loc main_arg7) := by
        show StableHlo.after hostOps0 (W0 m ρ c) (Proc.devRef .tc main_arg7) = _
        after_results

/-- `main_arg7` as the output region finds it. -/
theorem out_main_arg7 (c : Dev nD) : V3 m ρ c main_arg7 = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 7).trans (((dat0 (V1 m ρ) c).arrAt_in 7 rfl _).trans (A_eq0 (V1 m ρ) c 7))
    _ = m ((c : Thread nD τ).loc main_arg7) := in_main_arg7 m ρ c

/-- `main_v3` as the sum-of-squares region finds it. -/
theorem in_main_v3 (c : Dev nD) : V1 m ρ c main_v3 = shapeCast S1x10 (m ((c : Thread nD τ).loc main_arg8)) shapeCasts_S10_S1x10 := by
        show StableHlo.after hostOps0 (W0 m ρ c) (Proc.devRef .tc main_v3) = _
        after_results
        rfl

/-- `main_v3` as the output region finds it. -/
theorem out_main_v3 (c : Dev nD) : V3 m ρ c main_v3 = shapeCast S1x10 (m ((c : Thread nD τ).loc main_arg8)) shapeCasts_S10_S1x10 :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := (W2_arr m ρ c 8).trans (((dat0 (V1 m ρ) c).arrAt_in 8 rfl _).trans (A_eq0 (V1 m ρ) c 8))
    _ = shapeCast S1x10 (m ((c : Thread nD τ).loc main_arg8)) shapeCasts_S10_S1x10 := in_main_v3 m ρ c

/-- `main_arg9` as the sum-of-squares region finds it. -/
theorem in_main_arg9 (c : Dev nD) : V1 m ρ c main_arg9 = m ((c : Thread nD τ).loc main_arg9) := by
        show StableHlo.after hostOps0 (W0 m ρ c) (Proc.devRef .tc main_arg9) = _
        after_results

/-- `main_arg9` as the output region finds it. -/
theorem out_main_arg9 (c : Dev nD) : V3 m ρ c main_arg9 = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = m ((c : Thread nD τ).loc main_arg9) := in_main_arg9 m ρ c

/-- `main_v4` as the sum-of-squares region finds it. -/
theorem in_main_v4 (c : Dev nD) : V1 m ρ c main_v4 = shapeCast S1x100 (m ((c : Thread nD τ).loc main_arg10)) shapeCasts_S100_S1x100 := by
        show StableHlo.after hostOps0 (W0 m ρ c) (Proc.devRef .tc main_v4) = _
        after_results
        rfl

/-- `main_v4` as the output region finds it. -/
theorem out_main_v4 (c : Dev nD) : V3 m ρ c main_v4 = shapeCast S1x100 (m ((c : Thread nD τ).loc main_arg10)) shapeCasts_S100_S1x100 :=
  calc W3 m ρ c (Proc.devRef .tc main_v4)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)
    _ = shapeCast S1x100 (m ((c : Thread nD τ).loc main_arg10)) shapeCasts_S100_S1x100 := in_main_v4 m ρ c

/-- `main_arg11` as the sum-of-squares region finds it. -/
theorem in_main_arg11 (c : Dev nD) : V1 m ρ c main_arg11 = m ((c : Thread nD τ).loc main_arg11) := by
        show StableHlo.after hostOps0 (W0 m ρ c) (Proc.devRef .tc main_arg11) = _
        after_results

/-- `main_arg11` as the output region finds it. -/
theorem out_main_arg11 (c : Dev nD) : V3 m ρ c main_arg11 = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = m ((c : Thread nD τ).loc main_arg11) := in_main_arg11 m ρ c

/-- `main_v5` as the sum-of-squares region finds it. -/
theorem in_main_v5 (c : Dev nD) : V1 m ρ c main_v5 = shapeCast S1x3 (m ((c : Thread nD τ).loc main_arg12)) shapeCasts_S3_S1x3 := by
        show StableHlo.after hostOps0 (W0 m ρ c) (Proc.devRef .tc main_v5) = _
        after_results
        rfl

/-- `main_v5` as the output region finds it. -/
theorem out_main_v5 (c : Dev nD) : V3 m ρ c main_v5 = shapeCast S1x3 (m ((c : Thread nD τ).loc main_arg12)) shapeCasts_S3_S1x3 :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)
    _ = shapeCast S1x3 (m ((c : Thread nD τ).loc main_arg12)) shapeCasts_S3_S1x3 := in_main_v5 m ρ c

/-- A one-entry array reshaped to a scalar holds that entry. -/
theorem cast_11_0 (x : S1x1.Idx → EReal) (i : S_.Idx) : shapeCast S_ x shapeCasts_S1x1_S_ i = x (ix2 0 0) :=
  shapeCast_apply x shapeCasts_S1x1_S_ i (ix2 0 0) (by
    rw [Shape.rowMajor_val_two]
    show (0 : ℕ) * _ + 0 = (Shape.rowMajorPi _ _).val
    rw [Shape.rowMajorPi_zero]; omega)

/-- A scalar reshaped to a one-entry array holds it at that entry. -/
theorem cast_0_11 (x : S_.Idx → EReal) (i : S1x1.Idx) : shapeCast S1x1 x shapeCasts_S_S1x1 i = x ix0 :=
  shapeCast_apply x shapeCasts_S_S1x1 i ix0 (by
    rw [Shape.rowMajor_val_two]
    show (Shape.rowMajorPi _ _).val = _
    rw [Shape.rowMajorPi_zero]
    have h0 : (i 0).val < 1 := (i 0).isLt
    have h1 : (i 1).val < 1 := (i 1).isLt
    show 0 = (i 0).val * 1 + (i 1).val
    omega)

/-- The first accumulator array after the first region. -/
abbrev accS (c : Dev nD) : S1x256.Idx → EReal := W2 m ρ c (Proc.devRef .tc main_v6_0)
/-- The second accumulator array after the first region. -/
abbrev accP (c : Dev nD) : S1x256.Idx → EReal := W2 m ρ c (Proc.devRef .tc main_v6_1)

/-- The scale the output region finds: one over the product of the square roots of the two totals, each total the
    sum of lane 0 and lane 128 of its accumulator array. -/
theorem out_scale (c : Dev nD) :
    V3 m ρ c main_v21 (ix2 0 0)
      = Ideal.div 1 (Ideal.sqrt (accS m ρ c (ix2 0 ⟨0, by decide⟩) + accS m ρ c (ix2 0 ⟨128, by decide⟩))
          * Ideal.sqrt (accP m ρ c (ix2 0 ⟨0, by decide⟩) + accP m ρ c (ix2 0 ⟨128, by decide⟩))) := by
  have e : V3 m ρ c main_v21 = shapeCast S1x1 (Host.divf (constant (F := Ideal) S_ .f32 0x3F800000#32)
      (mulf (Host.sqrt (addf (shapeCast S_ (extractStridedSlice S1x1 ![0, 0] (accS m ρ c) slices_S1x256_S1x1_0_0) shapeCasts_S1x1_S_)
            (shapeCast S_ (extractStridedSlice S1x1 ![0, 128] (accS m ρ c) slices_S1x256_S1x1_0_128) shapeCasts_S1x1_S_)))
        (Host.sqrt (addf (shapeCast S_ (extractStridedSlice S1x1 ![0, 0] (accP m ρ c) slices_S1x256_S1x1_0_0) shapeCasts_S1x1_S_)
            (shapeCast S_ (extractStridedSlice S1x1 ![0, 128] (accP m ρ c) slices_S1x256_S1x1_0_128) shapeCasts_S1x1_S_)))))
      shapeCasts_S_S1x1 := by
    show StableHlo.after hostOps1 (W2 m ρ c) (Proc.devRef .tc main_v21) = _
    after_results
    rfl
  rw [e, cast_0_11]
  simp only [Host.divf, mulf, Host.sqrt, addf, constant, cast_11_0, Ideal.hostDivf_def, Ideal.mulf_def,
    Ideal.hostUnary_sqrt_def, Ideal.addf_def, Ideal.ofBits_def, SelfLoopSum.ofBits_one_f32]
  rw [slice2_axis1_apply 0 (accS m ρ c) slices_S1x256_S1x1_0_0 (0 : Fin 1) (0 : Fin 1) ⟨0, by decide⟩ rfl,
    slice2_axis1_apply 128 (accS m ρ c) slices_S1x256_S1x1_0_128 (0 : Fin 1) (0 : Fin 1) ⟨128, by decide⟩ rfl,
    slice2_axis1_apply 0 (accP m ρ c) slices_S1x256_S1x1_0_0 (0 : Fin 1) (0 : Fin 1) ⟨0, by decide⟩ rfl,
    slice2_axis1_apply 128 (accP m ρ c) slices_S1x256_S1x1_0_128 (0 : Fin 1) (0 : Fin 1) ⟨128, by decide⟩ rfl]

end Cert.HostSide

end
-- ==== Proof.SumFound.lean ====
/-
  What one run of the sum-of-squares body leaves in its two accumulator blocks.

  The body computes the two feature blocks of the point's rows, squares and sums them to one number each, and adds
  that number (spread over the 128 lanes) to the accumulator block it finds.  At the first point of a core's run
  the block it finds is the zero block it has just stored; at every later point it is what the point before left.
-/
import proofs.«174386_j12687333392689_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.SumFound

open Cert.KernelIdeal Cert.KernelIdeal.Gen

variable {F : FTy → Type} [FloatOps F]

theorem hz : (![0, 0] : Fin 2 → Nat) = fun _ => 0 := funext fun a => by fin_cases a <;> rfl

/-- A later point, first accumulator: the block `xo9` it finds plus the sum of squares of the first features. -/
theorem later_s (c : Dev nD) (i : grid0.Coords) (arg2 : Memref sig .tc .vmem S10000x6 .f32) (harg2 : arg2.IsWhole) (arg3 : Memref sig .tc .vmem S3x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S3x10 .f32) (harg7 : arg7.IsWhole) (arg8 : Memref sig .tc .vmem S1x10 .f32) (harg8 : arg8.IsWhole) (arg9 : Memref sig .tc .vmem S10x10 .f32) (harg9 : arg9.IsWhole) (arg10 : Memref sig .tc .vmem S1x10 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S10000x6 .f32) (x1 : Vec F S3x10 .f32) (x2 : Vec F S1x10 .f32) (x3 : Vec F S10x10 .f32) (x4 : Vec F S1x10 .f32) (x5 : Vec F S3x10 .f32) (x6 : Vec F S1x10 .f32) (x7 : Vec F S10x10 .f32) (x8 : Vec F S1x10 .f32) (xo9 xo10 : Vec F S1x128 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10 = k0_pay1 (k0_pay6 x0 x1 x3 x2 x4) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S10000x6) hz, View.ld_unit_zero (S := S3x10) hz, View.ld_unit_zero (S := S1x10) hz, View.ld_unit_zero (S := S10x10) hz, View.ld_unit_zero (S := S1x128) hz]

/-- A later point, second accumulator: the block `xo10` it finds plus the sum of squares of the second features. -/
theorem later_p (c : Dev nD) (i : grid0.Coords) (arg2 : Memref sig .tc .vmem S10000x6 .f32) (harg2 : arg2.IsWhole) (arg3 : Memref sig .tc .vmem S3x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S3x10 .f32) (harg7 : arg7.IsWhole) (arg8 : Memref sig .tc .vmem S1x10 .f32) (harg8 : arg8.IsWhole) (arg9 : Memref sig .tc .vmem S10x10 .f32) (harg9 : arg9.IsWhole) (arg10 : Memref sig .tc .vmem S1x10 .f32) (harg10 : arg10.IsWhole) (arg11 : Memref sig .tc .vmem S1x128 .f32) (harg11 : arg11.IsWhole) (arg12 : Memref sig .tc .vmem S1x128 .f32) (harg12 : arg12.IsWhole) (hc0 : ¬cond0_0 i)
    (x0 : Vec F S10000x6 .f32) (x1 : Vec F S3x10 .f32) (x2 : Vec F S1x10 .f32) (x3 : Vec F S10x10 .f32) (x4 : Vec F S1x10 .f32) (x5 : Vec F S3x10 .f32) (x6 : Vec F S1x10 .f32) (x7 : Vec F S10x10 .f32) (x8 : Vec F S1x10 .f32) (xo9 xo10 : Vec F S1x128 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10
      = k0_pay2 (k0_pay5 x7) (k0_pay7 x0 x5 x6) (Scalar.ofBits .f32 0x00000000#32) x8 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S10000x6) hz, View.ld_unit_zero (S := S3x10) hz, View.ld_unit_zero (S := S1x10) hz, View.ld_unit_zero (S := S10x10) hz, View.ld_unit_zero (S := S1x128) hz]

/-- The first point of a run, first accumulator: the zero block plus the sum of squares of the first features. -/
theorem first_s (c : Dev nD) (i : grid0.Coords) (arg2 : Memref sig .tc .vmem S10000x6 .f32) (harg2 : arg2.IsWhole) (arg3 : Memref sig .tc .vmem S3x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S3x10 .f32) (harg7 : arg7.IsWhole) (arg8 : Memref sig .tc .vmem S1x10 .f32) (harg8 : arg8.IsWhole) (arg9 : Memref sig .tc .vmem S10x10 .f32) (harg9 : arg9.IsWhole) (arg10 : Memref sig .tc .vmem S1x10 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S10000x6 .f32) (x1 : Vec F S3x10 .f32) (x2 : Vec F S1x10 .f32) (x3 : Vec F S10x10 .f32) (x4 : Vec F S1x10 .f32) (x5 : Vec F S3x10 .f32) (x6 : Vec F S1x10 .f32) (x7 : Vec F S10x10 .f32) (x8 : Vec F S1x10 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay1 (k0_pay6 x0 x1 x3 x2 x4) (k0_pay3 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_cons_unit_zero (S := S1x128) hz, View.readCov_unit_zero (S := S1x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S10000x6) hz, View.ld_unit_zero (S := S3x10) hz, View.ld_unit_zero (S := S1x10) hz, View.ld_unit_zero (S := S10x10) hz, View.ld_unit_zero (S := S1x128) hz]

/-- The first point of a run, second accumulator: the zero block plus the sum of squares of the second features. -/
theorem first_p (c : Dev nD) (i : grid0.Coords) (arg2 : Memref sig .tc .vmem S10000x6 .f32) (harg2 : arg2.IsWhole) (arg3 : Memref sig .tc .vmem S3x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S3x10 .f32) (harg7 : arg7.IsWhole) (arg8 : Memref sig .tc .vmem S1x10 .f32) (harg8 : arg8.IsWhole) (arg9 : Memref sig .tc .vmem S10x10 .f32) (harg9 : arg9.IsWhole) (arg10 : Memref sig .tc .vmem S1x10 .f32) (harg10 : arg10.IsWhole) (arg11 : Memref sig .tc .vmem S1x128 .f32) (harg11 : arg11.IsWhole) (arg12 : Memref sig .tc .vmem S1x128 .f32) (harg12 : arg12.IsWhole) (hc0 : cond0_0 i)
    (x0 : Vec F S10000x6 .f32) (x1 : Vec F S3x10 .f32) (x2 : Vec F S1x10 .f32) (x3 : Vec F S10x10 .f32) (x4 : Vec F S1x10 .f32) (x5 : Vec F S3x10 .f32) (x6 : Vec F S1x10 .f32) (x7 : Vec F S10x10 .f32) (x8 : Vec F S1x10 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8
      = k0_pay2 (k0_pay5 x7) (k0_pay7 x0 x5 x6) (Scalar.ofBits .f32 0x00000000#32) x8 (k0_pay4 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_cons_unit_zero (S := S1x128) hz, View.readCov_unit_zero (S := S1x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S10000x6) hz, View.ld_unit_zero (S := S3x10) hz, View.ld_unit_zero (S := S1x10) hz, View.ld_unit_zero (S := S10x10) hz, View.ld_unit_zero (S := S1x128) hz]

end Cert.SumFound

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibColSum.lean ====
/-
  Three readings at an index, beside the keep-dims ones.

  A sum over the FIRST axis of an `[a, b]` array (the sublanes) into the zero accumulator is, at column `c`, the
  sum of that column's entries; a `[1, 1, 1]` scalar broadcast over `b` lanes reads the scalar everywhere; and a
  sum over the index set of a rank-1 shape is the sum over its one coordinate.
-/
import Idealize.ShloMosaic.Lib.Pipeline.Value
import Idealize.ShloMosaic.Lib.ValueIdx
import Idealize.ShloMosaic.PureOps.Ideal.Laws

noncomputable section

namespace Idealize.ShloMosaic.ColSum

open Idealize.ShloMosaic Idealize.ShloMosaic.ValueIdx

variable {α : Type}

/-- The sum over the rows of an `[a, b]` array into the zero accumulator, at column `c`, is the sum of the
    column's entries. -/
theorem colSum_apply {a b : ℕ} (v : FVec Ideal ⟨2, ![a, b]⟩ .f32) (h : (⟨2, ![a, b]⟩ : Shape).Reduces [0] ⟨1, ![b]⟩)
    (hacc : (0x00000000#32 : BitVec 32) = 0x00000000#32) (c : Fin b) :
    multiReduction .add [0] ⟨1, ![b]⟩ v 0x00000000#32 h (.inl rfl) hacc (ix1 c) = ∑ k : Fin a, v (ix2 k c) :=
  (Ideal.multiReduction_add_single v 0x00000000#32 h (.inl rfl) hacc (ix1 c)).trans
    (Finset.sum_congr rfl fun k _ => congrArg v (funext fun ax => Fin.ext (by
      match ax with
      | ⟨0, _⟩ => rfl
      | ⟨1, _⟩ => rfl)))

/-- A `[1, 1, 1]` scalar broadcast over `b` lanes reads, at every index, the scalar. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) :=
  ((idxEquiv1 (n := n)).symm.sum_comp f).symm

end Idealize.ShloMosaic.ColSum

end
-- ==== Proof.SumBlock.lean ====
/-
  The two accumulator payloads of the sum-of-squares body, read at a lane.

  Each is what the accumulator block held plus one number: the sum over the block's ten thousand rows and ten
  columns of the squared feature.  For the second accumulator the feature block is formed inside the payload
  (hidden units clamped at zero, the second weights, the bias).
-/
import proofs.«174386_j12687333392689_2_alg».proof.Proof.Gen.KernelIdeal.Skeleton
import proofs.«174386_j12687333392689_2_alg».proof.Proof.Spec
import proofs.«174386_j12687333392689_2_alg».proof.Proof.LibKeepdims
import proofs.«174386_j12687333392689_2_alg».proof.Proof.LibColSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.SumBlock

open Cert.KernelIdeal Cert.KernelIdeal.Gen

/-- The sum of the squared entries of a block of ten thousand rows of ten features. -/
def ssq (v : FVec Ideal S10000x10 .f32) : EReal := ∑ r : Fin 10000, ∑ j : Fin 10, v (ix2 r j) * v (ix2 r j)

/-- The sum of the squares of a block's entries, as the body computes it: lanes first, then rows. -/
theorem squares_apply (v : FVec Ideal S10000x10 .f32) (u w : Fin 1) :
    shapeCast S1x1 (shapeCast S1x1 (multiReduction (F := Ideal) .add [0] S1 (shapeCast S10000x1 (multiReduction (F := Ideal) .add [1] S10000 (mulf v v) 0x00000000#32 reduces_S10000x10_S10000 (.inl rfl) rfl) shapeCasts_S10000_S10000x1) 0x00000000#32 reduces_S10000x1_S1 (.inl rfl) rfl) shapeCasts_S1_S1x1) shapeCasts_S1x1_S1x1 (ix2 u w)
      = ssq v := by
  rw [shapeCast_self]
  rw [Keepdims.shapeCast_a_a1_apply _ _ u w]
  rw [ColSum.colSum_apply _ _ _ u]
  refine Finset.sum_congr rfl fun r _ => ?_
  rw [Keepdims.shapeCast_a_a1_apply _ _ r u, Keepdims.rowSum_apply _ _ _ r]
  rfl

/-- The first accumulator's new contents: what it held plus the block's sum of squares, at every lane. -/
theorem acc_s_apply (v : FVec Ideal S10000x10 .f32) (acc : Vec Ideal S1x128 .f32) (i : S1x128.Idx) :
    k0_pay1 v acc i = acc i + ssq v := by
  obtain ⟨p, l, rfl⟩ : ∃ (p : Fin 1) (l : Fin 128), i = ix2 p l := ⟨i 0, i 1, eq_ix2 i⟩
  unfold k0_pay1
  show (shapeCast S1x128 acc shapeCasts_S1x128_S1x128) (ix2 p l) + (broadcastTo S1x128 _ broadcasts_S1x1_S1x128) (ix2 p l) = _
  rw [shapeCast_self, Keepdims.broadcastTo_a1_ab_apply _ _ p l]
  exact congrArg (acc (ix2 p l) + ·) (squares_apply v p 0)

/-- The second features of a block, formed from the first layer before the clamp: the hidden units clamped at
    `z`, the second weights, the bias row. -/
def secondLayer (w : FVec Ideal S10x10 .bf16) (h : FVec Ideal S10000x10 .f32) (z : Ideal .f32) (b : Vec Ideal S1x10 .f32) :
    FVec Ideal S10000x10 .f32 :=
  addf (matmul (F := Ideal) dot_S10000x10_S10x10_S10000x10_1_0_0_1_n_n none
      (truncf (F := Ideal) .bf16 (maximumf h (broadcast S10000x10 z)) bitsLt_bf16_f32) w
      (constant (F := Ideal) S10000x10 .f32 0x00000000#32))
    (broadcastTo S10000x10 (shapeCast S1x10 b shapeCasts_S1x10_S1x10) broadcasts_S1x10_S10000x10)

/-- The second accumulator's new contents: what it held plus the sum of squares of the second features. -/
theorem acc_p_apply (w : FVec Ideal S10x10 .bf16) (h : FVec Ideal S10000x10 .f32) (z : Ideal .f32) (b : Vec Ideal S1x10 .f32)
    (acc : Vec Ideal S1x128 .f32) (i : S1x128.Idx) :
    k0_pay2 w h z b acc i = acc i + ssq (secondLayer w h z b) := by
  obtain ⟨p, l, rfl⟩ : ∃ (p : Fin 1) (l : Fin 128), i = ix2 p l := ⟨i 0, i 1, eq_ix2 i⟩
  unfold k0_pay2
  show (shapeCast S1x128 acc shapeCasts_S1x128_S1x128) (ix2 p l) + (broadcastTo S1x128 _ broadcasts_S1x1_S1x128) (ix2 p l) = _
  rw [shapeCast_self, Keepdims.broadcastTo_a1_ab_apply _ _ p l]
  exact congrArg (acc (ix2 p l) + ·) (squares_apply (secondLayer w h z b) p 0)

end Cert.SumBlock

end
-- ==== Proof.SumDefs.lean ====
/-
  The feature blocks of a point of the sum-of-squares region, and the point's addends to the two accumulators.
-/
import proofs.«174386_j12687333392689_2_alg».proof.Proof.Gen.KernelIdeal.Frame
import proofs.«174386_j12687333392689_2_alg».proof.Proof.SumBlock

set_option maxRecDepth 16384

noncomputable section

open Idealize.ShloMosaic Idealize.ShloMosaic.TcCoe Idealize.SL.Sem Idealize.ShloMosaic.ValueIdx

namespace Cert.SumDefs

open Cert.KernelIdeal Cert.KernelIdeal.Gen Cert.SumBlock

variable (V : (c : Dev nD) → (b : Ref sig .tc) → Buf (Elt Ideal) ((c : Thread nD τ).loc b))

/-- The first features of the rows of point `t`. -/
def sBlk (c : Dev nD) (t : Fin cfg0.N) : FVec Ideal S10000x10 .f32 :=
  k0_pay6 (iblk0 V c 0 t) (iblk0 V c 1 t) (iblk0 V c 3 t) (iblk0 V c 2 t) (iblk0 V c 4 t)

/-- The second features of the rows of point `t`. -/
def pBlk (c : Dev nD) (t : Fin cfg0.N) : FVec Ideal S10000x10 .f32 :=
  secondLayer (k0_pay5 (iblk0 V c 7 t)) (k0_pay7 (iblk0 V c 0 t) (iblk0 V c 5 t) (iblk0 V c 6 t))
    (Scalar.ofBits .f32 0x00000000#32) (iblk0 V c 8 t)

/-- Point `n`'s addend to the first accumulator (zero past the grid, where it is never used). -/
def sAdd (c : Dev nD) (n : ℕ) : EReal := if h : n < cfg0.N then ssq (sBlk V c ⟨n, h⟩) else 0

/-- Point `n`'s addend to the second accumulator. -/
def pAdd (c : Dev nD) (n : ℕ) : EReal := if h : n < cfg0.N then ssq (pBlk V c ⟨n, h⟩) else 0

end Cert.SumDefs

end
-- ==== Proof.SumAcc.lean ====
/-
  The two accumulators over a core's run of a hundred points.

  A core's run starts at a point whose number is a multiple of a hundred: there the accumulator block is reset
  to zero before the point's sum of squares is added.  Each later point adds its own sum of squares to what the
  point before left.  So after the run's last point the block holds, at every lane, zero plus the sum of the
  hundred points' sums of squares; that block is written back, the first core's to lanes 0..127 of the
  accumulator array and the second core's to lanes 128..255.
-/
import proofs.«174386_j12687333392689_2_alg».proof.Proof.SumFound
import proofs.«174386_j12687333392689_2_alg».proof.Proof.SumBlock
import proofs.«174386_j12687333392689_2_alg».proof.Proof.SumDefs

set_option maxRecDepth 16384

noncomputable section

open Idealize.ShloMosaic Idealize.ShloMosaic.TcCoe Idealize.SL.Sem Idealize.ShloMosaic.ValueIdx
open Idealize.ShloMosaic.Pipeline (Dat)

namespace Cert.SumAcc

open Cert.KernelIdeal Cert.KernelIdeal.Gen Cert.SumBlock Cert.SumDefs

variable (V : (c : Dev nD) → (b : Ref sig .tc) → Buf (Elt Ideal) ((c : Thread nD τ).loc b))

theorem zero_s (i : S1x128.Idx) : (k0_pay3 (F := Ideal)) i = 0 := by
  unfold k0_pay3
  show Ideal.ofBits .f32 0x00000000#32 = 0
  exact Ideal.ofBits_zero_f32

theorem zero_p (i : S1x128.Idx) : (k0_pay4 (F := Ideal)) i = 0 := by
  unfold k0_pay4
  show Ideal.ofBits .f32 0x00000000#32 = 0
  exact Ideal.ofBits_zero_f32

/-- The first accumulator after point `t`, at every lane: zero plus the addends of the run's points up to `t`. -/
theorem acc_s_closed (c : Dev nD) (t : Fin cfg0.N) (i : S1x128.Idx) :
    (outsAt0 V c t.val t.isLt).1 i = 0 + ∑ s ∈ Finset.range (t.val % 100 + 1), sAdd V c (100 * (t.val / 100) + s) := by
  have hN : cfg0.N = 200 := N_0
  have key := Pipeline.eq_accAt_of_mod (N := cfg0.N) (fun n h => (outsAt0 V c n h).1) 100
    (fun n h => k0_pay1 (sBlk V c ⟨n, h⟩) (k0_pay3 (F := Ideal)))
    (fun n h acc => k0_pay1 (sBlk V c ⟨n, h⟩) acc)
    (fun n h hmod => (congrArg Prod.fst (outsAt0_A V c ⟨n, h⟩ hmod)).trans
      (Cert.SumFound.first_s (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) ((hcond0_0 ⟨n, h⟩).mpr hmod) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (iblk0 V c 8 ⟨n, h⟩)))
    (fun n h hmod => (congrArg Prod.fst (outsAt0_B V c ⟨n + 1, h⟩ hmod)).trans
      (Cert.SumFound.later_s (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (fun hh => hmod ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (outsAt0 V c n (Nat.lt_of_succ_lt h)).1 (outsAt0 V c n (Nat.lt_of_succ_lt h)).2))
    (by omega) t.val t.isLt (by have := Nat.div_add_mod t.val 100; have := t.isLt; omega)
  rw [congrFun key i]
  exact Pipeline.accAt_add_apply (N := cfg0.N) _ _ (fun _ => (0 : EReal)) (fun n _ => sAdd V c n) (100 * (t.val / 100)) 99
    (fun h j => by
      show k0_pay1 (sBlk V c ⟨_, h⟩) (k0_pay3 (F := Ideal)) j = 0 + sAdd V c _
      rw [acc_s_apply, zero_s, sAdd, dif_pos h])
    (fun n h acc j _ _ => by
      show k0_pay1 (sBlk V c ⟨n, h⟩) acc j = acc j + sAdd V c n
      rw [acc_s_apply, sAdd, dif_pos h])
    (t.val % 100) (by have := Nat.mod_lt t.val (show 0 < 100 by omega); omega) _ i

/-- The second accumulator after point `t`, at every lane: zero plus the addends of the run's points up to `t`. -/
theorem acc_p_closed (c : Dev nD) (t : Fin cfg0.N) (i : S1x128.Idx) :
    (outsAt0 V c t.val t.isLt).2 i = 0 + ∑ s ∈ Finset.range (t.val % 100 + 1), pAdd V c (100 * (t.val / 100) + s) := by
  have hN : cfg0.N = 200 := N_0
  have key := Pipeline.eq_accAt_of_mod (N := cfg0.N) (fun n h => (outsAt0 V c n h).2) 100
    (fun n h => k0_pay2 (k0_pay5 (iblk0 V c 7 ⟨n, h⟩)) (k0_pay7 (iblk0 V c 0 ⟨n, h⟩) (iblk0 V c 5 ⟨n, h⟩) (iblk0 V c 6 ⟨n, h⟩)) (Scalar.ofBits .f32 0x00000000#32) (iblk0 V c 8 ⟨n, h⟩) (k0_pay4 (F := Ideal)))
    (fun n h acc => k0_pay2 (k0_pay5 (iblk0 V c 7 ⟨n, h⟩)) (k0_pay7 (iblk0 V c 0 ⟨n, h⟩) (iblk0 V c 5 ⟨n, h⟩) (iblk0 V c 6 ⟨n, h⟩)) (Scalar.ofBits .f32 0x00000000#32) (iblk0 V c 8 ⟨n, h⟩) acc)
    (fun n h hmod => (congrArg Prod.snd (outsAt0_A V c ⟨n, h⟩ hmod)).trans
      (Cert.SumFound.first_p (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) ((hcond0_0 ⟨n, h⟩).mpr hmod) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (iblk0 V c 8 ⟨n, h⟩)))
    (fun n h hmod => (congrArg Prod.snd (outsAt0_B V c ⟨n + 1, h⟩ hmod)).trans
      (Cert.SumFound.later_p (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (fun hh => hmod ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (outsAt0 V c n (Nat.lt_of_succ_lt h)).1 (outsAt0 V c n (Nat.lt_of_succ_lt h)).2))
    (by omega) t.val t.isLt (by have := Nat.div_add_mod t.val 100; have := t.isLt; omega)
  rw [congrFun key i]
  exact Pipeline.accAt_add_apply (N := cfg0.N) _ _ (fun _ => (0 : EReal)) (fun n _ => pAdd V c n) (100 * (t.val / 100)) 99
    (fun h j => by
      show k0_pay2 (F := Ideal) _ _ _ _ (k0_pay4 (F := Ideal)) j = 0 + pAdd V c _
      rw [acc_p_apply, zero_p, pAdd, dif_pos h]; rfl)
    (fun n h acc j _ _ => by
      show k0_pay2 (F := Ideal) _ _ _ _ acc j = acc j + pAdd V c n
      rw [acc_p_apply, pAdd, dif_pos h]; rfl)
    (t.val % 100) (by have := Nat.mod_lt t.val (show 0 < 100 by omega); omega) _ i

/-! ## The accumulator arrays after the region -/

/-- The printed index maps of the two accumulator windows, decided over the two hundred points: block `(0, q)` for
    the points of core `q`. -/
theorem idx_acc : ∀ t : Fin cfg0.N, win0_9.index t (0 : Fin 2) = 0 ∧ win0_9.index t (1 : Fin 2) = t.val / 100
    ∧ win0_10.index t (0 : Fin 2) = 0 ∧ win0_10.index t (1 : Fin 2) = t.val / 100 :=
  (by decide +kernel : ∀ t : Fin grid0.N, _)

/-- What the first accumulator array ends holding: at a lane of core `q`'s half, zero plus the sum of the addends
    of core `q`'s hundred points. -/
def totS (c : Dev nD) : S1x256.Idx → EReal :=
  fun i => 0 + ∑ s ∈ Finset.range 100, sAdd V c (100 * ((i 1).val / 128) + s)

/-- What the second accumulator array ends holding. -/
def totP (c : Dev nD) : S1x256.Idx → EReal :=
  fun i => 0 + ∑ s ∈ Finset.range 100, pAdd V c (100 * ((i 1).val / 128) + s)

theorem flushed_s (c : Dev nD) (t : Fin cfg0.N) (hf : (cfg0.win 9).flush t = true) :
    (dat0 V c).flushed 9 t = ((cfg0.win 9).blk t).view.read (Elt Ideal) (totS V c) := by
  have h99 : t.val % 100 = 99 := (flush0_9 t).mp hf
  obtain ⟨e0, e1, -, -⟩ := idx_acc t
  show (cfg0.win 9).cut (grid0.coords t) ((dat0 V c).after 9 t) = _
  rw [after0_9]
  funext y
  show (outsAt0 V c t.val t.isLt).1 y = totS V c (((cfg0.win 9).blk t).view.emb y)
  rw [acc_s_closed V c t y, h99]
  unfold totS
  have hy1 : (y 1).val < 128 := (y 1).isLt
  have hy : ((((cfg0.win 9).blk t).view.emb y) 1).val = win0_9.index t (1 : Fin 2) * 128 + 1 * (y 1).val := rfl
  rw [hy, e1, show (t.val / 100 * 128 + 1 * (y 1).val) / 128 = t.val / 100 by omega]

theorem flushed_p (c : Dev nD) (t : Fin cfg0.N) (hf : (cfg0.win 10).flush t = true) :
    (dat0 V c).flushed 10 t = ((cfg0.win 10).blk t).view.read (Elt Ideal) (totP V c) := by
  have h99 : t.val % 100 = 99 := (flush0_10 t).mp hf
  obtain ⟨-, -, e0, e1⟩ := idx_acc t
  show (cfg0.win 10).cut (grid0.coords t) ((dat0 V c).after 10 t) = _
  rw [after0_10]
  funext y
  show (outsAt0 V c t.val t.isLt).2 y = totP V c (((cfg0.win 10).blk t).view.emb y)
  rw [acc_p_closed V c t y, h99]
  unfold totP
  have hy1 : (y 1).val < 128 := (y 1).isLt
  have hy : ((((cfg0.win 10).blk t).view.emb y) 1).val = win0_10.index t (1 : Fin 2) * 128 + 1 * (y 1).val := rfl
  rw [hy, e1, show (t.val / 100 * 128 + 1 * (y 1).val) / 128 = t.val / 100 by omega]

theorem lastPoint_lt (i : S1x256.Idx) : 100 * ((i 1).val / 128) + 99 < cfg0.N := by
  have hi1 : (i 1).val < 256 := (i 1).isLt
  rw [show cfg0.N = 200 from N_0]; omega

/-- The last point of the run of the core whose half of the accumulator array holds lane `i`. -/
def lastPt (i : S1x256.Idx) : Fin cfg0.N := ⟨100 * ((i 1).val / 128) + 99, lastPoint_lt i⟩

theorem cover_s (i : S1x256.Idx) :
    ∃ t : Fin cfg0.N, (cfg0.win 9).flush t = true ∧ i ∈ ((cfg0.win 9).blk t).view.set := by
  have hi1 : (i 1).val < 256 := (i 1).isLt
  have hi0 : (i 0).val < 1 := (i 0).isLt
  obtain ⟨e0, e1, -, -⟩ := idx_acc (lastPt i)
  have hv : (lastPt i).val = 100 * ((i 1).val / 128) + 99 := rfl
  refine ⟨lastPt i, (flush0_9 _).mpr (by rw [hv]; omega), ?_⟩
  show i ∈ ((View.whole main_v6_0).slice (win0_9.rect (lastPt i))).set
  rw [View.set_slice_whole, Rect.mem_set_unit]
  intro a
  match a with
  | ⟨0, _⟩ =>
    show win0_9.index (lastPt i) (0 : Fin 2) * 1 ≤ (i 0).val ∧ (i 0).val < win0_9.index (lastPt i) (0 : Fin 2) * 1 + 1
    rw [e0]; omega
  | ⟨1, _⟩ =>
    show win0_9.index (lastPt i) (1 : Fin 2) * 128 ≤ (i 1).val ∧ (i 1).val < win0_9.index (lastPt i) (1 : Fin 2) * 128 + 128
    rw [e1, hv]; omega

theorem cover_p (i : S1x256.Idx) :
    ∃ t : Fin cfg0.N, (cfg0.win 10).flush t = true ∧ i ∈ ((cfg0.win 10).blk t).view.set := by
  have hi1 : (i 1).val < 256 := (i 1).isLt
  have hi0 : (i 0).val < 1 := (i 0).isLt
  obtain ⟨-, -, e0, e1⟩ := idx_acc (lastPt i)
  have hv : (lastPt i).val = 100 * ((i 1).val / 128) + 99 := rfl
  refine ⟨lastPt i, (flush0_10 _).mpr (by rw [hv]; omega), ?_⟩
  show i ∈ ((View.whole main_v6_1).slice (win0_10.rect (lastPt i))).set
  rw [View.set_slice_whole, Rect.mem_set_unit]
  intro a
  match a with
  | ⟨0, _⟩ =>
    show win0_10.index (lastPt i) (0 : Fin 2) * 1 ≤ (i 0).val ∧ (i 0).val < win0_10.index (lastPt i) (0 : Fin 2) * 1 + 1
    rw [e0]; omega
  | ⟨1, _⟩ =>
    show win0_10.index (lastPt i) (1 : Fin 2) * 128 ≤ (i 1).val ∧ (i 1).val < win0_10.index (lastPt i) (1 : Fin 2) * 128 + 128
    rw [e1, hv]; omega

/-- The first accumulator array after the region. -/
theorem final_s (c : Dev nD) : (dat0 V c).arrAt 9 cfg0.N = totS V c :=
  (dat0 V c).arrAt_eq_of_cover 9 (totS V c) (flushed_s V c) (cover_s)

/-- The second accumulator array after the region. -/
theorem final_p (c : Dev nD) : (dat0 V c).arrAt 10 cfg0.N = totP V c :=
  (dat0 V c).arrAt_eq_of_cover 10 (totP V c) (flushed_p V c) (cover_p)

end Cert.SumAcc

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.Layers.lean ====
/-
  The small perceptron layers of the row kernels, read at an entry.

  A row block holds ten thousand rows of six numbers.  The first branch takes the first three columns of a row
  through a three-to-ten layer (a matrix product, a bias row broadcast down the rows, a clamp at zero) and a
  ten-to-ten layer (a matrix product and a bias row); the second branch's first layer does the same with the last
  three columns.  On the extended reals a change of float format is the identity, a matrix product into the zero
  accumulator is the sum over the contracted coordinate of the operands' products, and the zero word is the number
  zero; so each layer at entry \`(r, j)\` is the sum the specification's \`hid\` / \`feat\` write, of row \`r\` alone.
-/
import proofs.«174386_j12687333392689_2_alg».proof.Proof.Gen.KernelIdeal.Skeleton
import proofs.«174386_j12687333392689_2_alg».proof.Proof.Spec
import proofs.«174386_j12687333392689_2_alg».proof.Proof.LibPlainDot
import proofs.«174386_j12687333392689_2_alg».proof.Proof.LibRowBroadcast
import Idealize.ShloMosaic.Lib.ValueLayout

noncomputable section

namespace Cert.Layers

open Cert.KernelIdeal Cert.KernelIdeal.Gen Idealize.ShloMosaic Idealize.ShloMosaic.ValueIdx
open scoped BigOperators

/-! ## The four matrix products' dimension records: rows times the contracted axis, the contracted axis times columns -/

abbrev D3 : DotDims S10000x3 S3x10 S10000x10 := dot_S10000x3_S3x10_S10000x10_1_0_0_1_n_n
abbrev D10 : DotDims S10000x10 S10x10 S10000x10 := dot_S10000x10_S10x10_S10000x10_1_0_0_1_n_n
abbrev D100 : DotDims S10000x10 S10x100 S10000x100 := dot_S10000x10_S10x100_S10000x100_1_0_0_1_n_n
abbrev DO : DotDims S10000x100 S100x3 S10000x3 := dot_S10000x100_S100x3_S10000x3_1_0_0_1_n_n

theorem d3_l0 (i : S10000x10.Idx) (q : D3.contr.Idx) : (D3.lhsIdx i q 0).val = (i 0).val := by
  unfold DotDims.lhsIdx
  rw [dif_neg (show ¬(0 : Fin S10000x3.rank) ∈ D3.lhsBatch by decide), dif_pos (show (0 : Fin S10000x3.rank) ∈ D3.lhsNonContracting by decide)]
  rfl
theorem d3_l1 (i : S10000x10.Idx) (q : D3.contr.Idx) : (D3.lhsIdx i q 1).val = (q ⟨0, by decide⟩).val :=
  D3.lhsIdx_val_of_single rfl i q
theorem d3_r0 (i : S10000x10.Idx) (q : D3.contr.Idx) : (D3.rhsIdx i q 0).val = (q ⟨0, by decide⟩).val :=
  D3.rhsIdx_val_of_single rfl i q
theorem d3_r1 (i : S10000x10.Idx) (q : D3.contr.Idx) : (D3.rhsIdx i q 1).val = (i 1).val := by
  unfold DotDims.rhsIdx
  rw [dif_neg (show ¬(1 : Fin S3x10.rank) ∈ D3.rhsBatch by decide), dif_pos (show (1 : Fin S3x10.rank) ∈ D3.rhsNonContracting by decide)]
  rfl

theorem d10_l0 (i : S10000x10.Idx) (q : D10.contr.Idx) : (D10.lhsIdx i q 0).val = (i 0).val := by
  unfold DotDims.lhsIdx
  rw [dif_neg (show ¬(0 : Fin S10000x10.rank) ∈ D10.lhsBatch by decide), dif_pos (show (0 : Fin S10000x10.rank) ∈ D10.lhsNonContracting by decide)]
  rfl
theorem d10_l1 (i : S10000x10.Idx) (q : D10.contr.Idx) : (D10.lhsIdx i q 1).val = (q ⟨0, by decide⟩).val :=
  D10.lhsIdx_val_of_single rfl i q
theorem d10_r0 (i : S10000x10.Idx) (q : D10.contr.Idx) : (D10.rhsIdx i q 0).val = (q ⟨0, by decide⟩).val :=
  D10.rhsIdx_val_of_single rfl i q
theorem d10_r1 (i : S10000x10.Idx) (q : D10.contr.Idx) : (D10.rhsIdx i q 1).val = (i 1).val := by
  unfold DotDims.rhsIdx
  rw [dif_neg (show ¬(1 : Fin S10x10.rank) ∈ D10.rhsBatch by decide), dif_pos (show (1 : Fin S10x10.rank) ∈ D10.rhsNonContracting by decide)]
  rfl

theorem d100_l0 (i : S10000x100.Idx) (q : D100.contr.Idx) : (D100.lhsIdx i q 0).val = (i 0).val := by
  unfold DotDims.lhsIdx
  rw [dif_neg (show ¬(0 : Fin S10000x10.rank) ∈ D100.lhsBatch by decide), dif_pos (show (0 : Fin S10000x10.rank) ∈ D100.lhsNonContracting by decide)]
  rfl
theorem d100_l1 (i : S10000x100.Idx) (q : D100.contr.Idx) : (D100.lhsIdx i q 1).val = (q ⟨0, by decide⟩).val :=
  D100.lhsIdx_val_of_single rfl i q
theorem d100_r0 (i : S10000x100.Idx) (q : D100.contr.Idx) : (D100.rhsIdx i q 0).val = (q ⟨0, by decide⟩).val :=
  D100.rhsIdx_val_of_single rfl i q
theorem d100_r1 (i : S10000x100.Idx) (q : D100.contr.Idx) : (D100.rhsIdx i q 1).val = (i 1).val := by
  unfold DotDims.rhsIdx
  rw [dif_neg (show ¬(1 : Fin S10x100.rank) ∈ D100.rhsBatch by decide), dif_pos (show (1 : Fin S10x100.rank) ∈ D100.rhsNonContracting by decide)]
  rfl

theorem do_l0 (i : S10000x3.Idx) (q : DO.contr.Idx) : (DO.lhsIdx i q 0).val = (i 0).val := by
  unfold DotDims.lhsIdx
  rw [dif_neg (show ¬(0 : Fin S10000x100.rank) ∈ DO.lhsBatch by decide), dif_pos (show (0 : Fin S10000x100.rank) ∈ DO.lhsNonContracting by decide)]
  rfl
theorem do_l1 (i : S10000x3.Idx) (q : DO.contr.Idx) : (DO.lhsIdx i q 1).val = (q ⟨0, by decide⟩).val :=
  DO.lhsIdx_val_of_single rfl i q
theorem do_r0 (i : S10000x3.Idx) (q : DO.contr.Idx) : (DO.rhsIdx i q 0).val = (q ⟨0, by decide⟩).val :=
  DO.rhsIdx_val_of_single rfl i q
theorem do_r1 (i : S10000x3.Idx) (q : DO.contr.Idx) : (DO.rhsIdx i q 1).val = (i 1).val := by
  unfold DotDims.rhsIdx
  rw [dif_neg (show ¬(1 : Fin S100x3.rank) ∈ DO.rhsBatch by decide), dif_pos (show (1 : Fin S100x3.rank) ∈ DO.rhsNonContracting by decide)]
  rfl

/-! ## One layer at an entry -/

/-- A three-to-ten layer before its clamp: the product of a row block's three columns with the weights, plus the bias
    row broadcast down the rows, at entry \`(r, k)\`. -/
theorem layer3_apply (x : FVec Ideal S10000x3 .f32) (w : Vec Ideal S3x10 .f32) (b : Vec Ideal S1x10 .f32)
    (r : Fin 10000) (k : Fin 10) :
    addf (matmul D3 none (truncf .bf16 x bitsLt_bf16_f32) (truncf .bf16 w bitsLt_bf16_f32) (constant S10000x10 .f32 0x00000000#32))
        (broadcastTo S10000x10 (shapeCast S1x10 b shapeCasts_S1x10_S1x10) broadcasts_S1x10_S10000x10) (ix2 r k)
      = (∑ i : Fin 3, x (ix2 r i) * w (ix2 i k)) + b (ix2 (0 : Fin 1) k) := by
  rw [addf_apply, shapeCast_self, RowBroadcast.broadcastTo_row_apply]
  refine congrArg (· + b (ix2 (0 : Fin 1) k)) ?_
  exact PlainDot.matmul_zero_apply D3 none rfl rfl d3_l0 d3_l1 d3_r0 d3_r1 _ _ r k

/-- A ten-to-ten layer on a clamped input: the clamp at zero of \`h\`, its product with the weights, plus the bias row
    broadcast down the rows, at entry \`(r, j)\`. -/
theorem layer10_apply {φ : FTy} (h : FVec Ideal S10000x10 .f32) (w : FVec Ideal S10x10 φ) (b : Vec Ideal S1x10 .f32)
    (r : Fin 10000) (j : Fin 10) :
    addf (matmul D10 none (truncf .bf16 (maximumf h (broadcast S10000x10 (Scalar.ofBits .f32 0x00000000#32))) bitsLt_bf16_f32) w
          (constant S10000x10 .f32 0x00000000#32))
        (broadcastTo S10000x10 (shapeCast S1x10 b shapeCasts_S1x10_S1x10) broadcasts_S1x10_S10000x10) (ix2 r j)
      = (∑ k : Fin 10, max (h (ix2 r k)) 0 * w (ix2 k j)) + b (ix2 (0 : Fin 1) j) := by
  rw [addf_apply, shapeCast_self, RowBroadcast.broadcastTo_row_apply]
  refine congrArg (· + b (ix2 (0 : Fin 1) j)) ?_
  refine (PlainDot.matmul_zero_apply D10 none rfl rfl d10_l0 d10_l1 d10_r0 d10_r1 _ _ r j).trans ?_
  refine Finset.sum_congr rfl fun k _ => ?_
  show max (h (ix2 r k)) (Ideal.ofBits .f32 0x00000000#32) * w (ix2 k j) = _
  rw [Ideal.ofBits_zero_f32]

/-- The first three columns of a row block, at entry \`(r, i)\`. -/
theorem lo_apply (v0 : Vec Ideal S10000x6 .f32) (r : Fin 10000) (i : Fin 3) :
    extractStridedSlice S10000x3 ![0, 0] v0 slices_S10000x6_o0_0_S10000x3 (ix2 r i) = v0 (ix2 r (Mlp.lo3 i)) :=
  slice2_axis1_apply 0 v0 slices_S10000x6_o0_0_S10000x3 r i (Mlp.lo3 i) (Nat.zero_add _).symm

/-- The last three columns of a row block, at entry \`(r, i)\`. -/
theorem hi_apply (v0 : Vec Ideal S10000x6 .f32) (r : Fin 10000) (i : Fin 3) :
    extractStridedSlice S10000x3 ![0, 3] v0 slices_S10000x6_o0_3_S10000x3 (ix2 r i) = v0 (ix2 r (Mlp.hi3 i)) :=
  slice2_axis1_apply 3 v0 slices_S10000x6_o0_3_S10000x3 r i (Mlp.hi3 i) rfl

/-! ## The branches -/

/-- The first branch's features of a row block: both layers, of row \`r\`'s first three columns. -/
theorem pay5_apply (v0 : Vec Ideal S10000x6 .f32) (v5 : Vec Ideal S3x10 .f32) (v7 : Vec Ideal S10x10 .f32)
    (v18 v26 : Vec Ideal S1x10 .f32) (r : Fin 10000) (j : Fin 10) :
    k1_pay5 v0 v5 v7 v18 v26 (ix2 r j)
      = Mlp.feat (fun i => v0 (ix2 r (Mlp.lo3 i))) (Mlp.m2 v5) (Mlp.r1 v18) (Mlp.m2 v7) (Mlp.r1 v26) j := by
  unfold k1_pay5
  refine (layer10_apply _ _ v26 r j).trans ?_
  unfold Mlp.feat Mlp.hid Mlp.m2 Mlp.r1
  refine congrArg (· + v26 (ix2 (0 : Fin 1) j)) (Finset.sum_congr rfl fun k _ => ?_)
  refine congrArg (fun y => max y 0 * v7 (ix2 k j)) ?_
  refine (layer3_apply _ v5 v18 r k).trans ?_
  refine congrArg (· + v18 (ix2 (0 : Fin 1) k)) (Finset.sum_congr rfl fun i _ => ?_)
  rw [lo_apply]

/-- The second branch's first layer of a row block before its clamp, of row \`r\`'s last three columns. -/
theorem pay6_apply (v0 : Vec Ideal S10000x6 .f32) (v9 : Vec Ideal S3x10 .f32) (v31 : Vec Ideal S1x10 .f32)
    (r : Fin 10000) (k : Fin 10) :
    k1_pay6 v0 v9 v31 (ix2 r k)
      = (∑ i : Fin 3, v0 (ix2 r (Mlp.hi3 i)) * v9 (ix2 i k)) + v31 (ix2 (0 : Fin 1) k) := by
  unfold k1_pay6
  refine (layer3_apply _ v9 v31 r k).trans ?_
  refine congrArg (· + v31 (ix2 (0 : Fin 1) k)) (Finset.sum_congr rfl fun i _ => ?_)
  rw [hi_apply]

end Cert.Layers

end
-- ==== Proof.SumRows.lean ====
/-
  The sum-of-squares region, point by point: the feature blocks of a point are rows of the feature arrays.

  Grid point \`t\` of the two hundred stages rows \`10000 t … 10000 t + 9999\` of the input and the eight small arrays
  whole.  Entry \`(r, j)\` of a point's feature block depends on row \`r\` of its input block alone, so it is entry
  \`(10000 t + r, j)\` of the feature array of the whole input; and the point's addend to an accumulator, the sum of
  the squares of its block's entries, is the sum over those rows of the array.
-/
import proofs.«174386_j12687333392689_2_alg».proof.Proof.SumDefs
import proofs.«174386_j12687333392689_2_alg».proof.Proof.Layers

noncomputable section

namespace Cert.SumRows

open Cert.KernelIdeal Cert.KernelIdeal.Gen Cert.Layers Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! ## The arrays the region finds, and the two feature arrays -/

/-- The array window 0 stages, as the region finds it. -/
abbrev bX (c : Dev nD) : S2000000x6.Idx → EReal := V c (Pipeline.arrRef spec0 0)
/-- The array window 1 stages, as the region finds it. -/
abbrev bSW1 (c : Dev nD) : S3x10.Idx → EReal := V c (Pipeline.arrRef spec0 1)
/-- The array window 2 stages, as the region finds it. -/
abbrev bSB1 (c : Dev nD) : S1x10.Idx → EReal := V c (Pipeline.arrRef spec0 2)
/-- The array window 3 stages, as the region finds it. -/
abbrev bSW2 (c : Dev nD) : S10x10.Idx → EReal := V c (Pipeline.arrRef spec0 3)
/-- The array window 4 stages, as the region finds it. -/
abbrev bSB2 (c : Dev nD) : S1x10.Idx → EReal := V c (Pipeline.arrRef spec0 4)
/-- The array window 5 stages, as the region finds it. -/
abbrev bPW1 (c : Dev nD) : S3x10.Idx → EReal := V c (Pipeline.arrRef spec0 5)
/-- The array window 6 stages, as the region finds it. -/
abbrev bPB1 (c : Dev nD) : S1x10.Idx → EReal := V c (Pipeline.arrRef spec0 6)
/-- The array window 7 stages, as the region finds it. -/
abbrev bPW2 (c : Dev nD) : S10x10.Idx → EReal := V c (Pipeline.arrRef spec0 7)
/-- The array window 8 stages, as the region finds it. -/
abbrev bPB2 (c : Dev nD) : S1x10.Idx → EReal := V c (Pipeline.arrRef spec0 8)

/-- The first branch's features of every row of the input. -/
abbrev sFeat (c : Dev nD) : Fin 2000000 → Fin 10 → EReal :=
  Mlp.sArr (Mlp.m2 (bX V c)) (Mlp.m2 (bSW1 V c)) (Mlp.r1 (bSB1 V c)) (Mlp.m2 (bSW2 V c)) (Mlp.r1 (bSB2 V c))
/-- The second branch's features of every row of the input. -/
abbrev pFeat (c : Dev nD) : Fin 2000000 → Fin 10 → EReal :=
  Mlp.pArr (Mlp.m2 (bX V c)) (Mlp.m2 (bPW1 V c)) (Mlp.r1 (bPB1 V c)) (Mlp.m2 (bPW2 V c)) (Mlp.r1 (bPB2 V c))

/-! ## The index maps, decided once over the two hundred points -/

/-- The input's block at point \`t\` is block row \`t\`, block column 0. -/
theorem idx_in : ∀ t : Fin cfg0.N, win0_0.index t (0 : Fin 2) = t.val ∧ win0_0.index t (1 : Fin 2) = 0 :=
  (by decide +kernel : ∀ t : Fin grid0.N, _)
/-- Every small array's block is block (0, 0): the whole of it. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)

/-! ## The blocks the body reads -/

/-- Row \`r\` of the input block at point \`t\` is row \`10000 t + r\` of the input array. -/
theorem blk0 (c : Dev nD) (t : Fin cfg0.N) (r : Fin 10000) (k : Fin 6) (n : Fin 2000000) (hn : n.val = t.val * 10000 + r.val) :
    iblk0 V c 0 t (ix2 r k) = bX V c (ix2 n k) := by
  obtain ⟨e0, e1⟩ := idx_in t
  show bX V c (((cfg0.win 0).blk t).view.emb (ix2 r k)) = bX V c (ix2 n k)
  have e : ((cfg0.win 0).blk t).view.emb (ix2 r k) = ix2 n k := funext fun a => Fin.ext (by
    match a with
    | ⟨0, _⟩ => show win0_0.index t (0 : Fin 2) * 10000 + 1 * r.val = n.val; rw [e0, hn]; omega
    | ⟨1, _⟩ => show win0_0.index t (1 : Fin 2) * 6 + 1 * k.val = k.val; rw [e1]; omega)
  rw [e]

theorem blk1 (c : Dev nD) (t : Fin cfg0.N) : iblk0 V c 1 t = bSW1 V c := by
  obtain ⟨e0, e1⟩ := idx_w1 t
  funext y
  show bSW1 V c (((cfg0.win 1).blk t).view.emb y) = bSW1 V c y
  have e : ((cfg0.win 1).blk t).view.emb y = y := funext fun a => Fin.ext (by
    match a with
    | ⟨0, _⟩ => show win0_1.index t (0 : Fin 2) * 3 + 1 * (y 0).val = (y 0).val; rw [e0]; omega
    | ⟨1, _⟩ => show win0_1.index t (1 : Fin 2) * 10 + 1 * (y 1).val = (y 1).val; rw [e1]; omega)
  rw [e]

theorem blk2 (c : Dev nD) (t : Fin cfg0.N) : iblk0 V c 2 t = bSB1 V c := by
  obtain ⟨e0, e1⟩ := idx_w2 t
  funext y
  show bSB1 V c (((cfg0.win 2).blk t).view.emb y) = bSB1 V c y
  have e : ((cfg0.win 2).blk t).view.emb y = y := funext fun a => Fin.ext (by
    match a with
    | ⟨0, _⟩ => show win0_2.index t (0 : Fin 2) * 1 + 1 * (y 0).val = (y 0).val; rw [e0]; omega
    | ⟨1, _⟩ => show win0_2.index t (1 : Fin 2) * 10 + 1 * (y 1).val = (y 1).val; rw [e1]; omega)
  rw [e]

theorem blk3 (c : Dev nD) (t : Fin cfg0.N) : iblk0 V c 3 t = bSW2 V c := by
  obtain ⟨e0, e1⟩ := idx_w3 t
  funext y
  show bSW2 V c (((cfg0.win 3).blk t).view.emb y) = bSW2 V c y
  have e : ((cfg0.win 3).blk t).view.emb y = y := funext fun a => Fin.ext (by
    match a with
    | ⟨0, _⟩ => show win0_3.index t (0 : Fin 2) * 10 + 1 * (y 0).val = (y 0).val; rw [e0]; omega
    | ⟨1, _⟩ => show win0_3.index t (1 : Fin 2) * 10 + 1 * (y 1).val = (y 1).val; rw [e1]; omega)
  rw [e]

theorem blk4 (c : Dev nD) (t : Fin cfg0.N) : iblk0 V c 4 t = bSB2 V c := by
  obtain ⟨e0, e1⟩ := idx_w4 t
  funext y
  show bSB2 V c (((cfg0.win 4).blk t).view.emb y) = bSB2 V c y
  have e : ((cfg0.win 4).blk t).view.emb y = y := funext fun a => Fin.ext (by
    match a with
    | ⟨0, _⟩ => show win0_4.index t (0 : Fin 2) * 1 + 1 * (y 0).val = (y 0).val; rw [e0]; omega
    | ⟨1, _⟩ => show win0_4.index t (1 : Fin 2) * 10 + 1 * (y 1).val = (y 1).val; rw [e1]; omega)
  rw [e]

theorem blk5 (c : Dev nD) (t : Fin cfg0.N) : iblk0 V c 5 t = bPW1 V c := by
  obtain ⟨e0, e1⟩ := idx_w5 t
  funext y
  show bPW1 V c (((cfg0.win 5).blk t).view.emb y) = bPW1 V c y
  have e : ((cfg0.win 5).blk t).view.emb y = y := funext fun a => Fin.ext (by
    match a with
    | ⟨0, _⟩ => show win0_5.index t (0 : Fin 2) * 3 + 1 * (y 0).val = (y 0).val; rw [e0]; omega
    | ⟨1, _⟩ => show win0_5.index t (1 : Fin 2) * 10 + 1 * (y 1).val = (y 1).val; rw [e1]; omega)
  rw [e]

theorem blk6 (c : Dev nD) (t : Fin cfg0.N) : iblk0 V c 6 t = bPB1 V c := by
  obtain ⟨e0, e1⟩ := idx_w6 t
  funext y
  show bPB1 V c (((cfg0.win 6).blk t).view.emb y) = bPB1 V c y
  have e : ((cfg0.win 6).blk t).view.emb y = y := funext fun a => Fin.ext (by
    match a with
    | ⟨0, _⟩ => show win0_6.index t (0 : Fin 2) * 1 + 1 * (y 0).val = (y 0).val; rw [e0]; omega
    | ⟨1, _⟩ => show win0_6.index t (1 : Fin 2) * 10 + 1 * (y 1).val = (y 1).val; rw [e1]; omega)
  rw [e]

theorem blk7 (c : Dev nD) (t : Fin cfg0.N) : iblk0 V c 7 t = bPW2 V c := by
  obtain ⟨e0, e1⟩ := idx_w7 t
  funext y
  show bPW2 V c (((cfg0.win 7).blk t).view.emb y) = bPW2 V c y
  have e : ((cfg0.win 7).blk t).view.emb y = y := funext fun a => Fin.ext (by
    match a with
    | ⟨0, _⟩ => show win0_7.index t (0 : Fin 2) * 10 + 1 * (y 0).val = (y 0).val; rw [e0]; omega
    | ⟨1, _⟩ => show win0_7.index t (1 : Fin 2) * 10 + 1 * (y 1).val = (y 1).val; rw [e1]; omega)
  rw [e]

theorem blk8 (c : Dev nD) (t : Fin cfg0.N) : iblk0 V c 8 t = bPB2 V c := by
  obtain ⟨e0, e1⟩ := idx_w8 t
  funext y
  show bPB2 V c (((cfg0.win 8).blk t).view.emb y) = bPB2 V c y
  have e : ((cfg0.win 8).blk t).view.emb y = y := funext fun a => Fin.ext (by
    match a with
    | ⟨0, _⟩ => show win0_8.index t (0 : Fin 2) * 1 + 1 * (y 0).val = (y 0).val; rw [e0]; omega
    | ⟨1, _⟩ => show win0_8.index t (1 : Fin 2) * 10 + 1 * (y 1).val = (y 1).val; rw [e1]; omega)
  rw [e]

/-! ## A point's feature blocks are rows of the feature arrays -/

/-- Entry \`(r, j)\` of point \`t\`'s first feature block is the first feature array at row \`10000 t + r\`. -/
theorem sBlk_apply (c : Dev nD) (t : Fin cfg0.N) (r : Fin 10000) (j : Fin 10) (n : Fin 2000000)
    (hn : n.val = t.val * 10000 + r.val) :
    SumDefs.sBlk V c t (ix2 r j)
      = Mlp.sArr (Mlp.m2 (bX V c)) (Mlp.m2 (bSW1 V c)) (Mlp.r1 (bSB1 V c)) (Mlp.m2 (bSW2 V c)) (Mlp.r1 (bSB2 V c)) n j := by
  unfold SumDefs.sBlk
  refine (pay5_apply (iblk0 V c 0 t) (iblk0 V c 1 t) (iblk0 V c 3 t) (iblk0 V c 2 t) (iblk0 V c 4 t) r j).trans ?_
  rw [blk1 V c t, blk2 V c t, blk3 V c t, blk4 V c t,
    show (fun i => iblk0 V c 0 t (ix2 r (Mlp.lo3 i))) = (fun i => bX V c (ix2 n (Mlp.lo3 i))) from
      funext fun i => blk0 V c t r (Mlp.lo3 i) n hn]
  rfl

/-- Entry \`(r, j)\` of point \`t\`'s second feature block is the second feature array at row \`10000 t + r\`. -/
theorem pBlk_apply (c : Dev nD) (t : Fin cfg0.N) (r : Fin 10000) (j : Fin 10) (n : Fin 2000000)
    (hn : n.val = t.val * 10000 + r.val) :
    SumDefs.pBlk V c t (ix2 r j)
      = Mlp.pArr (Mlp.m2 (bX V c)) (Mlp.m2 (bPW1 V c)) (Mlp.r1 (bPB1 V c)) (Mlp.m2 (bPW2 V c)) (Mlp.r1 (bPB2 V c)) n j := by
  unfold SumDefs.pBlk SumBlock.secondLayer
  refine (layer10_apply (k0_pay7 (iblk0 V c 0 t) (iblk0 V c 5 t) (iblk0 V c 6 t)) (k0_pay5 (iblk0 V c 7 t))
    (iblk0 V c 8 t) r j).trans ?_
  have h6 : ∀ k : Fin 10, k0_pay7 (iblk0 V c 0 t) (iblk0 V c 5 t) (iblk0 V c 6 t) (ix2 r k)
      = (∑ i : Fin 3, bX V c (ix2 n (Mlp.hi3 i)) * bPW1 V c (ix2 i k)) + bPB1 V c (ix2 (0 : Fin 1) k) := fun k => by
    refine (pay6_apply (iblk0 V c 0 t) (iblk0 V c 5 t) (iblk0 V c 6 t) r k).trans ?_
    rw [blk5 V c t, blk6 V c t]
    refine congrArg (· + bPB1 V c (ix2 (0 : Fin 1) k)) (Finset.sum_congr rfl fun i _ => ?_)
    rw [blk0 V c t r (Mlp.hi3 i) n hn]
  simp only [h6]
  rw [blk7 V c t, blk8 V c t]
  rfl

/-! ## A point's addends are sums over its rows of the feature arrays -/

/-- Point \`n\`'s addend to the first accumulator: the squares of the first feature array over rows
    \`10000 n … 10000 n + 9999\`. -/
theorem sAdd_eq (c : Dev nD) (n : ℕ) (h : n < 200) :
    SumDefs.sAdd V c n = ∑ r : Fin 10000, ∑ j : Fin 10,
      sFeat V c ⟨n * 10000 + r.val, by omega⟩ j * sFeat V c ⟨n * 10000 + r.val, by omega⟩ j := by
  have hN : cfg0.N = 200 := N_0
  have h' : n < cfg0.N := by rw [hN]; exact h
  unfold SumDefs.sAdd
  rw [dif_pos h']
  unfold SumBlock.ssq
  refine Finset.sum_congr rfl fun r _ => Finset.sum_congr rfl fun j _ => ?_
  rw [sBlk_apply V c ⟨n, h'⟩ r j ⟨n * 10000 + r.val, by omega⟩ rfl]

/-- Point \`n\`'s addend to the second accumulator: the squares of the second feature array over the same rows. -/
theorem pAdd_eq (c : Dev nD) (n : ℕ) (h : n < 200) :
    SumDefs.pAdd V c n = ∑ r : Fin 10000, ∑ j : Fin 10,
      pFeat V c ⟨n * 10000 + r.val, by omega⟩ j * pFeat V c ⟨n * 10000 + r.val, by omega⟩ j := by
  have hN : cfg0.N = 200 := N_0
  have h' : n < cfg0.N := by rw [hN]; exact h
  unfold SumDefs.pAdd
  rw [dif_pos h']
  unfold SumBlock.ssq
  refine Finset.sum_congr rfl fun r _ => Finset.sum_congr rfl fun j _ => ?_
  rw [pBlk_apply V c ⟨n, h'⟩ r j ⟨n * 10000 + r.val, by omega⟩ rfl]

end Cert.SumRows

end
-- ==== Proof.SumTotal.lean ====
/-
  The two accumulated totals of the sum-of-squares region are the sums of squares of the whole feature arrays.

  The two hundred points' addends are the sums of squares over consecutive blocks of ten thousand rows, so all of
  them together make the sum over the two million rows.  The region keeps one running total for the first hundred
  points and another for the last hundred, each started at zero, and the two are added afterwards: the same sum cut
  in two.  Only the commutativity and associativity of addition are used.
-/
import proofs.«174386_j12687333392689_2_alg».proof.Proof.SumRows

noncomputable section

namespace Cert.SumTotal

open Cert.KernelIdeal Cert.KernelIdeal.Gen Cert.SumRows Idealize.ShloMosaic Idealize.ShloMosaic.TcCoe
open Idealize.SL.Sem
open scoped BigOperators

variable (V : (c : Dev nD) → (b : Ref sig .tc) → Buf (Elt Ideal) ((c : Thread nD τ).loc b))

/-- All the points' addends to the first accumulator make the sum of squares of the first feature array. -/
theorem total_s (c : Dev nD) : ∑ t : Fin 200, SumDefs.sAdd V c t.val = Mlp.sumsq (sFeat V c) := by
  refine Eq.trans ?_ (Mlp.sum_rows_blocks 200 10000 2000000 rfl
    (fun n => ∑ j : Fin 10, sFeat V c n j * sFeat V c n j)).symm
  refine Finset.sum_congr rfl fun t _ => ?_
  exact sAdd_eq V c t.val t.isLt

/-- All the points' addends to the second accumulator make the sum of squares of the second feature array. -/
theorem total_p (c : Dev nD) : ∑ t : Fin 200, SumDefs.pAdd V c t.val = Mlp.sumsq (pFeat V c) := by
  refine Eq.trans ?_ (Mlp.sum_rows_blocks 200 10000 2000000 rfl
    (fun n => ∑ j : Fin 10, pFeat V c n j * pFeat V c n j)).symm
  refine Finset.sum_congr rfl fun t _ => ?_
  exact pAdd_eq V c t.val t.isLt

/-- A total over two hundred points as the total of the first hundred, from zero, plus the total of the last hundred,
    from zero. -/
theorem halves (b : ℕ → EReal) :
    (0 + ∑ s ∈ Finset.range 100, b (100 * 0 + s)) + (0 + ∑ s ∈ Finset.range 100, b (100 * 1 + s))
      = ∑ t : Fin 200, b t.val := by
  rw [zero_add, zero_add]
  refine Eq.trans ?_ (Mlp.sum_halves 100 b).symm
  refine congrArg₂ (· + ·) (Finset.sum_congr rfl fun s _ => ?_) (Finset.sum_congr rfl fun s _ => ?_)
  · rw [Nat.mul_zero, Nat.zero_add]
  · rw [Nat.mul_one]

/-- The two halves' totals of the first accumulator add up to the sum of squares of the first feature array. -/
theorem halves_s (c : Dev nD) :
    (0 + ∑ s ∈ Finset.range 100, SumDefs.sAdd V c (100 * 0 + s))
        + (0 + ∑ s ∈ Finset.range 100, SumDefs.sAdd V c (100 * 1 + s))
      = Mlp.sumsq (sFeat V c) :=
  (halves (SumDefs.sAdd V c)).trans (total_s V c)

/-- The two halves' totals of the second accumulator add up to the sum of squares of the second feature array. -/
theorem halves_p (c : Dev nD) :
    (0 + ∑ s ∈ Finset.range 100, SumDefs.pAdd V c (100 * 0 + s))
        + (0 + ∑ s ∈ Finset.range 100, SumDefs.pAdd V c (100 * 1 + s))
      = Mlp.sumsq (pFeat V c) :=
  (halves (SumDefs.pAdd V c)).trans (total_p V c)

/-- The same with each half numbered by the lane its total is read from, 0 and 128, over the lanes per half. -/
theorem halves_s_lanes (c : Dev nD) :
    (0 + ∑ s ∈ Finset.range 100, SumDefs.sAdd V c (100 * (0 / 128) + s))
        + (0 + ∑ s ∈ Finset.range 100, SumDefs.sAdd V c (100 * (128 / 128) + s))
      = Mlp.sumsq (sFeat V c) :=
  halves_s V c

theorem halves_p_lanes (c : Dev nD) :
    (0 + ∑ s ∈ Finset.range 100, SumDefs.pAdd V c (100 * (0 / 128) + s))
        + (0 + ∑ s ∈ Finset.range 100, SumDefs.pAdd V c (100 * (128 / 128) + s))
      = Mlp.sumsq (pFeat V c) :=
  halves_p V c

end Cert.SumTotal

end
-- ==== Proof.OutPayload.lean ====
/-
  The output kernel's arithmetic at an entry of a row block.

  From a block of ten thousand rows the kernel forms the two feature blocks, multiplies them entry by entry, scales
  the product by the one number of the \`[1, 1]\` block broadcast over the whole block, and sends each row of ten
  through the last perceptron: ten to a hundred hidden units clamped at zero, a hundred to three.  Every step is
  either pointwise or a matrix product along a row, so entry \`(r, q)\` of the result depends on row \`r\` of the
  block alone, and is the specification's \`outp\` of that row's mixed vector.
-/
import proofs.«174386_j12687333392689_2_alg».proof.Proof.Layers

noncomputable section

namespace Cert.OutPayload

open Cert.KernelIdeal Cert.KernelIdeal.Gen Cert.Layers Idealize.ShloMosaic Idealize.ShloMosaic.ValueIdx
open scoped BigOperators

/-- The ten-to-a-hundred layer before its clamp: a block's product with the weights plus the bias row broadcast down
    the rows, at entry \`(r, h)\`. -/
theorem layer100_apply {φ : FTy} (f : FVec Ideal S10000x10 .f32) (w : FVec Ideal S10x100 φ) (b : Vec Ideal S1x100 .f32)
    (r : Fin 10000) (h : Fin 100) :
    addf (matmul D100 none (truncf .bf16 f bitsLt_bf16_f32) w (constant S10000x100 .f32 0x00000000#32))
        (broadcastTo S10000x100 (shapeCast S1x100 b shapeCasts_S1x100_S1x100) broadcasts_S1x100_S10000x100) (ix2 r h)
      = (∑ j : Fin 10, f (ix2 r j) * w (ix2 j h)) + b (ix2 (0 : Fin 1) h) := by
  rw [addf_apply, shapeCast_self, RowBroadcast.broadcastTo_row_apply]
  refine congrArg (· + b (ix2 (0 : Fin 1) h)) ?_
  exact PlainDot.matmul_zero_apply D100 none rfl rfl d100_l0 d100_l1 d100_r0 d100_r1 _ _ r h

/-- The hundred-to-three layer on a clamped input, at entry \`(r, q)\`. -/
theorem layerO_apply {φ : FTy} (g : FVec Ideal S10000x100 .f32) (w : FVec Ideal S100x3 φ) (b : Vec Ideal S1x3 .f32)
    (r : Fin 10000) (q : Fin 3) :
    addf (matmul DO none (truncf .bf16 (maximumf g (broadcast S10000x100 (Scalar.ofBits .f32 0x00000000#32))) bitsLt_bf16_f32) w
          (constant S10000x3 .f32 0x00000000#32))
        (broadcastTo S10000x3 (shapeCast S1x3 b shapeCasts_S1x3_S1x3) broadcasts_S1x3_S10000x3) (ix2 r q)
      = (∑ h : Fin 100, max (g (ix2 r h)) 0 * w (ix2 h q)) + b (ix2 (0 : Fin 1) q) := by
  rw [addf_apply, shapeCast_self, RowBroadcast.broadcastTo_row_apply]
  refine congrArg (· + b (ix2 (0 : Fin 1) q)) ?_
  refine (PlainDot.matmul_zero_apply DO none rfl rfl do_l0 do_l1 do_r0 do_r1 _ _ r q).trans ?_
  refine Finset.sum_congr rfl fun h _ => ?_
  show max (g (ix2 r h)) (Ideal.ofBits .f32 0x00000000#32) * w (ix2 h q) = _
  rw [Ideal.ofBits_zero_f32]

/-- The one number of a \`[1, 1]\` block broadcast over a whole block: every entry is that number. -/
theorem one_apply (v : Vec Ideal S1x1 .f32) (r : Fin 10000) (j : Fin 10) :
    broadcastTo S10000x10 (shapeCast S1x1 v shapeCasts_S1x1_S1x1) broadcasts_S1x1_S10000x10 (ix2 r j)
      = v (ix2 (0 : Fin 1) (0 : Fin 1)) := by
  rw [shapeCast_self]
  refine broadcastTo_apply v broadcasts_S1x1_S10000x10 (ix2 r j) (ix2 (0 : Fin 1) (0 : Fin 1)) fun ax => ?_
  match ax with
  | ⟨0, _⟩ => rfl
  | ⟨1, _⟩ => rfl

/-- The stored block at entry \`(r, q)\`: the last perceptron on row \`r\`'s mixed vector — the first feature times the
    second (its second layer applied to the clamped first layer \`v34\`), times the scale. -/
theorem pay1_apply (v12 : FVec Ideal S10x10 .bf16) (v14 : FVec Ideal S10x100 .bf16) (v16 : FVec Ideal S100x3 .bf16)
    (v29 v34 : FVec Ideal S10000x10 .f32) (v39 : Vec Ideal S1x10 .f32) (v43 : Vec Ideal S1x1 .f32)
    (v50 : Vec Ideal S1x100 .f32) (v58 : Vec Ideal S1x3 .f32) (r : Fin 10000) (q : Fin 3) :
    k1_pay1 v12 v14 v16 v29 v34 v39 v43 v50 v58 (ix2 r q)
      = Mlp.outp (fun j => (v29 (ix2 r j) * ((∑ k : Fin 10, max (v34 (ix2 r k)) 0 * v12 (ix2 k j)) + v39 (ix2 (0 : Fin 1) j)))
            * v43 (ix2 (0 : Fin 1) (0 : Fin 1))) (Mlp.m2 v14) (Mlp.r1 v50) (Mlp.m2 v16) (Mlp.r1 v58) q := by
  unfold k1_pay1
  refine (layerO_apply _ v16 v58 r q).trans ?_
  unfold Mlp.outp Mlp.m2 Mlp.r1
  refine congrArg (· + v58 (ix2 (0 : Fin 1) q)) (Finset.sum_congr rfl fun h _ => ?_)
  refine congrArg (fun y => max y 0 * v16 (ix2 h q)) ?_
  refine (layer100_apply _ v14 v50 r h).trans ?_
  refine congrArg (· + v50 (ix2 (0 : Fin 1) h)) (Finset.sum_congr rfl fun j _ => ?_)
  refine congrArg (· * v14 (ix2 j h)) ?_
  rw [mulf_apply, mulf_apply, one_apply, layer10_apply]

/-- The same with the features written out: over the row block \`x0\`, the six weight matrices, the six bias rows and
    the scale, entry \`(r, q)\` of the stored block is the last perceptron on the product of row \`r\`'s two feature
    vectors scaled by the one number of \`x13\`. -/
theorem block_apply (x0 : Vec Ideal S10000x6 .f32) (x1 : Vec Ideal S3x10 .f32) (x2 : Vec Ideal S1x10 .f32)
    (x3 : Vec Ideal S10x10 .f32) (x4 : Vec Ideal S1x10 .f32) (x5 : Vec Ideal S3x10 .f32) (x6 : Vec Ideal S1x10 .f32)
    (x7 : Vec Ideal S10x10 .f32) (x8 : Vec Ideal S1x10 .f32) (x9 : Vec Ideal S10x100 .f32) (x10 : Vec Ideal S1x100 .f32)
    (x11 : Vec Ideal S100x3 .f32) (x12 : Vec Ideal S1x3 .f32) (x13 : Vec Ideal S1x1 .f32) (r : Fin 10000) (q : Fin 3) :
    k1_pay1 (k1_pay2 x7) (k1_pay3 x9) (k1_pay4 x11) (k1_pay5 x0 x1 x3 x2 x4) (k1_pay6 x0 x5 x6) x8 x13 x10 x12 (ix2 r q)
      = Mlp.outp (fun j => (Mlp.feat (fun i => x0 (ix2 r (Mlp.lo3 i))) (Mlp.m2 x1) (Mlp.r1 x2) (Mlp.m2 x3) (Mlp.r1 x4) j
              * Mlp.feat (fun i => x0 (ix2 r (Mlp.hi3 i))) (Mlp.m2 x5) (Mlp.r1 x6) (Mlp.m2 x7) (Mlp.r1 x8) j)
            * x13 (ix2 (0 : Fin 1) (0 : Fin 1))) (Mlp.m2 x9) (Mlp.r1 x10) (Mlp.m2 x11) (Mlp.r1 x12) q := by
  refine (pay1_apply _ _ _ _ _ x8 x13 x10 x12 r q).trans ?_
  simp only [pay5_apply, pay6_apply]
  rfl

end Cert.OutPayload

end
-- ==== Proof.OutRegion.lean ====
/-
  The output kernel's region: what the result array holds after all two hundred grid points.

  Grid point \`t\` stages rows \`10000 t … 10000 t + 9999\` of the input and every small array whole (the six weight
  matrices, the six bias rows, the one-entry scale), and writes back rows \`10000 t … 10000 t + 9999\` of the result.
  By the block's arithmetic (entry \`(r, q)\` of a stored block depends on row \`r\` of the input block alone) the
  block written at \`t\` is the restriction to those rows of ONE function of the arrays as the region finds them:
  the last perceptron on each row's product of feature vectors scaled by the scale's one entry.  Row \`n\` lies in
  the block of point \`n / 10000\`, so the blocks cover the array and it ends holding that function.
-/
import proofs.«174386_j12687333392689_2_alg».proof.Proof.Gen.KernelIdeal.Frame
import proofs.«174386_j12687333392689_2_alg».proof.Proof.OutPayload
import Idealize.ShloMosaic.Lib.Pipeline.Value

noncomputable section

namespace Cert.OutRegion

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The arrays the region finds, and the function the result array ends holding -/

/-- The array window 0 stages, as the region finds it. -/
abbrev aX (c : Dev nD) : S2000000x6.Idx → EReal := V c (Pipeline.arrRef spec1 0)
/-- The array window 1 stages, as the region finds it. -/
abbrev aSW1 (c : Dev nD) : S3x10.Idx → EReal := V c (Pipeline.arrRef spec1 1)
/-- The array window 2 stages, as the region finds it. -/
abbrev aSB1 (c : Dev nD) : S1x10.Idx → EReal := V c (Pipeline.arrRef spec1 2)
/-- The array window 3 stages, as the region finds it. -/
abbrev aSW2 (c : Dev nD) : S10x10.Idx → EReal := V c (Pipeline.arrRef spec1 3)
/-- The array window 4 stages, as the region finds it. -/
abbrev aSB2 (c : Dev nD) : S1x10.Idx → EReal := V c (Pipeline.arrRef spec1 4)
/-- The array window 5 stages, as the region finds it. -/
abbrev aPW1 (c : Dev nD) : S3x10.Idx → EReal := V c (Pipeline.arrRef spec1 5)
/-- The array window 6 stages, as the region finds it. -/
abbrev aPB1 (c : Dev nD) : S1x10.Idx → EReal := V c (Pipeline.arrRef spec1 6)
/-- The array window 7 stages, as the region finds it. -/
abbrev aPW2 (c : Dev nD) : S10x10.Idx → EReal := V c (Pipeline.arrRef spec1 7)
/-- The array window 8 stages, as the region finds it. -/
abbrev aPB2 (c : Dev nD) : S1x10.Idx → EReal := V c (Pipeline.arrRef spec1 8)
/-- The array window 9 stages, as the region finds it. -/
abbrev aOW1 (c : Dev nD) : S10x100.Idx → EReal := V c (Pipeline.arrRef spec1 9)
/-- The array window 10 stages, as the region finds it. -/
abbrev aOB1 (c : Dev nD) : S1x100.Idx → EReal := V c (Pipeline.arrRef spec1 10)
/-- The array window 11 stages, as the region finds it. -/
abbrev aOW2 (c : Dev nD) : S100x3.Idx → EReal := V c (Pipeline.arrRef spec1 11)
/-- The array window 12 stages, as the region finds it. -/
abbrev aOB2 (c : Dev nD) : S1x3.Idx → EReal := V c (Pipeline.arrRef spec1 12)
/-- The array window 13 stages, as the region finds it. -/
abbrev aINV (c : Dev nD) : S1x1.Idx → EReal := V c (Pipeline.arrRef spec1 13)

/-- The result array as one function of the arrays the region finds: at row \`n\`, column \`q\`, the last perceptron on
    the product of row \`n\`'s two feature vectors scaled by the scale array's one entry. -/
def G (c : Dev nD) : S2000000x3.Idx → EReal := fun i =>
  Mlp.scaleOut (Mlp.sArr (Mlp.m2 (aX V c)) (Mlp.m2 (aSW1 V c)) (Mlp.r1 (aSB1 V c)) (Mlp.m2 (aSW2 V c)) (Mlp.r1 (aSB2 V c)))
    (Mlp.pArr (Mlp.m2 (aX V c)) (Mlp.m2 (aPW1 V c)) (Mlp.r1 (aPB1 V c)) (Mlp.m2 (aPW2 V c)) (Mlp.r1 (aPB2 V c)))
    (aINV V c (ix2 (0 : Fin 1) (0 : Fin 1))) (Mlp.m2 (aOW1 V c)) (Mlp.r1 (aOB1 V c)) (Mlp.m2 (aOW2 V c)) (Mlp.r1 (aOB2 V c))
    (i 0) (i 1)

/-! ## The index maps, decided once over the two hundred points -/

/-- The result's block at point \`t\` is block row \`t\`, block column 0. -/
theorem idx_out : ∀ t : Fin cfg1.N, win1_14.index t (0 : Fin 2) = t.val ∧ win1_14.index t (1 : Fin 2) = 0 :=
  (by decide +kernel : ∀ t : Fin grid1.N, _)
/-- So is the input's. -/
theorem idx_in : ∀ t : Fin cfg1.N, win1_0.index t (0 : Fin 2) = t.val ∧ win1_0.index t (1 : Fin 2) = 0 :=
  (by decide +kernel : ∀ t : Fin grid1.N, _)
/-- Every other window's block is block (0, 0): the whole of its small array. -/
theorem idx_w1 : ∀ t : Fin cfg1.N, win1_1.index t (0 : Fin 2) = 0 ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w7 : ∀ t : Fin cfg1.N, win1_7.index t (0 : Fin 2) = 0 ∧ win1_7.index t (1 : Fin 2) = 0 :=
  (by decide +kernel : ∀ t : Fin grid1.N, _)
theorem idx_w8 : ∀ t : Fin cfg1.N, win1_8.index t (0 : Fin 2) = 0 ∧ win1_8.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)
theorem idx_w10 : ∀ t : Fin cfg1.N, win1_10.index t (0 : Fin 2) = 0 ∧ win1_10.index t (1 : Fin 2) = 0 :=
  (by decide +kernel : ∀ t : Fin grid1.N, _)
theorem idx_w11 : ∀ t : Fin cfg1.N, win1_11.index t (0 : Fin 2) = 0 ∧ win1_11.index t (1 : Fin 2) = 0 :=
  (by decide +kernel : ∀ t : Fin grid1.N, _)
theorem idx_w12 : ∀ t : Fin cfg1.N, win1_12.index t (0 : Fin 2) = 0 ∧ win1_12.index t (1 : Fin 2) = 0 :=
  (by decide +kernel : ∀ t : Fin grid1.N, _)
theorem idx_w13 : ∀ t : Fin cfg1.N, win1_13.index t (0 : Fin 2) = 0 ∧ win1_13.index t (1 : Fin 2) = 0 :=
  (by decide +kernel : ∀ t : Fin grid1.N, _)

/-! ## The blocks the body reads -/

/-- Row \`r\` of the input block at point \`t\` is row \`10000 t + r\` of the input array. -/
theorem blk0 (c : Dev nD) (t : Fin cfg1.N) (r : Fin 10000) (k : Fin 6) (n : Fin 2000000) (hn : n.val = t.val * 10000 + r.val) :
    iblk1 V c 0 t (ix2 r k) = aX V c (ix2 n k) := by
  obtain ⟨e0, e1⟩ := idx_in t
  show aX V c (((cfg1.win 0).blk t).view.emb (ix2 r k)) = aX V c (ix2 n k)
  have e : ((cfg1.win 0).blk t).view.emb (ix2 r k) = ix2 n k := funext fun a => Fin.ext (by
    match a with
    | ⟨0, _⟩ => show win1_0.index t (0 : Fin 2) * 10000 + 1 * r.val = n.val; rw [e0, hn]; omega
    | ⟨1, _⟩ => show win1_0.index t (1 : Fin 2) * 6 + 1 * k.val = k.val; rw [e1]; omega)
  rw [e]

theorem blk1 (c : Dev nD) (t : Fin cfg1.N) : iblk1 V c 1 t = aSW1 V c := by
  obtain ⟨e0, e1⟩ := idx_w1 t
  funext y
  show aSW1 V c (((cfg1.win 1).blk t).view.emb y) = aSW1 V c y
  have e : ((cfg1.win 1).blk t).view.emb y = y := funext fun a => Fin.ext (by
    match a with
    | ⟨0, _⟩ => show win1_1.index t (0 : Fin 2) * 3 + 1 * (y 0).val = (y 0).val; rw [e0]; omega
    | ⟨1, _⟩ => show win1_1.index t (1 : Fin 2) * 10 + 1 * (y 1).val = (y 1).val; rw [e1]; omega)
  rw [e]

theorem blk2 (c : Dev nD) (t : Fin cfg1.N) : iblk1 V c 2 t = aSB1 V c := by
  obtain ⟨e0, e1⟩ := idx_w2 t
  funext y
  show aSB1 V c (((cfg1.win 2).blk t).view.emb y) = aSB1 V c y
  have e : ((cfg1.win 2).blk t).view.emb y = y := funext fun a => Fin.ext (by
    match a with
    | ⟨0, _⟩ => show win1_2.index t (0 : Fin 2) * 1 + 1 * (y 0).val = (y 0).val; rw [e0]; omega
    | ⟨1, _⟩ => show win1_2.index t (1 : Fin 2) * 10 + 1 * (y 1).val = (y 1).val; rw [e1]; omega)
  rw [e]

theorem blk3 (c : Dev nD) (t : Fin cfg1.N) : iblk1 V c 3 t = aSW2 V c := by
  obtain ⟨e0, e1⟩ := idx_w3 t
  funext y
  show aSW2 V c (((cfg1.win 3).blk t).view.emb y) = aSW2 V c y
  have e : ((cfg1.win 3).blk t).view.emb y = y := funext fun a => Fin.ext (by
    match a with
    | ⟨0, _⟩ => show win1_3.index t (0 : Fin 2) * 10 + 1 * (y 0).val = (y 0).val; rw [e0]; omega
    | ⟨1, _⟩ => show win1_3.index t (1 : Fin 2) * 10 + 1 * (y 1).val = (y 1).val; rw [e1]; omega)
  rw [e]

theorem blk4 (c : Dev nD) (t : Fin cfg1.N) : iblk1 V c 4 t = aSB2 V c := by
  obtain ⟨e0, e1⟩ := idx_w4 t
  funext y
  show aSB2 V c (((cfg1.win 4).blk t).view.emb y) = aSB2 V c y
  have e : ((cfg1.win 4).blk t).view.emb y = y := funext fun a => Fin.ext (by
    match a with
    | ⟨0, _⟩ => show win1_4.index t (0 : Fin 2) * 1 + 1 * (y 0).val = (y 0).val; rw [e0]; omega
    | ⟨1, _⟩ => show win1_4.index t (1 : Fin 2) * 10 + 1 * (y 1).val = (y 1).val; rw [e1]; omega)
  rw [e]

theorem blk5 (c : Dev nD) (t : Fin cfg1.N) : iblk1 V c 5 t = aPW1 V c := by
  obtain ⟨e0, e1⟩ := idx_w5 t
  funext y
  show aPW1 V c (((cfg1.win 5).blk t).view.emb y) = aPW1 V c y
  have e : ((cfg1.win 5).blk t).view.emb y = y := funext fun a => Fin.ext (by
    match a with
    | ⟨0, _⟩ => show win1_5.index t (0 : Fin 2) * 3 + 1 * (y 0).val = (y 0).val; rw [e0]; omega
    | ⟨1, _⟩ => show win1_5.index t (1 : Fin 2) * 10 + 1 * (y 1).val = (y 1).val; rw [e1]; omega)
  rw [e]

theorem blk6 (c : Dev nD) (t : Fin cfg1.N) : iblk1 V c 6 t = aPB1 V c := by
  obtain ⟨e0, e1⟩ := idx_w6 t
  funext y
  show aPB1 V c (((cfg1.win 6).blk t).view.emb y) = aPB1 V c y
  have e : ((cfg1.win 6).blk t).view.emb y = y := funext fun a => Fin.ext (by
    match a with
    | ⟨0, _⟩ => show win1_6.index t (0 : Fin 2) * 1 + 1 * (y 0).val = (y 0).val; rw [e0]; omega
    | ⟨1, _⟩ => show win1_6.index t (1 : Fin 2) * 10 + 1 * (y 1).val = (y 1).val; rw [e1]; omega)
  rw [e]

theorem blk7 (c : Dev nD) (t : Fin cfg1.N) : iblk1 V c 7 t = aPW2 V c := by
  obtain ⟨e0, e1⟩ := idx_w7 t
  funext y
  show aPW2 V c (((cfg1.win 7).blk t).view.emb y) = aPW2 V c y
  have e : ((cfg1.win 7).blk t).view.emb y = y := funext fun a => Fin.ext (by
    match a with
    | ⟨0, _⟩ => show win1_7.index t (0 : Fin 2) * 10 + 1 * (y 0).val = (y 0).val; rw [e0]; omega
    | ⟨1, _⟩ => show win1_7.index t (1 : Fin 2) * 10 + 1 * (y 1).val = (y 1).val; rw [e1]; omega)
  rw [e]

theorem blk8 (c : Dev nD) (t : Fin cfg1.N) : iblk1 V c 8 t = aPB2 V c := by
  obtain ⟨e0, e1⟩ := idx_w8 t
  funext y
  show aPB2 V c (((cfg1.win 8).blk t).view.emb y) = aPB2 V c y
  have e : ((cfg1.win 8).blk t).view.emb y = y := funext fun a => Fin.ext (by
    match a with
    | ⟨0, _⟩ => show win1_8.index t (0 : Fin 2) * 1 + 1 * (y 0).val = (y 0).val; rw [e0]; omega
    | ⟨1, _⟩ => show win1_8.index t (1 : Fin 2) * 10 + 1 * (y 1).val = (y 1).val; rw [e1]; omega)
  rw [e]

theorem blk9 (c : Dev nD) (t : Fin cfg1.N) : iblk1 V c 9 t = aOW1 V c := by
  obtain ⟨e0, e1⟩ := idx_w9 t
  funext y
  show aOW1 V c (((cfg1.win 9).blk t).view.emb y) = aOW1 V c y
  have e : ((cfg1.win 9).blk t).view.emb y = y := funext fun a => Fin.ext (by
    match a with
    | ⟨0, _⟩ => show win1_9.index t (0 : Fin 2) * 10 + 1 * (y 0).val = (y 0).val; rw [e0]; omega
    | ⟨1, _⟩ => show win1_9.index t (1 : Fin 2) * 100 + 1 * (y 1).val = (y 1).val; rw [e1]; omega)
  rw [e]

theorem blk10 (c : Dev nD) (t : Fin cfg1.N) : iblk1 V c 10 t = aOB1 V c := by
  obtain ⟨e0, e1⟩ := idx_w10 t
  funext y
  show aOB1 V c (((cfg1.win 10).blk t).view.emb y) = aOB1 V c y
  have e : ((cfg1.win 10).blk t).view.emb y = y := funext fun a => Fin.ext (by
    match a with
    | ⟨0, _⟩ => show win1_10.index t (0 : Fin 2) * 1 + 1 * (y 0).val = (y 0).val; rw [e0]; omega
    | ⟨1, _⟩ => show win1_10.index t (1 : Fin 2) * 100 + 1 * (y 1).val = (y 1).val; rw [e1]; omega)
  rw [e]

theorem blk11 (c : Dev nD) (t : Fin cfg1.N) : iblk1 V c 11 t = aOW2 V c := by
  obtain ⟨e0, e1⟩ := idx_w11 t
  funext y
  show aOW2 V c (((cfg1.win 11).blk t).view.emb y) = aOW2 V c y
  have e : ((cfg1.win 11).blk t).view.emb y = y := funext fun a => Fin.ext (by
    match a with
    | ⟨0, _⟩ => show win1_11.index t (0 : Fin 2) * 100 + 1 * (y 0).val = (y 0).val; rw [e0]; omega
    | ⟨1, _⟩ => show win1_11.index t (1 : Fin 2) * 3 + 1 * (y 1).val = (y 1).val; rw [e1]; omega)
  rw [e]

theorem blk12 (c : Dev nD) (t : Fin cfg1.N) : iblk1 V c 12 t = aOB2 V c := by
  obtain ⟨e0, e1⟩ := idx_w12 t
  funext y
  show aOB2 V c (((cfg1.win 12).blk t).view.emb y) = aOB2 V c y
  have e : ((cfg1.win 12).blk t).view.emb y = y := funext fun a => Fin.ext (by
    match a with
    | ⟨0, _⟩ => show win1_12.index t (0 : Fin 2) * 1 + 1 * (y 0).val = (y 0).val; rw [e0]; omega
    | ⟨1, _⟩ => show win1_12.index t (1 : Fin 2) * 3 + 1 * (y 1).val = (y 1).val; rw [e1]; omega)
  rw [e]

theorem blk13 (c : Dev nD) (t : Fin cfg1.N) : iblk1 V c 13 t = aINV V c := by
  obtain ⟨e0, e1⟩ := idx_w13 t
  funext y
  show aINV V c (((cfg1.win 13).blk t).view.emb y) = aINV V c y
  have e : ((cfg1.win 13).blk t).view.emb y = y := funext fun a => Fin.ext (by
    match a with
    | ⟨0, _⟩ => show win1_13.index t (0 : Fin 2) * 1 + 1 * (y 0).val = (y 0).val; rw [e0]; omega
    | ⟨1, _⟩ => show win1_13.index t (1 : Fin 2) * 1 + 1 * (y 1).val = (y 1).val; rw [e1]; omega)
  rw [e]

/-! ## What a point writes back -/

theorem hz : (![0, 0] : Fin 2 → Nat) = fun _ => 0 := funext fun a => by fin_cases a <;> rfl

/-- What the body leaves in the result's buffer is its one store's payload, over the blocks as loaded. -/
theorem out_eq (x0 : Vec Ideal S10000x6 .f32) (x1 : Vec Ideal S3x10 .f32) (x2 : Vec Ideal S1x10 .f32)
    (x3 : Vec Ideal S10x10 .f32) (x4 : Vec Ideal S1x10 .f32) (x5 : Vec Ideal S3x10 .f32) (x6 : Vec Ideal S1x10 .f32)
    (x7 : Vec Ideal S10x10 .f32) (x8 : Vec Ideal S1x10 .f32) (x9 : Vec Ideal S10x100 .f32) (x10 : Vec Ideal S1x100 .f32)
    (x11 : Vec Ideal S100x3 .f32) (x12 : Vec Ideal S1x3 .f32) (x13 : Vec Ideal S1x1 .f32) :
    out1_14 x0 x1 x2 x3 x4 x5 x6 x7 x8 x9 x10 x11 x12 x13
      = k1_pay1 (k1_pay2 x7) (k1_pay3 x9) (k1_pay4 x11) (k1_pay5 x0 x1 x3 x2 x4) (k1_pay6 x0 x5 x6) x8 x13 x10 x12 := by
  unfold out1_14
  rw [View.canon_unit_zero hz]
  simp only [View.ld_unit_zero (S := S10000x6) hz, View.ld_unit_zero (S := S3x10) hz, View.ld_unit_zero (S := S10x10) hz,
    View.ld_unit_zero (S := S10x100) hz, View.ld_unit_zero (S := S100x3) hz, View.ld_unit_zero (S := S1x10) hz,
    View.ld_unit_zero (S := S1x1) hz, View.ld_unit_zero (S := S1x100) hz, View.ld_unit_zero (S := S1x3) hz]

/-- Entry \`(r, q)\` of what point \`t\` leaves in the result's buffer is the function \`G\` at row \`10000 t + r\`. -/
theorem point_apply (c : Dev nD) (t : Fin cfg1.N) (r : Fin 10000) (q : Fin 3) (n : Fin 2000000)
    (hn : n.val = t.val * 10000 + r.val) :
    out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (ix2 r q) = G V c (ix2 n q) := by
  rw [out_eq]
  refine (OutPayload.block_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) r q).trans ?_
  rw [blk1 V c t, blk2 V c t, blk3 V c t, blk4 V c t, blk5 V c t, blk6 V c t, blk7 V c t, blk8 V c t, blk9 V c t, blk10 V c t, blk11 V c t, blk12 V c t, blk13 V c t,
    show (fun i => iblk1 V c 0 t (ix2 r (Mlp.lo3 i))) = (fun i => aX V c (ix2 n (Mlp.lo3 i))) from
      funext fun i => blk0 V c t r (Mlp.lo3 i) n hn,
    show (fun i => iblk1 V c 0 t (ix2 r (Mlp.hi3 i))) = (fun i => aX V c (ix2 n (Mlp.hi3 i))) from
      funext fun i => blk0 V c t r (Mlp.hi3 i) n hn]
  rfl

/-- WHAT POINT \`t\` WRITES BACK is block \`t\` of \`G\`. -/
theorem flushed_eq (c : Dev nD) (t : Fin cfg1.N) :
    (dat1 V c).flushed 14 t = ((cfg1.win 14).blk t).view.read (Elt Ideal) (G V c) := by
  show (cfg1.win 14).cut (grid1.coords t) ((dat1 V c).after 14 t) = _
  rw [after1_14]
  funext y
  have hy0 : (y 0).val < 10000 := (y 0).isLt
  have hy1 : (y 1).val < 3 := (y 1).isLt
  have hN : cfg1.N = 200 := N_1
  have ht : t.val < 200 := hN ▸ t.isLt
  have hn : t.val * 10000 + (y 0).val < 2000000 := by omega
  obtain ⟨e0, e1⟩ := idx_out t
  have el : (cfg1.win 14).xinj (grid1.coords t) y = ix2 (⟨(y 0).val, hy0⟩ : Fin 10000) (⟨(y 1).val, hy1⟩ : Fin 3) :=
    funext fun a => by
      match a with
      | ⟨0, _⟩ => rfl
      | ⟨1, _⟩ => rfl
  have er : ((cfg1.win 14).blk t).view.emb y
      = ix2 (⟨t.val * 10000 + (y 0).val, hn⟩ : Fin 2000000) (⟨(y 1).val, hy1⟩ : Fin 3) := funext fun a => Fin.ext (by
    match a with
    | ⟨0, _⟩ => show win1_14.index t (0 : Fin 2) * 10000 + 1 * (y 0).val = t.val * 10000 + (y 0).val; rw [e0]; omega
    | ⟨1, _⟩ => show win1_14.index t (1 : Fin 2) * 3 + 1 * (y 1).val = (y 1).val; rw [e1]; omega)
  show out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) ((cfg1.win 14).xinj (grid1.coords t) y) = G V c (((cfg1.win 14).blk t).view.emb y)
  rw [el, er]
  exact point_apply V c t _ _ _ rfl

/-! ## The blocks cover the array -/

/-- An index of the result array is in point \`t\`'s block iff each coordinate is in the block's range on its axis. -/
theorem mem_blk (t : Fin cfg1.N) (i : S2000000x3.Idx) :
    i ∈ ((cfg1.win 14).blk t).view.set ↔ ∀ a : Fin 2, win1_14.index t a * S10000x3.size a ≤ (i a).val
      ∧ (i a).val < win1_14.index t a * S10000x3.size a + S10000x3.size a := by
  show i ∈ ((View.whole main_v22).slice (win1_14.rect t)).set ↔ _
  rw [View.set_slice_whole, Rect.mem_set_unit]
  exact Iff.rfl

/-- Row \`n\` is in the block of point \`n / 10000\`. -/
theorem cover (i : S2000000x3.Idx) :
    ∃ t : Fin cfg1.N, (cfg1.win 14).flush t = true ∧ i ∈ ((cfg1.win 14).blk t).view.set := by
  have hi0 : (i 0).val < 2000000 := (i 0).isLt
  have hi1 : (i 1).val < 3 := (i 1).isLt
  have hN : cfg1.N = 200 := N_1
  obtain ⟨t, ht⟩ : ∃ t : Fin cfg1.N, t.val = (i 0).val / 10000 := ⟨⟨(i 0).val / 10000, by rw [hN]; omega⟩, rfl⟩
  obtain ⟨e0, e1⟩ := idx_out t
  refine ⟨t, flush1_14 t, ?_⟩
  rw [mem_blk]
  intro a
  match a with
  | ⟨0, _⟩ =>
    show win1_14.index t (0 : Fin 2) * 10000 ≤ (i 0).val ∧ (i 0).val < win1_14.index t (0 : Fin 2) * 10000 + 10000
    rw [e0]; omega
  | ⟨1, _⟩ =>
    show win1_14.index t (1 : Fin 2) * 3 ≤ (i 1).val ∧ (i 1).val < win1_14.index t (1 : Fin 2) * 3 + 3
    rw [e1]; omega

/-! ## The result array after the region -/

/-- The result array after all the points is \`G\` of the arrays the region found. -/
theorem final_arr (c : Dev nD) : (dat1 V c).arrAt 14 cfg1.N = G V c :=
  (dat1 V c).arrAt_eq_of_cover 14 (G V c) (fun t _ => flushed_eq V c t) (cover)

/-- Entry by entry: row \`n\`, column \`q\` of the result is the last perceptron on the product of row \`n\`'s two feature
    vectors, scaled by the scale array's one entry. -/
theorem final_out (c : Dev nD) : ∀ (n : Fin 2000000) (q : Fin 3),
    (dat1 V c).arrAt 14 cfg1.N (ix2 n q)
      = Mlp.scaleOut (Mlp.sArr (Mlp.m2 (aX V c)) (Mlp.m2 (aSW1 V c)) (Mlp.r1 (aSB1 V c)) (Mlp.m2 (aSW2 V c)) (Mlp.r1 (aSB2 V c)))
          (Mlp.pArr (Mlp.m2 (aX V c)) (Mlp.m2 (aPW1 V c)) (Mlp.r1 (aPB1 V c)) (Mlp.m2 (aPW2 V c)) (Mlp.r1 (aPB2 V c)))
          (aINV V c (ix2 (0 : Fin 1) (0 : Fin 1))) (Mlp.m2 (aOW1 V c)) (Mlp.r1 (aOB1 V c)) (Mlp.m2 (aOW2 V c))
          (Mlp.r1 (aOB2 V c)) n q := fun n q => by
  rw [final_arr]
  rfl

end Cert.OutRegion

end
-- ==== Proof.Bridge.lean ====
/-
  The idealized kernel's result, entry by entry, as one function of the argument arrays.

  The first region leaves in each accumulator array the two cores' totals, whose sum is the sum of the squared
  features over all rows; the host turns the two sums into the scale, one over the product of their square
  roots; the second region writes, for every row, the last perceptron of the row's feature products times the
  scale.  Both regions and the host read the arguments, the weights and the reshaped biases as launched.
-/
import proofs.«174386_j12687333392689_2_alg».proof.Proof.KernelRun
import proofs.«174386_j12687333392689_2_alg».proof.Proof.HostSide
import proofs.«174386_j12687333392689_2_alg».proof.Proof.SumAcc
import proofs.«174386_j12687333392689_2_alg».proof.Proof.SumTotal
import proofs.«174386_j12687333392689_2_alg».proof.Proof.OutRegion

set_option maxRecDepth 16384

noncomputable section

open Idealize.ShloMosaic Idealize.ShloMosaic.TcCoe Idealize.SL.Sem Idealize.ShloMosaic.ValueIdx
open Idealize.ShloMosaic.Pipeline (Dat)

namespace Cert.Bridge

open Cert.KernelIdeal Cert.KernelIdeal.Gen

variable (m : (ℓ : Loc nD τ sig) → Buf (Elt Ideal) ℓ) (ρ : Dev nD → PrngReg)

attribute [local irreducible] Cert.Mlp.sumsq

/-- A bias vector reshaped to a one-row array, read as a row, is the vector. -/
theorem r1_reshape {b : ℕ} (x : (⟨1, ![b]⟩ : Shape).Idx → EReal) (h : (⟨1, ![b]⟩ : Shape).ShapeCasts ⟨2, ![1, b]⟩) :
    Mlp.r1 (shapeCast ⟨2, ![1, b]⟩ x h) = Mlp.v1 x :=
  funext fun q => RowBroadcast.shapeCast_flat_apply x h 0 q

/-- The first features of every row, from the arrays the first region finds, are those of the launch arguments. -/
theorem sFeat_in (c : Dev nD) : SumRows.sFeat (V1 m ρ) c = (Mlp.sArr (Mlp.m2 (m ((c : Thread nD τ).loc main_arg0))) (Mlp.m2 (m ((c : Thread nD τ).loc main_arg1))) (Mlp.v1 (m ((c : Thread nD τ).loc main_arg2))) (Mlp.m2 (m ((c : Thread nD τ).loc main_arg3))) (Mlp.v1 (m ((c : Thread nD τ).loc main_arg4)))) := by
  unfold SumRows.sFeat
  rw [show SumRows.bX (V1 m ρ) c = (m ((c : Thread nD τ).loc main_arg0)) from HostSide.in_main_arg0 m ρ c,
    show SumRows.bSW1 (V1 m ρ) c = (m ((c : Thread nD τ).loc main_arg1)) from HostSide.in_main_arg1 m ρ c,
    show SumRows.bSB1 (V1 m ρ) c = _ from HostSide.in_main_v0 m ρ c,
    show SumRows.bSW2 (V1 m ρ) c = (m ((c : Thread nD τ).loc main_arg3)) from HostSide.in_main_arg3 m ρ c,
    show SumRows.bSB2 (V1 m ρ) c = _ from HostSide.in_main_v1 m ρ c, r1_reshape, r1_reshape]

/-- The second features of every row, likewise. -/
theorem pFeat_in (c : Dev nD) : SumRows.pFeat (V1 m ρ) c = (Mlp.pArr (Mlp.m2 (m ((c : Thread nD τ).loc main_arg0))) (Mlp.m2 (m ((c : Thread nD τ).loc main_arg5))) (Mlp.v1 (m ((c : Thread nD τ).loc main_arg6))) (Mlp.m2 (m ((c : Thread nD τ).loc main_arg7))) (Mlp.v1 (m ((c : Thread nD τ).loc main_arg8)))) := by
  unfold SumRows.pFeat
  rw [show SumRows.bX (V1 m ρ) c = (m ((c : Thread nD τ).loc main_arg0)) from HostSide.in_main_arg0 m ρ c,
    show SumRows.bPW1 (V1 m ρ) c = (m ((c : Thread nD τ).loc main_arg5)) from HostSide.in_main_arg5 m ρ c,
    show SumRows.bPB1 (V1 m ρ) c = _ from HostSide.in_main_v2 m ρ c,
    show SumRows.bPW2 (V1 m ρ) c = (m ((c : Thread nD τ).loc main_arg7)) from HostSide.in_main_arg7 m ρ c,
    show SumRows.bPB2 (V1 m ρ) c = _ from HostSide.in_main_v3 m ρ c, r1_reshape, r1_reshape]

/-- The two cores' totals of the first accumulator add up to the sum of the squared first features. -/
theorem total_s (c : Dev nD) :
    HostSide.accS m ρ c (ix2 0 ⟨0, by decide⟩) + HostSide.accS m ρ c (ix2 0 ⟨128, by decide⟩) = Mlp.sumsq (Mlp.sArr (Mlp.m2 (m ((c : Thread nD τ).loc main_arg0))) (Mlp.m2 (m ((c : Thread nD τ).loc main_arg1))) (Mlp.v1 (m ((c : Thread nD τ).loc main_arg2))) (Mlp.m2 (m ((c : Thread nD τ).loc main_arg3))) (Mlp.v1 (m ((c : Thread nD τ).loc main_arg4)))) := by
  have e : HostSide.accS m ρ c = SumAcc.totS (V1 m ρ) c := (W2_arr m ρ c 9).trans (SumAcc.final_s (V1 m ρ) c)
  rw [e, ← sFeat_in m ρ c, ← SumTotal.halves_s (V1 m ρ) c]
  rfl

/-- The two cores' totals of the second accumulator add up to the sum of the squared second features. -/
theorem total_p (c : Dev nD) :
    HostSide.accP m ρ c (ix2 0 ⟨0, by decide⟩) + HostSide.accP m ρ c (ix2 0 ⟨128, by decide⟩) = Mlp.sumsq (Mlp.pArr (Mlp.m2 (m ((c : Thread nD τ).loc main_arg0))) (Mlp.m2 (m ((c : Thread nD τ).loc main_arg5))) (Mlp.v1 (m ((c : Thread nD τ).loc main_arg6))) (Mlp.m2 (m ((c : Thread nD τ).loc main_arg7))) (Mlp.v1 (m ((c : Thread nD τ).loc main_arg8)))) := by
  have e : HostSide.accP m ρ c = SumAcc.totP (V1 m ρ) c := (W2_arr m ρ c 10).trans (SumAcc.final_p (V1 m ρ) c)
  rw [e, ← pFeat_in m ρ c, ← SumTotal.halves_p (V1 m ρ) c]
  rfl

/-- The result array after the run, at row `n` and column `q`. -/
theorem result_apply (c : Dev nD) (n : Fin 2000000) (q : Fin 3) :
    W4 m ρ c (Proc.devRef .tc main_v22) (ix2 n q)
      = Mlp.scaleOut (Mlp.sArr (Mlp.m2 (m ((c : Thread nD τ).loc main_arg0))) (Mlp.m2 (m ((c : Thread nD τ).loc main_arg1))) (Mlp.v1 (m ((c : Thread nD τ).loc main_arg2))) (Mlp.m2 (m ((c : Thread nD τ).loc main_arg3))) (Mlp.v1 (m ((c : Thread nD τ).loc main_arg4)))) (Mlp.pArr (Mlp.m2 (m ((c : Thread nD τ).loc main_arg0))) (Mlp.m2 (m ((c : Thread nD τ).loc main_arg5))) (Mlp.v1 (m ((c : Thread nD τ).loc main_arg6))) (Mlp.m2 (m ((c : Thread nD τ).loc main_arg7))) (Mlp.v1 (m ((c : Thread nD τ).loc main_arg8))))
          (Ideal.div 1 (Ideal.sqrt (Mlp.sumsq (Mlp.sArr (Mlp.m2 (m ((c : Thread nD τ).loc main_arg0))) (Mlp.m2 (m ((c : Thread nD τ).loc main_arg1))) (Mlp.v1 (m ((c : Thread nD τ).loc main_arg2))) (Mlp.m2 (m ((c : Thread nD τ).loc main_arg3))) (Mlp.v1 (m ((c : Thread nD τ).loc main_arg4))))) * Ideal.sqrt (Mlp.sumsq (Mlp.pArr (Mlp.m2 (m ((c : Thread nD τ).loc main_arg0))) (Mlp.m2 (m ((c : Thread nD τ).loc main_arg5))) (Mlp.v1 (m ((c : Thread nD τ).loc main_arg6))) (Mlp.m2 (m ((c : Thread nD τ).loc main_arg7))) (Mlp.v1 (m ((c : Thread nD τ).loc main_arg8)))))))
          (Mlp.m2 (m ((c : Thread nD τ).loc main_arg9))) (Mlp.v1 (m ((c : Thread nD τ).loc main_arg10))) (Mlp.m2 (m ((c : Thread nD τ).loc main_arg11))) (Mlp.v1 (m ((c : Thread nD τ).loc main_arg12))) n q := by
  refine (congrFun (W4_arr m ρ c 14) (ix2 n q)).trans ((OutRegion.final_out (V3 m ρ) c n q).trans ?_)
  rw [show OutRegion.aX (V3 m ρ) c = (m ((c : Thread nD τ).loc main_arg0)) from HostSide.out_main_arg0 m ρ c,
    show OutRegion.aSW1 (V3 m ρ) c = (m ((c : Thread nD τ).loc main_arg1)) from HostSide.out_main_arg1 m ρ c,
    show OutRegion.aSB1 (V3 m ρ) c = _ from HostSide.out_main_v0 m ρ c,
    show OutRegion.aSW2 (V3 m ρ) c = (m ((c : Thread nD τ).loc main_arg3)) from HostSide.out_main_arg3 m ρ c,
    show OutRegion.aSB2 (V3 m ρ) c = _ from HostSide.out_main_v1 m ρ c,
    show OutRegion.aPW1 (V3 m ρ) c = (m ((c : Thread nD τ).loc main_arg5)) from HostSide.out_main_arg5 m ρ c,
    show OutRegion.aPB1 (V3 m ρ) c = _ from HostSide.out_main_v2 m ρ c,
    show OutRegion.aPW2 (V3 m ρ) c = (m ((c : Thread nD τ).loc main_arg7)) from HostSide.out_main_arg7 m ρ c,
    show OutRegion.aPB2 (V3 m ρ) c = _ from HostSide.out_main_v3 m ρ c,
    show OutRegion.aOW1 (V3 m ρ) c = (m ((c : Thread nD τ).loc main_arg9)) from HostSide.out_main_arg9 m ρ c,
    show OutRegion.aOB1 (V3 m ρ) c = _ from HostSide.out_main_v4 m ρ c,
    show OutRegion.aOW2 (V3 m ρ) c = (m ((c : Thread nD τ).loc main_arg11)) from HostSide.out_main_arg11 m ρ c,
    show OutRegion.aOB2 (V3 m ρ) c = _ from HostSide.out_main_v5 m ρ c,
    show OutRegion.aINV (V3 m ρ) c (ix2 (0 : Fin 1) (0 : Fin 1)) = _ from HostSide.out_scale m ρ c,
    total_s m ρ c, total_p m ρ c, r1_reshape, r1_reshape, r1_reshape, r1_reshape, r1_reshape, r1_reshape]

end Cert.Bridge

end
-- ==== Proof.RefBranch.lean ====
/-
  The reference program's two feature branches read as the shared mathematics.

  Each row's first three numbers go through the first branch's two layers (three inputs, ten hidden units clamped
  at zero, ten outputs) and its last three through the second branch's, with other weights.  Every stage is read at
  an explicit row and column: a product of arrays is the sum over the shared index, a bias is the same vector on
  every row, and clamping at zero is the maximum with zero.
-/
import proofs.«174386_j12687333392689_2_alg».proof.Proof.Gen.ReferenceIdeal.Read
import proofs.«174386_j12687333392689_2_alg».proof.Proof.Spec

noncomputable section

namespace Cert.RefSide

open Cert.ReferenceIdeal Cert.ReferenceIdeal.Gen Cert.ReferenceIdeal.Read Idealize.ShloMosaic Idealize.ShloMosaic.ValueIdx
open scoped BigOperators

variable (x : (⟨S2000000x6, .f32⟩ : BufTy).Contents (Elt Ideal))
  (sw1 : (⟨S3x10, .f32⟩ : BufTy).Contents (Elt Ideal)) (sb1 : (⟨S10, .f32⟩ : BufTy).Contents (Elt Ideal))
  (sw2 : (⟨S10x10, .f32⟩ : BufTy).Contents (Elt Ideal)) (sb2 : (⟨S10, .f32⟩ : BufTy).Contents (Elt Ideal))
  (pw1 : (⟨S3x10, .f32⟩ : BufTy).Contents (Elt Ideal)) (pb1 : (⟨S10, .f32⟩ : BufTy).Contents (Elt Ideal))
  (pw2 : (⟨S10x10, .f32⟩ : BufTy).Contents (Elt Ideal)) (pb2 : (⟨S10, .f32⟩ : BufTy).Contents (Elt Ideal))
  (ow1 : (⟨S10x100, .f32⟩ : BufTy).Contents (Elt Ideal)) (ob1 : (⟨S100, .f32⟩ : BufTy).Contents (Elt Ideal))
  (ow2 : (⟨S100x3, .f32⟩ : BufTy).Contents (Elt Ideal)) (ob2 : (⟨S3, .f32⟩ : BufTy).Contents (Elt Ideal))

/-! ## Where each stage reads its operands -/

/-- The slice of the first three columns reads column `lo3 i` of the same row. -/
theorem idx_lo (n : Fin 2000000) (i : Fin 3) : idx_main_v0 (ix2 n i) = ix2 n (Mlp.lo3 i) :=
  funext fun a => Fin.ext (by match a with | ⟨0, _⟩ => rfl | ⟨1, _⟩ => rfl)

/-- The first layer's product at row `n`, unit `k` reads the row's entry `i` … -/
theorem lidx1 (n : Fin 2000000) (k : Fin 10) (i : Fin 3) : lidx_main_v1 (ix2 n k) i = ix2 n i :=
  funext fun a => Fin.ext (by match a with | ⟨0, _⟩ => rfl | ⟨1, _⟩ => rfl)
/-- … against the weight in row `i`, column `k`. -/
theorem ridx1 (n : Fin 2000000) (k : Fin 10) (i : Fin 3) : ridx_main_v1 (ix2 n k) i = ix2 i k :=
  funext fun a => Fin.ext (by match a with | ⟨0, _⟩ => rfl | ⟨1, _⟩ => rfl)
/-- The bias broadcast down the rows reads position `k` of the bias vector. -/
theorem bidx1 (n : Fin 2000000) (k : Fin 10) : idx_main_v2 (idx_main_v3 (ix2 n k)) = ix1 k :=
  funext fun a => Fin.ext (by match a with | ⟨0, _⟩ => rfl)

/-! ## The first branch -/

/-- A hidden unit of the first branch at row `n`. -/
theorem hid_s (n : Fin 2000000) (k : Fin 10) :
    val_main_v5 (F := Ideal) x sw1 sb1 (ix2 n k)
      = Mlp.hid (fun i => Mlp.m2 x n (Mlp.lo3 i)) (Mlp.m2 sw1) (Mlp.v1 sb1) k := by
  rw [val_main_v5_apply, val_main_v4_apply, val_main_v1_apply, val_main_v3_apply, val_main_v2_apply,
    val_main_call0_v0_apply, val_main_call0_cst_apply]
  simp only [val_main_v0_apply, lidx1, ridx1, bidx1, idx_lo, Ideal.maximumf_def, Ideal.addf_def,
    Ideal.ofBits_def, Ideal.ofBits_zero_f32]
  rfl

theorem lidx6 (n : Fin 2000000) (j k : Fin 10) : lidx_main_v6 (ix2 n j) k = ix2 n k :=
  funext fun a => Fin.ext (by match a with | ⟨0, _⟩ => rfl | ⟨1, _⟩ => rfl)
theorem ridx6 (n : Fin 2000000) (j k : Fin 10) : ridx_main_v6 (ix2 n j) k = ix2 k j :=
  funext fun a => Fin.ext (by match a with | ⟨0, _⟩ => rfl | ⟨1, _⟩ => rfl)
theorem bidx6 (n : Fin 2000000) (j : Fin 10) : idx_main_v7 (idx_main_v8 (ix2 n j)) = ix1 j :=
  funext fun a => Fin.ext (by match a with | ⟨0, _⟩ => rfl)

/-- The first branch's feature `j` of row `n`. -/
theorem feat_s (n : Fin 2000000) (j : Fin 10) :
    val_main_v9 (F := Ideal) x sw1 sb1 sw2 sb2 (ix2 n j)
      = Mlp.sArr (Mlp.m2 x) (Mlp.m2 sw1) (Mlp.v1 sb1) (Mlp.m2 sw2) (Mlp.v1 sb2) n j := by
  rw [val_main_v9_apply, val_main_v6_apply, val_main_v8_apply, val_main_v7_apply]
  simp only [lidx6, ridx6, bidx6, hid_s, Ideal.addf_def]
  rfl

/-! ## The second branch: the same two layers on the row's last three numbers -/

theorem idx_hi (n : Fin 2000000) (i : Fin 3) : idx_main_v10 (ix2 n i) = ix2 n (Mlp.hi3 i) :=
  funext fun a => Fin.ext (by match a with | ⟨0, _⟩ => rfl | ⟨1, _⟩ => rfl)
theorem lidx11 (n : Fin 2000000) (k : Fin 10) (i : Fin 3) : lidx_main_v11 (ix2 n k) i = ix2 n i :=
  funext fun a => Fin.ext (by match a with | ⟨0, _⟩ => rfl | ⟨1, _⟩ => rfl)
theorem ridx11 (n : Fin 2000000) (k : Fin 10) (i : Fin 3) : ridx_main_v11 (ix2 n k) i = ix2 i k :=
  funext fun a => Fin.ext (by match a with | ⟨0, _⟩ => rfl | ⟨1, _⟩ => rfl)
theorem bidx11 (n : Fin 2000000) (k : Fin 10) : idx_main_v12 (idx_main_v13 (ix2 n k)) = ix1 k :=
  funext fun a => Fin.ext (by match a with | ⟨0, _⟩ => rfl)
theorem lidx16 (n : Fin 2000000) (j k : Fin 10) : lidx_main_v16 (ix2 n j) k = ix2 n k :=
  funext fun a => Fin.ext (by match a with | ⟨0, _⟩ => rfl | ⟨1, _⟩ => rfl)
theorem ridx16 (n : Fin 2000000) (j k : Fin 10) : ridx_main_v16 (ix2 n j) k = ix2 k j :=
  funext fun a => Fin.ext (by match a with | ⟨0, _⟩ => rfl | ⟨1, _⟩ => rfl)
theorem bidx16 (n : Fin 2000000) (j : Fin 10) : idx_main_v17 (idx_main_v18 (ix2 n j)) = ix1 j :=
  funext fun a => Fin.ext (by match a with | ⟨0, _⟩ => rfl)

/-- A hidden unit of the second branch at row `n`. -/
theorem hid_p (n : Fin 2000000) (k : Fin 10) :
    val_main_v15 (F := Ideal) x pw1 pb1 (ix2 n k)
      = Mlp.hid (fun i => Mlp.m2 x n (Mlp.hi3 i)) (Mlp.m2 pw1) (Mlp.v1 pb1) k := by
  rw [val_main_v15_apply, val_main_v14_apply, val_main_v11_apply, val_main_v13_apply, val_main_v12_apply,
    val_main_call1_v0_apply, val_main_call1_cst_apply]
  simp only [val_main_v10_apply, lidx11, ridx11, bidx11, idx_hi, Ideal.maximumf_def, Ideal.addf_def,
    Ideal.ofBits_def, Ideal.ofBits_zero_f32]
  rfl

/-- The second branch's feature `j` of row `n`. -/
theorem feat_p (n : Fin 2000000) (j : Fin 10) :
    val_main_v19 (F := Ideal) x pw1 pb1 pw2 pb2 (ix2 n j)
      = Mlp.pArr (Mlp.m2 x) (Mlp.m2 pw1) (Mlp.v1 pb1) (Mlp.m2 pw2) (Mlp.v1 pb2) n j := by
  rw [val_main_v19_apply, val_main_v16_apply, val_main_v18_apply, val_main_v17_apply]
  simp only [lidx16, ridx16, bidx16, hid_p, Ideal.addf_def]
  rfl

end Cert.RefSide

end
-- ==== Proof.RefSide.lean ====
/-
  The reference program read as the shared mathematics.

  Both feature arrays are measured by the square root of the sum of their squared entries; a sum over every entry of
  an array is the double sum over its rows and columns.  Each feature is divided by its own array's norm, the two
  quotients are multiplied entrywise, and the last perceptron (ten inputs, a hundred hidden units clamped at zero,
  three outputs) maps the product to the row's result.
-/
import proofs.«174386_j12687333392689_2_alg».proof.Proof.RefBranch

noncomputable section

namespace Cert.RefSide

open Cert.ReferenceIdeal Cert.ReferenceIdeal.Gen Cert.ReferenceIdeal.Read Idealize.ShloMosaic Idealize.ShloMosaic.ValueIdx
open scoped BigOperators

variable (x : (⟨S2000000x6, .f32⟩ : BufTy).Contents (Elt Ideal))
  (sw1 : (⟨S3x10, .f32⟩ : BufTy).Contents (Elt Ideal)) (sb1 : (⟨S10, .f32⟩ : BufTy).Contents (Elt Ideal))
  (sw2 : (⟨S10x10, .f32⟩ : BufTy).Contents (Elt Ideal)) (sb2 : (⟨S10, .f32⟩ : BufTy).Contents (Elt Ideal))
  (pw1 : (⟨S3x10, .f32⟩ : BufTy).Contents (Elt Ideal)) (pb1 : (⟨S10, .f32⟩ : BufTy).Contents (Elt Ideal))
  (pw2 : (⟨S10x10, .f32⟩ : BufTy).Contents (Elt Ideal)) (pb2 : (⟨S10, .f32⟩ : BufTy).Contents (Elt Ideal))
  (ow1 : (⟨S10x100, .f32⟩ : BufTy).Contents (Elt Ideal)) (ob1 : (⟨S100, .f32⟩ : BufTy).Contents (Elt Ideal))
  (ow2 : (⟨S100x3, .f32⟩ : BufTy).Contents (Elt Ideal)) (ob2 : (⟨S3, .f32⟩ : BufTy).Contents (Elt Ideal))

/-! ## The two norms -/

/-- The sum of the squared entries of the first feature array: the sum over every entry is the double sum over
    rows and columns, and each entry of the squared array is the feature times itself. -/
theorem sumsq_s (i : S_.Idx) :
    val_main_v21 (F := Ideal) x sw1 sb1 sw2 sb2 i
      = Mlp.sumsq (Mlp.sArr (Mlp.m2 x) (Mlp.m2 sw1) (Mlp.v1 sb1) (Mlp.m2 sw2) (Mlp.v1 sb2)) := by
  have hsum : ∑ j : S2000000x10.Idx, val_main_v20 (F := Ideal) x sw1 sb1 sw2 sb2 j
      = Mlp.sumsq (Mlp.sArr (Mlp.m2 x) (Mlp.m2 sw1) (Mlp.v1 sb1) (Mlp.m2 sw2) (Mlp.v1 sb2)) :=
    (sum_idx2 _).trans (Finset.sum_congr rfl fun n _ => Finset.sum_congr rfl fun j _ => by
      rw [val_main_v20_apply, feat_s, Ideal.mulf_def])
  rw [val_main_v21_apply, val_main_cst_apply, Ideal.ofBits_def, Ideal.ofBits_zero_f32, zero_add]
  exact hsum

/-- The sum of the squared entries of the second feature array. -/
theorem sumsq_p (i : S_.Idx) :
    val_main_v24 (F := Ideal) x pw1 pb1 pw2 pb2 i
      = Mlp.sumsq (Mlp.pArr (Mlp.m2 x) (Mlp.m2 pw1) (Mlp.v1 pb1) (Mlp.m2 pw2) (Mlp.v1 pb2)) := by
  have hsum : ∑ j : S2000000x10.Idx, val_main_v23 (F := Ideal) x pw1 pb1 pw2 pb2 j
      = Mlp.sumsq (Mlp.pArr (Mlp.m2 x) (Mlp.m2 pw1) (Mlp.v1 pb1) (Mlp.m2 pw2) (Mlp.v1 pb2)) :=
    (sum_idx2 _).trans (Finset.sum_congr rfl fun n _ => Finset.sum_congr rfl fun j _ => by
      rw [val_main_v23_apply, feat_p, Ideal.mulf_def])
  rw [val_main_v24_apply, val_main_cst_0_apply, Ideal.ofBits_def, Ideal.ofBits_zero_f32, zero_add]
  exact hsum

/-- The first array's norm. -/
theorem norm_s (i : S_.Idx) :
    val_main_v22 (F := Ideal) x sw1 sb1 sw2 sb2 i
      = Ideal.sqrt (Mlp.sumsq (Mlp.sArr (Mlp.m2 x) (Mlp.m2 sw1) (Mlp.v1 sb1) (Mlp.m2 sw2) (Mlp.v1 sb2))) := by
  rw [val_main_v22_apply, sumsq_s, Ideal.hostUnary_sqrt_def]

/-- The second array's norm. -/
theorem norm_p (i : S_.Idx) :
    val_main_v25 (F := Ideal) x pw1 pb1 pw2 pb2 i
      = Ideal.sqrt (Mlp.sumsq (Mlp.pArr (Mlp.m2 x) (Mlp.m2 pw1) (Mlp.v1 pb1) (Mlp.m2 pw2) (Mlp.v1 pb2))) := by
  rw [val_main_v25_apply, sumsq_p, Ideal.hostUnary_sqrt_def]

/-! ## The mixed vector and the last perceptron

Each norm enters a row's mixed vector only as a divisor, one number per feature array, the same for every row. -/

attribute [local irreducible] Cert.Mlp.sumsq

/-- Entry `j` of row `n`'s mixed vector: each feature divided by its own array's norm, then multiplied. -/
theorem mix (n : Fin 2000000) (j : Fin 10) :
    val_main_v30 (F := Ideal) x sw1 sb1 sw2 sb2 pw1 pb1 pw2 pb2 (ix2 n j)
      = Ideal.div (Mlp.sArr (Mlp.m2 x) (Mlp.m2 sw1) (Mlp.v1 sb1) (Mlp.m2 sw2) (Mlp.v1 sb2) n j)
            (Ideal.sqrt (Mlp.sumsq (Mlp.sArr (Mlp.m2 x) (Mlp.m2 sw1) (Mlp.v1 sb1) (Mlp.m2 sw2) (Mlp.v1 sb2))))
          * Ideal.div (Mlp.pArr (Mlp.m2 x) (Mlp.m2 pw1) (Mlp.v1 pb1) (Mlp.m2 pw2) (Mlp.v1 pb2) n j)
            (Ideal.sqrt (Mlp.sumsq (Mlp.pArr (Mlp.m2 x) (Mlp.m2 pw1) (Mlp.v1 pb1) (Mlp.m2 pw2) (Mlp.v1 pb2)))) := by
  rw [val_main_v30_apply, val_main_v27_apply, val_main_v29_apply, val_main_v26_apply, val_main_v28_apply,
    feat_s, feat_p, norm_s, norm_p, Ideal.hostDivf_def, Ideal.hostDivf_def, Ideal.mulf_def]

theorem lidx31 (n : Fin 2000000) (h : Fin 100) (j : Fin 10) : lidx_main_v31 (ix2 n h) j = ix2 n j :=
  funext fun a => Fin.ext (by match a with | ⟨0, _⟩ => rfl | ⟨1, _⟩ => rfl)
theorem ridx31 (n : Fin 2000000) (h : Fin 100) (j : Fin 10) : ridx_main_v31 (ix2 n h) j = ix2 j h :=
  funext fun a => Fin.ext (by match a with | ⟨0, _⟩ => rfl | ⟨1, _⟩ => rfl)
theorem bidx31 (n : Fin 2000000) (h : Fin 100) : idx_main_v32 (idx_main_v33 (ix2 n h)) = ix1 h :=
  funext fun a => Fin.ext (by match a with | ⟨0, _⟩ => rfl)
theorem lidx36 (n : Fin 2000000) (q : Fin 3) (h : Fin 100) : lidx_main_v36 (ix2 n q) h = ix2 n h :=
  funext fun a => Fin.ext (by match a with | ⟨0, _⟩ => rfl | ⟨1, _⟩ => rfl)
theorem ridx36 (n : Fin 2000000) (q : Fin 3) (h : Fin 100) : ridx_main_v36 (ix2 n q) h = ix2 h q :=
  funext fun a => Fin.ext (by match a with | ⟨0, _⟩ => rfl | ⟨1, _⟩ => rfl)
theorem bidx36 (n : Fin 2000000) (q : Fin 3) : idx_main_v37 (idx_main_v38 (ix2 n q)) = ix1 q :=
  funext fun a => Fin.ext (by match a with | ⟨0, _⟩ => rfl)

/-- A hidden unit of the last perceptron at row `n`: the mixed vector against column `h` of the first weights,
    plus the bias, clamped at zero. -/
theorem hid_o (n : Fin 2000000) (h : Fin 100) :
    val_main_v35 (F := Ideal) x sw1 sb1 sw2 sb2 pw1 pb1 pw2 pb2 ow1 ob1 (ix2 n h)
      = max ((∑ j : Fin 10, val_main_v30 (F := Ideal) x sw1 sb1 sw2 sb2 pw1 pb1 pw2 pb2 (ix2 n j) * Mlp.m2 ow1 j h)
          + Mlp.v1 ob1 h) 0 := by
  rw [val_main_v35_apply, val_main_v34_apply, val_main_v31_apply, val_main_v33_apply, val_main_v32_apply,
    val_main_call2_v0_apply, val_main_call2_cst_apply]
  simp only [lidx31, ridx31, bidx31, Ideal.maximumf_def, Ideal.addf_def, Ideal.ofBits_def, Ideal.ofBits_zero_f32]
  rfl

/-- The reference's result at row `n`, column `q` is the last perceptron on the row's mixed vector of quotients. -/
theorem result_ref (n : Fin 2000000) (q : Fin 3) :
    val_main_v39 (F := Ideal) x sw1 sb1 sw2 sb2 pw1 pb1 pw2 pb2 ow1 ob1 ow2 ob2 (ix2 n q)
      = Mlp.divOut (Mlp.sArr (Mlp.m2 x) (Mlp.m2 sw1) (Mlp.v1 sb1) (Mlp.m2 sw2) (Mlp.v1 sb2))
          (Mlp.pArr (Mlp.m2 x) (Mlp.m2 pw1) (Mlp.v1 pb1) (Mlp.m2 pw2) (Mlp.v1 pb2))
          (Mlp.m2 ow1) (Mlp.v1 ob1) (Mlp.m2 ow2) (Mlp.v1 ob2) n q := by
  rw [val_main_v39_apply, val_main_v36_apply, val_main_v38_apply, val_main_v37_apply]
  simp only [lidx36, ridx36, bidx36, hid_o, mix, Ideal.addf_def]
  rfl

end Cert.RefSide

end
-- ==== Proof.PreSide.lean ====
/-
  The precondition's last two tests say that each feature array's norm is positive, so neither norm is zero.

  The precondition measures the two feature arrays by the same operations as the reference program, row for row:
  the same slices of the input, the same two layers with the clamp at zero written as a maximum with zero, the same
  squares, the same sum over every entry and the same square root.  Its two norms are therefore the reference's,
  which are the square roots of the sums of squares of the shared feature arrays.
-/
import proofs.«174386_j12687333392689_2_alg».proof.Proof.RefSide
import proofs.«174386_j12687333392689_2_alg».proof.Pre_finite_inputs

noncomputable section

namespace Cert.RefSide

open Cert.ReferenceIdeal Cert.ReferenceIdeal.Gen Cert.ReferenceIdeal.Read Idealize.ShloMosaic Idealize.ShloMosaic.ValueIdx
open scoped BigOperators

variable (x : (⟨S2000000x6, .f32⟩ : BufTy).Contents (Elt Ideal))
  (sw1 : (⟨S3x10, .f32⟩ : BufTy).Contents (Elt Ideal)) (sb1 : (⟨S10, .f32⟩ : BufTy).Contents (Elt Ideal))
  (sw2 : (⟨S10x10, .f32⟩ : BufTy).Contents (Elt Ideal)) (sb2 : (⟨S10, .f32⟩ : BufTy).Contents (Elt Ideal))
  (pw1 : (⟨S3x10, .f32⟩ : BufTy).Contents (Elt Ideal)) (pb1 : (⟨S10, .f32⟩ : BufTy).Contents (Elt Ideal))
  (pw2 : (⟨S10x10, .f32⟩ : BufTy).Contents (Elt Ideal)) (pb2 : (⟨S10, .f32⟩ : BufTy).Contents (Elt Ideal))
  (ow1 : (⟨S10x100, .f32⟩ : BufTy).Contents (Elt Ideal)) (ob1 : (⟨S100, .f32⟩ : BufTy).Contents (Elt Ideal))
  (ow2 : (⟨S100x3, .f32⟩ : BufTy).Contents (Elt Ideal)) (ob2 : (⟨S3, .f32⟩ : BufTy).Contents (Elt Ideal))

/-- A test "the first number is greater than the second" that holds says the second is below the first. -/
theorem lt_of_ogt (a b : EReal) (h : Ideal.cmp .ogt a b = 1#1) : b < a := by
  have h' : BitVec.ofBool (decide (b < a)) = 1#1 := h
  by_contra hn
  rw [decide_eq_false hn] at h'
  exact absurd h' (by decide)

variable [Cert.Pre_finite_inputs.Facts]

/-- The precondition's last stage: if its value is "true", both norms it was handed are positive (its last two
    tests, joined to the earlier ones by "and"). -/
theorem part5_tests (v24 v27 : FVec Ideal Cert.Pre_finite_inputs.S_ .f32)
    (a : IVec Cert.Pre_finite_inputs.S_ 1) (b : IVec Cert.Pre_finite_inputs.S3 1) (c : IVec Cert.Pre_finite_inputs.S_ 1)
    (h : Cert.Pre_finite_inputs.fn_part5 (F := Ideal) v24 v27 a b c ix0 = 1#1) :
    0 < v24 ix0 ∧ 0 < v27 ix0 := by
  dsimp only [Cert.Pre_finite_inputs.fn_part5] at h
  obtain ⟨h93, h94⟩ := IntOp.andi_eq_one.1 h
  obtain ⟨_, h92⟩ := IntOp.andi_eq_one.1 h93
  have e92 : Ideal.cmp .ogt (v24 ix0) (Ideal.ofBits .f32 0x00000000#32) = 1#1 := h92
  have e94 : Ideal.cmp .ogt (v27 ix0) (Ideal.ofBits .f32 0x00000000#32) = 1#1 := h94
  rw [Ideal.ofBits_zero_f32] at e92 e94
  exact ⟨lt_of_ogt _ _ e92, lt_of_ogt _ _ e94⟩

/-! ## The precondition's norms are the reference's

The two computations apply the same operation to the same operands at every step, and the two programs' dimension
records have equal fields. -/

attribute [local irreducible] Idealize.ShloMosaic.Ideal.matmul Idealize.ShloMosaic.Ideal.hostReduceAdd
  Idealize.ShloMosaic.Host.reduce Idealize.ShloMosaic.broadcastInDim Idealize.ShloMosaic.extractStridedSlice

/-- The precondition ends in its last stage applied to the reference's two norms (and to the results of its earlier
    tests, whatever they are). -/
theorem fn_tail : ∃ a b c,
    Cert.Pre_finite_inputs.fn (F := Ideal) x sw1 sb1 sw2 sb2 pw1 pb1 pw2 pb2 ow1 ob1 ow2 ob2
      = Cert.Pre_finite_inputs.fn_part5 (F := Ideal) (val_main_v22 (F := Ideal) x sw1 sb1 sw2 sb2)
          (val_main_v25 (F := Ideal) x pw1 pb1 pw2 pb2) a b c :=
  ⟨_, _, _, rfl⟩

/-- Where the precondition holds, neither feature array's norm is zero: its last two tests are "the norm is greater
    than zero", and its norms are the reference's. -/
theorem norms_ne_zero
    (h : Cert.Pre_finite_inputs.fn (F := Ideal) x sw1 sb1 sw2 sb2 pw1 pb1 pw2 pb2 ow1 ob1 ow2 ob2 = (fun _ => 1#1)) :
    Ideal.sqrt (Mlp.sumsq (Mlp.sArr (Mlp.m2 x) (Mlp.m2 sw1) (Mlp.v1 sb1) (Mlp.m2 sw2) (Mlp.v1 sb2))) ≠ 0
      ∧ Ideal.sqrt (Mlp.sumsq (Mlp.pArr (Mlp.m2 x) (Mlp.m2 pw1) (Mlp.v1 pb1) (Mlp.m2 pw2) (Mlp.v1 pb2))) ≠ 0 := by
  obtain ⟨a, b, c, e⟩ := fn_tail x sw1 sb1 sw2 sb2 pw1 pb1 pw2 pb2 ow1 ob1 ow2 ob2
  obtain ⟨hs, hp⟩ := part5_tests _ _ a b c (congrFun (e.symm.trans h) ix0)
  rw [norm_s] at hs
  rw [norm_p] at hp
  exact ⟨hs.ne', hp.ne'⟩

end Cert.RefSide

end
-- ==== Proof.lean ====
/-
  The claim: the Pallas kernel, its idealization and the jnp reference.

  Every row of the input carries six numbers; two small perceptrons turn the first three and the last three into
  two ten-entry feature vectors `s` and `p`; each feature array is measured by its Frobenius norm over ALL rows;
  and a last perceptron maps the row's entrywise product of the two normalised feature vectors to three numbers.
  The reference divides each feature by its norm and multiplies; the kernel first adds up the squared features
  block by block (two running totals, one per core), forms one over the product of the two norms once, and in a
  second sweep multiplies each feature product by that scale.

  On the extended reals the two agree when neither norm is zero: the block sums re-associate to the one sum
  (addition is commutative and associative there, with no finiteness needed), and dividing each factor by its
  own nonzero divisor is multiplying the product by the reciprocal of the product of the divisors.  At a zero
  norm the reference's quotient is 0/0, so the claim is stated for inputs whose two norms are positive.

  The three frames are the generated ones (the reference's is its generated run with the result dropped), the
  idealization rewrote nothing, and the value claim pairs the kernel's run, its result array named entry by
  entry, with the reference's generated run read one operation at a time.
-/
import proofs.«174386_j12687333392689_2_alg».proof.Defs
import proofs.«174386_j12687333392689_2_alg».proof.Proof.Gen.Kernel
import proofs.«174386_j12687333392689_2_alg».proof.Proof.Gen.Kernel.Skeleton
import proofs.«174386_j12687333392689_2_alg».proof.Proof.Gen.Kernel.Launch
import proofs.«174386_j12687333392689_2_alg».proof.Proof.Gen.Kernel.Points
import proofs.«174386_j12687333392689_2_alg».proof.Proof.Gen.Kernel.Frame
import proofs.«174386_j12687333392689_2_alg».proof.Proof.Gen.KernelIdeal
import proofs.«174386_j12687333392689_2_alg».proof.Proof.Gen.KernelIdeal.Skeleton
import proofs.«174386_j12687333392689_2_alg».proof.Proof.Gen.KernelIdeal.Launch
import proofs.«174386_j12687333392689_2_alg».proof.Proof.Gen.KernelIdeal.Points
import proofs.«174386_j12687333392689_2_alg».proof.Proof.Gen.KernelIdeal.Frame
import proofs.«174386_j12687333392689_2_alg».proof.Proof.Gen.ReferenceIdeal
import proofs.«174386_j12687333392689_2_alg».proof.Proof.Gen.ReferenceIdeal.Run
import proofs.«174386_j12687333392689_2_alg».proof.Proof.Gen.ReferenceIdeal.Read
import proofs.«174386_j12687333392689_2_alg».proof.Proof.Gen.Pre_finite_inputs
import proofs.«174386_j12687333392689_2_alg».proof.Proof.Bridge
import proofs.«174386_j12687333392689_2_alg».proof.Proof.RefSide
import proofs.«174386_j12687333392689_2_alg».proof.Proof.PreSide
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

attribute [local irreducible] Cert.Mlp.sumsq

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of the arguments: at row `n`, column `q`, the last
    perceptron of the row's normalised feature product. -/
theorem algebraic : Cert.algebraic_KernelIdeal_ReferenceIdeal := by
  intro m ρ m' ρ' hpre hagree
  refine ⟨fun c => Cert.KernelIdeal.Gen.W4 m ρ c (Proc.devRef .tc Cert.KernelIdeal.main_v22),
    Cert.KernelRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v39_eq, a0, a1, a2, a3, a4, a5, a6, a7, a8, a9, a10, a11, a12]
  obtain ⟨hs, hp⟩ := Cert.RefSide.norms_ne_zero (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  funext i
  obtain ⟨n, q, rfl⟩ : ∃ (n : Fin 2000000) (q : Fin 3), i = ix2 n q := ⟨i 0, i 1, eq_ix2 i⟩
  rw [Cert.RefSide.result_ref]
  refine Eq.trans ?_ (Cert.Bridge.result_apply m ρ c n q).symm
  exact (Cert.Mlp.scaleOut_eq_divOut _ _ _ _ _ _ hs hp n q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
